-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S1x128 : Shape := ⟨2, ![1, 128]⟩
abbrev S2x1 : Shape := ⟨2, ![2, 1]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S2x800000 32) (main_arg2 : FVec F S1x128 .f32) (main_arg3 : IVec S2x1 32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S2x800000 : Shape := ⟨2, ![2, 800000]⟩
abbrev S1x128 : Shape := ⟨2, ![1, 128]⟩
abbrev S2x1 : Shape := ⟨2, ![2, 1]⟩
abbrev S128x128 : Shape := ⟨2, ![128, 128]⟩
abbrev S128 : Shape := ⟨1, ![128]⟩
abbrev S128x384 : Shape := ⟨2, ![128, 384]⟩
abbrev S384 : Shape := ⟨1, ![384]⟩
abbrev S1x384 : Shape := ⟨2, ![1, 384]⟩
abbrev S100000x384 : Shape := ⟨2, ![100000, 384]⟩
abbrev S2000x128 : Shape := ⟨2, ![2000, 128]⟩
abbrev S2000x384 : Shape := ⟨2, ![2000, 384]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S8 : Shape := ⟨1, ![8]⟩
abbrev S128x1 : Shape := ⟨2, ![128, 1]⟩
abbrev S1x8 : Shape := ⟨2, ![1, 8]⟩
abbrev S128x8 : Shape := ⟨2, ![128, 8]⟩
abbrev S8x128 : Shape := ⟨2, ![8, 128]⟩
abbrev S800000x8 : Shape := ⟨2, ![800000, 8]⟩
abbrev S4000x128 : Shape := ⟨2, ![4000, 128]⟩
abbrev S4000x8 : Shape := ⟨2, ![4000, 8]⟩
abbrev S100000x8 : Shape := ⟨2, ![100000, 8]⟩
abbrev S100000x8x16 : Shape := ⟨3, ![100000, 8, 16]⟩

abbrev nBuf : Space → Nat
  | .hbm => 91
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S1x128, .f32⟩
  | .hbm, ⟨3, _⟩ => ⟨S2x1, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x384, .f32⟩
  | .hbm, ⟨11, _⟩ => ⟨S384, .f32⟩
  | .hbm, ⟨12, _⟩ => ⟨S1x384, .f32⟩
  | .hbm, ⟨13, _⟩ => ⟨S100000x384, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S128, .i32⟩
  | .hbm, ⟨49, _⟩ => ⟨S_, .i32⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S128, .i32⟩
  | .hbm, ⟨54, _⟩ => ⟨S_, .i32⟩
  | .hbm, ⟨55, _⟩ => ⟨S128, .i32⟩
  | .hbm, ⟨56, _⟩ => ⟨S128, .i1⟩
  | .hbm, ⟨57, _⟩ => ⟨S128, .i32⟩
  | .hbm, ⟨58, _⟩ => ⟨S128, .i32⟩
  | .hbm, ⟨59, _⟩ => ⟨S_, .i32⟩
  | .hbm, ⟨60, _⟩ => ⟨S128, .i32⟩
  | .hbm, ⟨61, _⟩ => ⟨S128, .i1⟩
  | .hbm, ⟨62, _⟩ => ⟨S128, .i1⟩
  | .hbm, ⟨63, _⟩ => ⟨S_, .i32⟩
  | .hbm, ⟨64, _⟩ => ⟨S128, .i32⟩
  | .hbm, ⟨65, _⟩ => ⟨S128, .i32⟩
  | .hbm, ⟨66, _⟩ => ⟨S128, .i32⟩
  | .hbm, ⟨67, _⟩ => ⟨S8, .i32⟩
  | .hbm, ⟨68, _⟩ => ⟨S128x1, .i32⟩
  | .hbm, ⟨69, _⟩ => ⟨S1x8, .i32⟩
  | .hbm, ⟨70, _⟩ => ⟨S128x8, .i32⟩
  | .hbm, ⟨71, _⟩ => ⟨S128x8, .i32⟩
  | .hbm, ⟨72, _⟩ => ⟨S128x8, .i1⟩
  | .hbm, ⟨73, _⟩ => ⟨S128x8, .f32⟩
  | .hbm, ⟨74, _⟩ => ⟨S8x128, .f32⟩
  | .hbm, ⟨75, _⟩ => ⟨S800000x128, .f32⟩
  | .hbm, ⟨76, _⟩ => ⟨S800000x8, .f32⟩
  | .hbm, ⟨77, _⟩ => ⟨S_, .f32⟩
  | .hbm, ⟨78, _⟩ => ⟨S100000x128, .f32⟩
  | .hbm, ⟨79, _⟩ => ⟨S800000x1, .i32⟩
  | .hbm, ⟨80, _⟩ => ⟨S100000x128, .f32⟩
  | .hbm, ⟨81, _⟩ => ⟨S_, .f32⟩
  | .hbm, ⟨82, _⟩ => ⟨S100000x8, .f32⟩
  | .hbm, ⟨83, _⟩ => ⟨S800000x1, .i32⟩
  | .hbm, ⟨84, _⟩ => ⟨S100000x8, .f32⟩
  | .hbm, ⟨85, _⟩ => ⟨S100000x8x16, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S1x384, .f32⟩
  | .local _ .vmem, ⟨4, _⟩ => ⟨S2000x384, .f32⟩
  | .local _ .vmem, ⟨5, _⟩ => ⟨S2000x384, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x8, .f32⟩
  | .local _ .vmem, ⟨13, _⟩ => ⟨S8x128, .f32⟩
  | .local _ .vmem, ⟨14, _⟩ => ⟨S4000x128, .f32⟩
  | .local _ .vmem, ⟨15, _⟩ => ⟨S4000x128, .f32⟩
  | .local _ .vmem, ⟨16, _⟩ => ⟨S4000x8, .f32⟩
  | .local _ .vmem, ⟨17, _⟩ => ⟨S4000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_c : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_0 : Ref sig .tc := ⟨.hbm, 63, rfl⟩
abbrev main_call0_v12 : Ref sig .tc := ⟨.hbm, 64, rfl⟩
abbrev main_call0_v13 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42_0 : Ref sig .tc := ⟨.hbm, 75, rfl⟩
abbrev main_v42_1 : Ref sig .tc := ⟨.hbm, 76, rfl⟩
abbrev main_cst : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_6 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_7 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S128 : S_.BroadcastsInDim S128 (![] : Fin 0 → Fin S128.rank)
  bcast_S128_S128x1_0 : S128.BroadcastsInDim S128x1 (![0] : Fin 1 → Fin S128x1.rank)
  bcast_S8_S1x8_1 : S8.BroadcastsInDim S1x8 (![1] : Fin 1 → Fin S1x8.rank)
  bcast_S128x1_S128x8_0_1 : S128x1.BroadcastsInDim S128x8 (![0, 1] : Fin 2 → Fin S128x8.rank)
  bcast_S1x8_S128x8_0_1 : S1x8.BroadcastsInDim S128x8 (![0, 1] : Fin 2 → Fin S128x8.rank)
  transposes_S128x8_S8x128_1_0 : S128x8.Transposes [1, 0] S8x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S4000x8_S4000x8_0_0 : ∀ a, (![0, 0] : Fin 2 → Nat) a + S4000x8.size a ≤ S4000x8.size a
  h_S4000x8 : 0 < S4000x8.numel
  bcast_S_S100000x128 : S_.BroadcastsInDim S100000x128 (![] : Fin 0 → Fin S100000x128.rank)
  bcast_S_S100000x8 : S_.BroadcastsInDim S100000x8 (![] : Fin 0 → Fin S100000x8.rank)
  bcast_S100000x8_S100000x8x16_0_1 : S100000x8.BroadcastsInDim S100000x8x16 (![0, 1] : Fin 2 → Fin S100000x8x16.rank)
  shapeCasts_S100000x8x16_S100000x128 : S100000x8x16.ShapeCasts S100000x128
  dot_S2000x128_S128x384_S2000x384_1_0_0_1_n_n_wf : DotDims.WF S2000x128 S128x384 S2000x384 [1] [0] [0] [1] [] []
  gather_S100000x128_S800000x1_S800000x128_1_0_n_n_0_1_1128_wf : GatherDims.WF S100000x128 S800000x1 S800000x128 [1] [0] [] [0] [] 1 ![1, 128]
  dot_S4000x128_S128x8_S4000x8_1_0_0_1_n_n_wf : DotDims.WF S4000x128 S128x8 S4000x8 [1] [0] [0] [1] [] []
  dot_S4000x8_S8x128_S4000x128_1_0_0_1_n_n_wf : DotDims.WF S4000x8 S8x128 S4000x128 [1] [0] [0] [1] [] []
  scatter_S100000x128_S800000x1_S800000x128_1_0_0_1_wf : ScatterDims.WF S100000x128 S800000x1 S800000x128 [1] [0] [0] 1
  scatter_S100000x8_S800000x1_S800000x8_1_0_0_1_wf : ScatterDims.WF S100000x8 S800000x1 S800000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x384.size a ≤ S100000x384.size a
  hwx0_3 : ∀ i : grid0.Coords, EltTy.bits .f32 = 32 ∨ (Rect.block (s := S100000x384) S2000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S800000x128.size a
  hwx1_2 : ∀ i : grid1.Coords, EltTy.bits .f32 = 32 ∨ (Rect.block (s := S800000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x8.size a ≤ S128x8.size a
  hwx1_3 : ∀ i : grid1.Coords, EltTy.bits .f32 = 32 ∨ (Rect.block (s := S128x8) S128x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S8x128.size a
  hwx1_4 : ∀ i : grid1.Coords, EltTy.bits .f32 = 32 ∨ (Rect.block (s := S8x128) S8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S800000x128.size a
  hwx1_5 : ∀ i : grid1.Coords, EltTy.bits .f32 = 32 ∨ (Rect.block (s := S800000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x8.size a ≤ S800000x8.size a
  hwx1_6 : ∀ i : grid1.Coords, EltTy.bits .f32 = 32 ∨ (Rect.block (s := S800000x8) S4000x8.size (cc1_transform_6 i) (hinb1_6 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S4000x128_S128x8_S4000x8_1_0_0_1_n_n : DotDims S4000x128 S128x8 S4000x8 where
  lhsContracting := [1]
  rhsContracting := [0]
  lhsNonContracting := [0]
  rhsNonContracting := [1]
  lhsBatch := []
  rhsBatch := []
  wf := dot_S4000x128_S128x8_S4000x8_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000x8_S800000x1_S800000x8_1_0_0_1 : ScatterDims S100000x8 S800000x1 S800000x8 where
  updateWindowDims := [1]
  insertedWindowDims := [0]
  scatterDimsToOperandDims := [0]
  indexVectorDim := 1
  wf := scatter_S100000x8_S800000x1_S800000x8_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S8x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v42_1) S4000x8.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S1x128 : Shape := ⟨2, ![1, 128]⟩
abbrev S2x1 : Shape := ⟨2, ![2, 1]⟩
abbrev S128x128 : Shape := ⟨2, ![128, 128]⟩
abbrev S128 : Shape := ⟨1, ![128]⟩
abbrev S100000x8x16 : Shape := ⟨3, ![100000, 8, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x8x16 : Shape := ⟨3, ![800000, 8, 16]⟩
abbrev S800000x8 : Shape := ⟨2, ![800000, 8]⟩
abbrev S800000x8x1 : Shape := ⟨3, ![800000, 8, 1]⟩
abbrev S100000x8x1 : Shape := ⟨3, ![100000, 8, 1]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S1x128, .f32⟩
  | .hbm, ⟨3, _⟩ => ⟨S2x1, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S100000x128, .f32⟩
  | .hbm, ⟨11, _⟩ => ⟨S1x128, .f32⟩
  | .hbm, ⟨12, _⟩ => ⟨S100000x128, .f32⟩
  | .hbm, ⟨13, _⟩ => ⟨S100000x128, .f32⟩
  | .hbm, ⟨14, _⟩ => ⟨S100000x8x16, .f32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S100000x8x16, .f32⟩
  | .hbm, ⟨20, _⟩ => ⟨S100000x128, .f32⟩
  | .hbm, ⟨21, _⟩ => ⟨S1x128, .f32⟩
  | .hbm, ⟨22, _⟩ => ⟨S100000x128, .f32⟩
  | .hbm, ⟨23, _⟩ => ⟨S100000x128, .f32⟩
  | .hbm, ⟨24, _⟩ => ⟨S100000x8x16, .f32⟩
  | .hbm, ⟨25, _⟩ => ⟨S1x800000, .i32⟩
  | .hbm, ⟨26, _⟩ => ⟨S800000, .i32⟩
  | .hbm, ⟨27, _⟩ => ⟨S1x800000, .i32⟩
  | .hbm, ⟨28, _⟩ => ⟨S800000, .i32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x8x16, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x8x16, .f32⟩
  | .hbm, ⟨47, _⟩ => ⟨S800000x8x16, .f32⟩
  | .hbm, ⟨48, _⟩ => ⟨S_, .f32⟩
  | .hbm, ⟨49, _⟩ => ⟨S800000x8, .f32⟩
  | .hbm, ⟨50, _⟩ => ⟨S800000x8x1, .f32⟩
  | .hbm, ⟨51, _⟩ => ⟨S_, .f32⟩
  | .hbm, ⟨52, _⟩ => ⟨S800000x8x1, .f32⟩
  | .hbm, ⟨53, _⟩ => ⟨S800000x8x1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S800000x8x1, .f32⟩
  | .hbm, ⟨58, _⟩ => ⟨S800000x8x1, .f32⟩
  | .hbm, ⟨59, _⟩ => ⟨S_, .f32⟩
  | .hbm, ⟨60, _⟩ => ⟨S800000x8x1, .f32⟩
  | .hbm, ⟨61, _⟩ => ⟨S800000x8x1, .f32⟩
  | .hbm, ⟨62, _⟩ => ⟨S800000x8x1, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x8x16, .f32⟩
  | .hbm, ⟨72, _⟩ => ⟨S800000x8x16, .f32⟩
  | .hbm, ⟨73, _⟩ => ⟨S800000x8x16, .f32⟩
  | .hbm, ⟨74, _⟩ => ⟨S_, .f32⟩
  | .hbm, ⟨75, _⟩ => ⟨S100000x8x16, .f32⟩
  | .hbm, ⟨76, _⟩ => ⟨S800000x1, .i32⟩
  | .hbm, ⟨77, _⟩ => ⟨S100000x8x16, .f32⟩
  | .hbm, ⟨78, _⟩ => ⟨S_, .f32⟩
  | .hbm, ⟨79, _⟩ => ⟨S100000x8x1, .f32⟩
  | .hbm, ⟨80, _⟩ => ⟨S800000x1, .i32⟩
  | .hbm, ⟨81, _⟩ => ⟨S100000x8x1, .f32⟩
  | .hbm, ⟨82, _⟩ => ⟨S_, .f32⟩
  | .hbm, ⟨83, _⟩ => ⟨S100000x8x1, .f32⟩
  | .hbm, ⟨84, _⟩ => ⟨S100000x8x1, .f32⟩
  | .hbm, ⟨85, _⟩ => ⟨S100000x8x16, .f32⟩
  | .hbm, ⟨86, _⟩ => ⟨S100000x8x16, .f32⟩
  | .hbm, ⟨87, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_1 : Ref sig .tc := ⟨.hbm, 38, rfl⟩
abbrev main_v26 : Ref sig .tc := ⟨.hbm, 39, rfl⟩
abbrev main_v27 : Ref sig .tc := ⟨.hbm, 40, rfl⟩
abbrev main_c_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_cst_5 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v38 : Ref sig .tc := ⟨.hbm, 61, rfl⟩
abbrev main_v39 : Ref sig .tc := ⟨.hbm, 62, rfl⟩
abbrev main_c_6 : Ref sig .tc := ⟨.hbm, 63, rfl⟩
abbrev main_v40 : Ref sig .tc := ⟨.hbm, 64, rfl⟩
abbrev main_v41 : Ref sig .tc := ⟨.hbm, 65, rfl⟩
abbrev main_c_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S100000x8x16 : S100000x128.ShapeCasts S100000x8x16
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S100000x8x16 : S_.BroadcastsInDim S100000x8x16 (![] : Fin 0 → Fin S100000x8x16.rank)
  bcast_S_S100000x8x1 : S_.BroadcastsInDim S100000x8x1 (![] : Fin 0 → Fin S100000x8x1.rank)
  bcast_S100000x8x1_S100000x8x16_0_1_2 : S100000x8x1.BroadcastsInDim S100000x8x16 (![0, 1, 2] : Fin 3 → Fin S100000x8x16.rank)
  shapeCasts_S100000x8x16_S100000x128 : S100000x8x16.ShapeCasts S100000x128
  dot_S100000x128_S128x128_S100000x128_1_0_0_1_n_n_wf : DotDims.WF S100000x128 S128x128 S100000x128 [1] [0] [0] [1] [] []
  gather_S100000x8x16_S800000x1_S800000x8x16_12_0_n_n_0_1_1816_wf : GatherDims.WF S100000x8x16 S800000x1 S800000x8x16 [1, 2] [0] [] [0] [] 1 ![1, 8, 16]
  scatter_S100000x8x16_S800000x1_S800000x8x16_12_0_0_1_wf : ScatterDims.WF S100000x8x16 S800000x1 S800000x8x16 [1, 2] [0] [0] 1
  scatter_S100000x8x1_S800000x1_S800000x8x1_12_0_0_1_wf : ScatterDims.WF S100000x8x1 S800000x1 S800000x8x1 [1, 2] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x8x16_S800000x1_S800000x8x16_12_0_n_n_0_1_1816 : GatherDims S100000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S100000x8x16_S800000x1_S800000x8x16_12_0_n_n_0_1_1816_wf
def scatter_S100000x8x16_S800000x1_S800000x8x16_12_0_0_1 : ScatterDims S100000x8x16 S800000x1 S800000x8x16 where
  updateWindowDims := [1, 2]
  insertedWindowDims := [0]
  scatterDimsToOperandDims := [0]
  indexVectorDim := 1
  wf := scatter_S100000x8x16_S800000x1_S800000x8x16_12_0_0_1_wf
def scatter_S100000x8x1_S800000x1_S800000x8x1_12_0_0_1 : ScatterDims S100000x8x1 S800000x1 S800000x8x1 where
  updateWindowDims := [1, 2]
  insertedWindowDims := [0]
  scatterDimsToOperandDims := [0]
  indexVectorDim := 1
  wf := scatter_S100000x8x1_S800000x1_S800000x8x1_12_0_0_1_wf

class Facts : Prop extends Facts₀ where

variable [Facts]
-- ==== Proof.KBRegion0.lean ====
/-
  One half of the kernel program's frame: the launch of its projection kernel (features times the three weight matrices side by side, plus the bias row) as a pipeline over its grid. The body reads
  each input window's staged block whole, computes, and stores each output window's buffer whole; so after the body at a
  grid point an output's staging buffer is one pure function of the input blocks at that point, the inputs are as they
  were, and the pipeline's bookkeeping (the invariant, what is owed) passes through unread. Stated at a parameter
  `V`, the contents of the core's buffers when the region is entered, so that the run can instantiate it.
-/
import proofs.«107467_j10763188043963_1_alg».proof.Proof.Gen.Kernel.Launch
import proofs.«107467_j10763188043963_1_alg».proof.Proof.Gen.Kernel.Skeleton
import proofs.«107467_j10763188043963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! # Region 0: the launch of `cc0__qkv_kernel`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not fetched
    its block index has not moved since it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not fetched
    its block index has not moved since it was. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not fetched
    its block index has not moved since it was. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store takes its buffer whole -/

abbrev r0_0 : Rect S2000x128 := Rect.unit (s := S2000x128) ![0, 0] S2000x128.size inb_S2000x128_S2000x128_0_0
abbrev r0_1 : Rect S128x384 := Rect.unit (s := S128x384) ![0, 0] S128x384.size inb_S128x384_S128x384_0_0
abbrev r0_2 : Rect S1x384 := Rect.unit (s := S1x384) ![0, 0] S1x384.size inb_S1x384_S1x384_0_0
abbrev r0_3 : Rect S2000x384 := Rect.unit (s := S2000x384) ![0, 0] S2000x384.size inb_S2000x384_S2000x384_0_0

/-- Output window 3's staging buffer after the body, from the input windows' blocks: its one store, of the whole buffer. -/
def out0_3 (x0 : Vec F S2000x128 .f32) (x1 : Vec F S128x384 .f32) (x2 : Vec F S1x384 .f32) : Vec F S2000x384 .f32 :=
  View.canon [⟨r0_3, k0_pay1 (View.ld x0 r0_0) (View.ld x1 r0_1) (View.ld x2 r0_2)⟩]

/-- The one store covers the buffer. -/
theorem cover0_3 (p0 : Vec F S2000x384 .f32) (y : S2000x384.Idx) :
    ∃ pc ∈ ([⟨r0_3, p0⟩] : List (View.Piece (Elt F) S2000x384 .f32)), y ∈ pc.1.set :=
  View.cover_of_tiled [⟨r0_3, p0⟩] S2000x384.size (by rfl) y

/-! ## The body's triple -/

set_option maxHeartbeats 4000000 in
/-- The kernel body on whole staging memrefs, the inputs' at read contents and the outputs' at anything, runs to the
    continuation holding the inputs' as they were and each output's at its store's value of the inputs'. -/
theorem sound_kernel0 (c : Dev nD) (E : Set ℕ) (i : grid0.Coords) (arg1 : Memref sig .tc .vmem S2000x128 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S2000x384 .f32) (harg4 : arg4.IsWhole)
    (x0 : Vec F S2000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and each output's at its store's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 4000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBRegion1.lean ====
/-
  One half of the kernel program's frame: the launch of its edge kernel (per edge and head a score, per edge and lane a message) as a pipeline over its grid. The body reads
  each input window's staged block whole, computes, and stores each output window's buffer whole; so after the body at a
  grid point an output's staging buffer is one pure function of the input blocks at that point, the inputs are as they
  were, and the pipeline's bookkeeping (the invariant, what is owed) passes through unread. Stated at a parameter
  `V`, the contents of the core's buffers when the region is entered, so that the run can instantiate it.
-/
import proofs.«107467_j10763188043963_1_alg».proof.Proof.Gen.Kernel.Launch
import proofs.«107467_j10763188043963_1_alg».proof.Proof.Gen.Kernel.Skeleton
import proofs.«107467_j10763188043963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! # Region 1: the launch of `cc1__edge_kernel`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not fetched
    its block index has not moved since it was. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not: where it is not fetched
    its block index has not moved since it was. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not: where it is not fetched
    its block index has not moved since it was. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not: where it is not fetched
    its block index has not moved since it was. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not: where it is not fetched
    its block index has not moved since it was. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store takes its buffer whole -/

abbrev r1_0 : Rect S4000x128 := Rect.unit (s := S4000x128) ![0, 0] S4000x128.size inb_S4000x128_S4000x128_0_0
abbrev r1_1 : Rect S4000x128 := Rect.unit (s := S4000x128) ![0, 0] S4000x128.size inb_S4000x128_S4000x128_0_0
abbrev r1_2 : Rect S4000x128 := Rect.unit (s := S4000x128) ![0, 0] S4000x128.size inb_S4000x128_S4000x128_0_0
abbrev r1_3 : Rect S128x8 := Rect.unit (s := S128x8) ![0, 0] S128x8.size inb_S128x8_S128x8_0_0
abbrev r1_4 : Rect S8x128 := Rect.unit (s := S8x128) ![0, 0] S8x128.size inb_S8x128_S8x128_0_0
abbrev r1_5 : Rect S4000x128 := Rect.unit (s := S4000x128) ![0, 0] S4000x128.size inb_S4000x128_S4000x128_0_0
abbrev r1_6 : Rect S4000x8 := Rect.unit (s := S4000x8) ![0, 0] S4000x8.size inb_S4000x8_S4000x8_0_0

/-- Output window 5's staging buffer after the body, from the input windows' blocks: its one store, of the whole buffer. -/
def out1_5 (x0 : Vec F S4000x128 .f32) (x1 : Vec F S4000x128 .f32) (x2 : Vec F S4000x128 .f32) (x3 : Vec F S128x8 .f32) (x4 : Vec F S8x128 .f32) : Vec F S4000x128 .f32 :=
  View.canon [⟨r1_5, k1_pay2 (View.ld x0 r1_0) (View.ld x1 r1_1) (View.ld x2 r1_2) (View.ld x3 r1_3) (View.ld x4 r1_4)⟩]

/-- The one store covers the buffer. -/
theorem cover1_5 (p0 : Vec F S4000x128 .f32) (y : S4000x128.Idx) :
    ∃ pc ∈ ([⟨r1_5, p0⟩] : List (View.Piece (Elt F) S4000x128 .f32)), y ∈ pc.1.set :=
  View.cover_of_tiled [⟨r1_5, p0⟩] S4000x128.size (by rfl) y

/-- Output window 6's staging buffer after the body, from the input windows' blocks: its one store, of the whole buffer. -/
def out1_6 (x0 : Vec F S4000x128 .f32) (x1 : Vec F S4000x128 .f32) (x2 : Vec F S4000x128 .f32) (x3 : Vec F S128x8 .f32) (x4 : Vec F S8x128 .f32) : Vec F S4000x8 .f32 :=
  View.canon [⟨r1_6, k1_pay1 (View.ld x0 r1_0) (View.ld x1 r1_1) (View.ld x3 r1_3)⟩]

/-- The one store covers the buffer. -/
theorem cover1_6 (p0 : Vec F S4000x8 .f32) (y : S4000x8.Idx) :
    ∃ pc ∈ ([⟨r1_6, p0⟩] : List (View.Piece (Elt F) S4000x8 .f32)), y ∈ pc.1.set :=
  View.cover_of_tiled [⟨r1_6, p0⟩] S4000x8.size (by rfl) y

/-! ## The body's triple -/

set_option maxHeartbeats 4000000 in
/-- The kernel body on whole staging memrefs, the inputs' at read contents and the outputs' at anything, runs to the
    continuation holding the inputs' as they were and each output's at its store's value of the inputs'. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x8 .f32) (harg4 : arg4.IsWhole) (arg5 : Memref sig .tc .vmem S8x128 .f32) (harg5 : arg5.IsWhole) (arg6 : Memref sig .tc .vmem S4000x128 .f32) (harg6 : arg6.IsWhole) (arg7 : Memref sig .tc .vmem S4000x8 .f32) (harg7 : arg7.IsWhole)
    (x0 : Vec F S4000x128 .f32) (x1 : Vec F S4000x128 .f32) (x2 : Vec F S4000x128 .f32) (x3 : Vec F S128x8 .f32) (x4 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__edge_kernel i arg1 harg1 arg2 harg2 arg3 harg3 arg4 harg4 arg5 harg5 arg6 harg6 arg7 harg7) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of this pipeline on core `c`: the arrays as the region finds them; after the body at point `t` each
    input's buffer at its block and each output's at its store's value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBRun.lean ====
/-
  The kernel program's run, from the launch to the return: @main is three stretches of host operations, the projection
  kernel's launch, three more stretches (the edge words, an integer floor-division of a lane counter, the 0/1 head
  matrix), the edge kernel's launch, and a last stretch (two accumulating scatters, a broadcast, a quotient). The
  contents of every unscoped buffer at each boundary are a fold from the launch memory: a host stretch applies its
  operations; a kernel launch leaves its arrays at what its write-backs leave and every other buffer as it was.
  Every weakly fair execution terminates, and the final memory holds every unscoped buffer at the fold's last stage;
  each argument array, followed back through the fold, ends as launched.
-/
import proofs.«107467_j10763188043963_1_alg».proof.Proof.Gen.Kernel.Regions
import proofs.«107467_j10763188043963_1_alg».proof.Proof.KBRegion0
import proofs.«107467_j10763188043963_1_alg».proof.Proof.KBRegion1
import proofs.«107467_j10763188043963_1_alg».proof.Proof.Gen.Kernel.Launch
import proofs.«107467_j10763188043963_1_alg».proof.Proof.Gen.Kernel.Skeleton
import proofs.«107467_j10763188043963_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the projection kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three host stretches between the kernels (the edge kernel's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the edge kernel's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the last host stretch: the return. -/
abbrev W7 : Dev nD → Valuation τ sig (Elt F) := fun c => StableHlo.after hostOps2 (W6 m ρ c)

/-! ### The arguments end as launched: no host operation writes one, and a kernel launch reads one through an input
    window or does not stage it -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (r := main_arg0) (by decide)
    _ = W5 m ρ c (Proc.devRef .tc main_arg0) := W6_of_ne m ρ c main_arg0 (by decide)
    _ = W4 m ρ c (Proc.devRef .tc main_arg0) := StableHlo.after_of_writes_sub hostOps1_2 _ hostOps1_2_writes (r := main_arg0) (by decide)
    _ = W3 m ρ c (Proc.devRef .tc main_arg0) := StableHlo.after_of_writes_sub hostOps1_1 _ hostOps1_1_writes (r := main_arg0) (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (r := main_arg1) (by decide)
    _ = W5 m ρ c (Proc.devRef .tc main_arg1) := W6_of_ne m ρ c main_arg1 (by decide)
    _ = W4 m ρ c (Proc.devRef .tc main_arg1) := StableHlo.after_of_writes_sub hostOps1_2 _ hostOps1_2_writes (r := main_arg1) (by decide)
    _ = W3 m ρ c (Proc.devRef .tc main_arg1) := StableHlo.after_of_writes_sub hostOps1_1 _ hostOps1_1_writes (r := main_arg1) (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (r := main_arg2) (by decide)
    _ = W5 m ρ c (Proc.devRef .tc main_arg2) := W6_of_ne m ρ c main_arg2 (by decide)
    _ = W4 m ρ c (Proc.devRef .tc main_arg2) := StableHlo.after_of_writes_sub hostOps1_2 _ hostOps1_2_writes (r := main_arg2) (by decide)
    _ = W3 m ρ c (Proc.devRef .tc main_arg2) := StableHlo.after_of_writes_sub hostOps1_1 _ hostOps1_1_writes (r := main_arg2) (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (r := main_arg3) (by decide)
    _ = W5 m ρ c (Proc.devRef .tc main_arg3) := W6_of_ne m ρ c main_arg3 (by decide)
    _ = W4 m ρ c (Proc.devRef .tc main_arg3) := StableHlo.after_of_writes_sub hostOps1_2 _ hostOps1_2_writes (r := main_arg3) (by decide)
    _ = W3 m ρ c (Proc.devRef .tc main_arg3) := StableHlo.after_of_writes_sub hostOps1_1 _ hostOps1_1_writes (r := main_arg3) (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2 _ hostOps2_writes (r := main_arg4) (by decide)
    _ = W5 m ρ c (Proc.devRef .tc main_arg4) := W6_of_ne m ρ c main_arg4 (by decide)
    _ = W4 m ρ c (Proc.devRef .tc main_arg4) := StableHlo.after_of_writes_sub hostOps1_2 _ hostOps1_2_writes (r := main_arg4) (by decide)
    _ = W3 m ρ c (Proc.devRef .tc main_arg4) := StableHlo.after_of_writes_sub hostOps1_1 _ hostOps1_1_writes (r := main_arg4) (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2 _ hostOps2_writes (r := main_arg5) (by decide)
    _ = W5 m ρ c (Proc.devRef .tc main_arg5) := W6_of_ne m ρ c main_arg5 (by decide)
    _ = W4 m ρ c (Proc.devRef .tc main_arg5) := StableHlo.after_of_writes_sub hostOps1_2 _ hostOps1_2_writes (r := main_arg5) (by decide)
    _ = W3 m ρ c (Proc.devRef .tc main_arg5) := StableHlo.after_of_writes_sub hostOps1_1 _ hostOps1_1_writes (r := main_arg5) (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps2 _ hostOps2_writes (r := main_arg6) (by decide)
    _ = W5 m ρ c (Proc.devRef .tc main_arg6) := W6_of_ne m ρ c main_arg6 (by decide)
    _ = W4 m ρ c (Proc.devRef .tc main_arg6) := StableHlo.after_of_writes_sub hostOps1_2 _ hostOps1_2_writes (r := main_arg6) (by decide)
    _ = W3 m ρ c (Proc.devRef .tc main_arg6) := StableHlo.after_of_writes_sub hostOps1_1 _ hostOps1_1_writes (r := main_arg6) (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps2 _ hostOps2_writes (r := main_arg7) (by decide)
    _ = W5 m ρ c (Proc.devRef .tc main_arg7) := W6_of_ne m ρ c main_arg7 (by decide)
    _ = W4 m ρ c (Proc.devRef .tc main_arg7) := StableHlo.after_of_writes_sub hostOps1_2 _ hostOps1_2_writes (r := main_arg7) (by decide)
    _ = W3 m ρ c (Proc.devRef .tc main_arg7) := StableHlo.after_of_writes_sub hostOps1_1 _ hostOps1_1_writes (r := main_arg7) (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps2 _ hostOps2_writes (r := main_arg8) (by decide)
    _ = W5 m ρ c (Proc.devRef .tc main_arg8) := W6_of_ne m ρ c main_arg8 (by decide)
    _ = W4 m ρ c (Proc.devRef .tc main_arg8) := StableHlo.after_of_writes_sub hostOps1_2 _ hostOps1_2_writes (r := main_arg8) (by decide)
    _ = W3 m ρ c (Proc.devRef .tc main_arg8) := StableHlo.after_of_writes_sub hostOps1_1 _ hostOps1_1_writes (r := main_arg8) (by decide)
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps2 _ hostOps2_writes (r := main_arg9) (by decide)
    _ = W5 m ρ c (Proc.devRef .tc main_arg9) := W6_of_ne m ρ c main_arg9 (by decide)
    _ = W4 m ρ c (Proc.devRef .tc main_arg9) := StableHlo.after_of_writes_sub hostOps1_2 _ hostOps1_2_writes (r := main_arg9) (by decide)
    _ = W3 m ρ c (Proc.devRef .tc main_arg9) := StableHlo.after_of_writes_sub hostOps1_1 _ hostOps1_1_writes (r := main_arg9) (by decide)
    _ = W2 m ρ c (Proc.devRef .tc main_arg9) := StableHlo.after_of_writes_sub hostOps1 _ hostOps1_writes (r := main_arg9) (by decide)
    _ = W1 m ρ c (Proc.devRef .tc main_arg9) := W2_of_ne m ρ c main_arg9 (by decide)
    _ = W0 m ρ c (Proc.devRef .tc main_arg9) := StableHlo.after_of_writes_sub hostOps0 _ hostOps0_writes (r := main_arg9) (by decide)
    _ = m ((c : Thread nD τ).loc main_arg9) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W7 m ρ c) ∗ ∃ r, prngReg c r)

/-! ## The kernel launches as segments -/

-- a library lemma stated over the pinned configuration unifies with the printed one only when unification may unfold
-- plain definitions in a metavariable's type
set_option backward.isDefEq.respectTransparency.types false in
/-- Region 0 over the thread state: entered with every unscoped buffer at `W1`, left with them at `W2`. Its
    arrays are split out of the unscoped buffers at entry and put back at what the write-backs leave; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W5`, left with them at `W6`. Its
    arrays are split out of the unscoped buffers at entry and put back at what the write-backs leave; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

-- the launch theorem's implicit arguments are found by unifying its conclusion with this one, which takes unfolding
-- plain definitions in a metavariable's type
set_option backward.isDefEq.respectTransparency.types false in
set_option maxHeartbeats 4000000 in
/-- THE RUN: from any memory with zero counters, every weakly fair execution of @main on the TensorCores terminates,
    nothing faulting, and every final state holds every unscoped buffer at the fold's last stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c)⟩)
    (run_all m ρ)

end Cert.Kernel.Hand

end
-- ==== Proof.KIRegion0.lean ====
/-
  One half of the kernel program's frame: the launch of its projection kernel (features times the three weight matrices side by side, plus the bias row) as a pipeline over its grid. The body reads
  each input window's staged block whole, computes, and stores each output window's buffer whole; so after the body at a
  grid point an output's staging buffer is one pure function of the input blocks at that point, the inputs are as they
  were, and the pipeline's bookkeeping (the invariant, what is owed) passes through unread. Stated at a parameter
  `V`, the contents of the core's buffers when the region is entered, so that the run can instantiate it.
-/
import proofs.«107467_j10763188043963_1_alg».proof.Proof.Gen.KernelIdeal.Launch
import proofs.«107467_j10763188043963_1_alg».proof.Proof.Gen.KernelIdeal.Skeleton
import proofs.«107467_j10763188043963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! # Region 0: the launch of `cc0__qkv_kernel`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not fetched
    its block index has not moved since it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not fetched
    its block index has not moved since it was. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not: where it is not fetched
    its block index has not moved since it was. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store takes its buffer whole -/

abbrev r0_0 : Rect S2000x128 := Rect.unit (s := S2000x128) ![0, 0] S2000x128.size inb_S2000x128_S2000x128_0_0
abbrev r0_1 : Rect S128x384 := Rect.unit (s := S128x384) ![0, 0] S128x384.size inb_S128x384_S128x384_0_0
abbrev r0_2 : Rect S1x384 := Rect.unit (s := S1x384) ![0, 0] S1x384.size inb_S1x384_S1x384_0_0
abbrev r0_3 : Rect S2000x384 := Rect.unit (s := S2000x384) ![0, 0] S2000x384.size inb_S2000x384_S2000x384_0_0

/-- Output window 3's staging buffer after the body, from the input windows' blocks: its one store, of the whole buffer. -/
def out0_3 (x0 : Vec F S2000x128 .f32) (x1 : Vec F S128x384 .f32) (x2 : Vec F S1x384 .f32) : Vec F S2000x384 .f32 :=
  View.canon [⟨r0_3, k0_pay1 (View.ld x0 r0_0) (View.ld x1 r0_1) (View.ld x2 r0_2)⟩]

/-- The one store covers the buffer. -/
theorem cover0_3 (p0 : Vec F S2000x384 .f32) (y : S2000x384.Idx) :
    ∃ pc ∈ ([⟨r0_3, p0⟩] : List (View.Piece (Elt F) S2000x384 .f32)), y ∈ pc.1.set :=
  View.cover_of_tiled [⟨r0_3, p0⟩] S2000x384.size (by rfl) y

/-! ## The body's triple -/

set_option maxHeartbeats 4000000 in
/-- The kernel body on whole staging memrefs, the inputs' at read contents and the outputs' at anything, runs to the
    continuation holding the inputs' as they were and each output's at its store's value of the inputs'. -/
theorem sound_kernel0 (c : Dev nD) (E : Set ℕ) (i : grid0.Coords) (arg1 : Memref sig .tc .vmem S2000x128 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S2000x384 .f32) (harg4 : arg4.IsWhole)
    (x0 : Vec F S2000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and each output's at its store's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 4000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  One half of the kernel program's frame: the launch of its edge kernel (per edge and head a score, per edge and lane a message) as a pipeline over its grid. The body reads
  each input window's staged block whole, computes, and stores each output window's buffer whole; so after the body at a
  grid point an output's staging buffer is one pure function of the input blocks at that point, the inputs are as they
  were, and the pipeline's bookkeeping (the invariant, what is owed) passes through unread. Stated at a parameter
  `V`, the contents of the core's buffers when the region is entered, so that the run can instantiate it.
-/
import proofs.«107467_j10763188043963_1_alg».proof.Proof.Gen.KernelIdeal.Launch
import proofs.«107467_j10763188043963_1_alg».proof.Proof.Gen.KernelIdeal.Skeleton
import proofs.«107467_j10763188043963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! # Region 1: the launch of `cc1__edge_kernel`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not fetched
    its block index has not moved since it was. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not: where it is not fetched
    its block index has not moved since it was. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not: where it is not fetched
    its block index has not moved since it was. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not: where it is not fetched
    its block index has not moved since it was. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not: where it is not fetched
    its block index has not moved since it was. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store takes its buffer whole -/

abbrev r1_0 : Rect S4000x128 := Rect.unit (s := S4000x128) ![0, 0] S4000x128.size inb_S4000x128_S4000x128_0_0
abbrev r1_1 : Rect S4000x128 := Rect.unit (s := S4000x128) ![0, 0] S4000x128.size inb_S4000x128_S4000x128_0_0
abbrev r1_2 : Rect S4000x128 := Rect.unit (s := S4000x128) ![0, 0] S4000x128.size inb_S4000x128_S4000x128_0_0
abbrev r1_3 : Rect S128x8 := Rect.unit (s := S128x8) ![0, 0] S128x8.size inb_S128x8_S128x8_0_0
abbrev r1_4 : Rect S8x128 := Rect.unit (s := S8x128) ![0, 0] S8x128.size inb_S8x128_S8x128_0_0
abbrev r1_5 : Rect S4000x128 := Rect.unit (s := S4000x128) ![0, 0] S4000x128.size inb_S4000x128_S4000x128_0_0
abbrev r1_6 : Rect S4000x8 := Rect.unit (s := S4000x8) ![0, 0] S4000x8.size inb_S4000x8_S4000x8_0_0

/-- Output window 5's staging buffer after the body, from the input windows' blocks: its one store, of the whole buffer. -/
def out1_5 (x0 : Vec F S4000x128 .f32) (x1 : Vec F S4000x128 .f32) (x2 : Vec F S4000x128 .f32) (x3 : Vec F S128x8 .f32) (x4 : Vec F S8x128 .f32) : Vec F S4000x128 .f32 :=
  View.canon [⟨r1_5, k1_pay2 (View.ld x0 r1_0) (View.ld x1 r1_1) (View.ld x2 r1_2) (View.ld x3 r1_3) (View.ld x4 r1_4)⟩]

/-- The one store covers the buffer. -/
theorem cover1_5 (p0 : Vec F S4000x128 .f32) (y : S4000x128.Idx) :
    ∃ pc ∈ ([⟨r1_5, p0⟩] : List (View.Piece (Elt F) S4000x128 .f32)), y ∈ pc.1.set :=
  View.cover_of_tiled [⟨r1_5, p0⟩] S4000x128.size (by rfl) y

/-- Output window 6's staging buffer after the body, from the input windows' blocks: its one store, of the whole buffer. -/
def out1_6 (x0 : Vec F S4000x128 .f32) (x1 : Vec F S4000x128 .f32) (x2 : Vec F S4000x128 .f32) (x3 : Vec F S128x8 .f32) (x4 : Vec F S8x128 .f32) : Vec F S4000x8 .f32 :=
  View.canon [⟨r1_6, k1_pay1 (View.ld x0 r1_0) (View.ld x1 r1_1) (View.ld x3 r1_3)⟩]

/-- The one store covers the buffer. -/
theorem cover1_6 (p0 : Vec F S4000x8 .f32) (y : S4000x8.Idx) :
    ∃ pc ∈ ([⟨r1_6, p0⟩] : List (View.Piece (Elt F) S4000x8 .f32)), y ∈ pc.1.set :=
  View.cover_of_tiled [⟨r1_6, p0⟩] S4000x8.size (by rfl) y

/-! ## The body's triple -/

set_option maxHeartbeats 4000000 in
/-- The kernel body on whole staging memrefs, the inputs' at read contents and the outputs' at anything, runs to the
    continuation holding the inputs' as they were and each output's at its store's value of the inputs'. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x8 .f32) (harg4 : arg4.IsWhole) (arg5 : Memref sig .tc .vmem S8x128 .f32) (harg5 : arg5.IsWhole) (arg6 : Memref sig .tc .vmem S4000x128 .f32) (harg6 : arg6.IsWhole) (arg7 : Memref sig .tc .vmem S4000x8 .f32) (harg7 : arg7.IsWhole)
    (x0 : Vec F S4000x128 .f32) (x1 : Vec F S4000x128 .f32) (x2 : Vec F S4000x128 .f32) (x3 : Vec F S128x8 .f32) (x4 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__edge_kernel i arg1 harg1 arg2 harg2 arg3 harg3 arg4 harg4 arg5 harg5 arg6 harg6 arg7 harg7) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of this pipeline on core `c`: the arrays as the region finds them; after the body at point `t` each
    input's buffer at its block and each output's at its store's value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The kernel program's run, from the launch to the return: @main is three stretches of host operations, the projection
  kernel's launch, three more stretches (the edge words, an integer floor-division of a lane counter, the 0/1 head
  matrix), the edge kernel's launch, and a last stretch (two accumulating scatters, a broadcast, a quotient). The
  contents of every unscoped buffer at each boundary are a fold from the launch memory: a host stretch applies its
  operations; a kernel launch leaves its arrays at what its write-backs leave and every other buffer as it was.
  Every weakly fair execution terminates, and the final memory holds every unscoped buffer at the fold's last stage;
  each argument array, followed back through the fold, ends as launched.
-/
import proofs.«107467_j10763188043963_1_alg».proof.Proof.Gen.KernelIdeal.Regions
import proofs.«107467_j10763188043963_1_alg».proof.Proof.KIRegion0
import proofs.«107467_j10763188043963_1_alg».proof.Proof.KIRegion1
import proofs.«107467_j10763188043963_1_alg».proof.Proof.Gen.KernelIdeal.Launch
import proofs.«107467_j10763188043963_1_alg».proof.Proof.Gen.KernelIdeal.Skeleton
import proofs.«107467_j10763188043963_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the projection kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three host stretches between the kernels (the edge kernel's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the edge kernel's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the last host stretch: the return. -/
abbrev W7 : Dev nD → Valuation τ sig (Elt F) := fun c => StableHlo.after hostOps2 (W6 m ρ c)

/-! ### The arguments end as launched: no host operation writes one, and a kernel launch reads one through an input
    window or does not stage it -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (r := main_arg0) (by decide)
    _ = W5 m ρ c (Proc.devRef .tc main_arg0) := W6_of_ne m ρ c main_arg0 (by decide)
    _ = W4 m ρ c (Proc.devRef .tc main_arg0) := StableHlo.after_of_writes_sub hostOps1_2 _ hostOps1_2_writes (r := main_arg0) (by decide)
    _ = W3 m ρ c (Proc.devRef .tc main_arg0) := StableHlo.after_of_writes_sub hostOps1_1 _ hostOps1_1_writes (r := main_arg0) (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2 _ hostOps2_writes (r := main_arg1) (by decide)
    _ = W5 m ρ c (Proc.devRef .tc main_arg1) := W6_of_ne m ρ c main_arg1 (by decide)
    _ = W4 m ρ c (Proc.devRef .tc main_arg1) := StableHlo.after_of_writes_sub hostOps1_2 _ hostOps1_2_writes (r := main_arg1) (by decide)
    _ = W3 m ρ c (Proc.devRef .tc main_arg1) := StableHlo.after_of_writes_sub hostOps1_1 _ hostOps1_1_writes (r := main_arg1) (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2 _ hostOps2_writes (r := main_arg2) (by decide)
    _ = W5 m ρ c (Proc.devRef .tc main_arg2) := W6_of_ne m ρ c main_arg2 (by decide)
    _ = W4 m ρ c (Proc.devRef .tc main_arg2) := StableHlo.after_of_writes_sub hostOps1_2 _ hostOps1_2_writes (r := main_arg2) (by decide)
    _ = W3 m ρ c (Proc.devRef .tc main_arg2) := StableHlo.after_of_writes_sub hostOps1_1 _ hostOps1_1_writes (r := main_arg2) (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (r := main_arg3) (by decide)
    _ = W5 m ρ c (Proc.devRef .tc main_arg3) := W6_of_ne m ρ c main_arg3 (by decide)
    _ = W4 m ρ c (Proc.devRef .tc main_arg3) := StableHlo.after_of_writes_sub hostOps1_2 _ hostOps1_2_writes (r := main_arg3) (by decide)
    _ = W3 m ρ c (Proc.devRef .tc main_arg3) := StableHlo.after_of_writes_sub hostOps1_1 _ hostOps1_1_writes (r := main_arg3) (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2 _ hostOps2_writes (r := main_arg4) (by decide)
    _ = W5 m ρ c (Proc.devRef .tc main_arg4) := W6_of_ne m ρ c main_arg4 (by decide)
    _ = W4 m ρ c (Proc.devRef .tc main_arg4) := StableHlo.after_of_writes_sub hostOps1_2 _ hostOps1_2_writes (r := main_arg4) (by decide)
    _ = W3 m ρ c (Proc.devRef .tc main_arg4) := StableHlo.after_of_writes_sub hostOps1_1 _ hostOps1_1_writes (r := main_arg4) (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2 _ hostOps2_writes (r := main_arg5) (by decide)
    _ = W5 m ρ c (Proc.devRef .tc main_arg5) := W6_of_ne m ρ c main_arg5 (by decide)
    _ = W4 m ρ c (Proc.devRef .tc main_arg5) := StableHlo.after_of_writes_sub hostOps1_2 _ hostOps1_2_writes (r := main_arg5) (by decide)
    _ = W3 m ρ c (Proc.devRef .tc main_arg5) := StableHlo.after_of_writes_sub hostOps1_1 _ hostOps1_1_writes (r := main_arg5) (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps2 _ hostOps2_writes (r := main_arg6) (by decide)
    _ = W5 m ρ c (Proc.devRef .tc main_arg6) := W6_of_ne m ρ c main_arg6 (by decide)
    _ = W4 m ρ c (Proc.devRef .tc main_arg6) := StableHlo.after_of_writes_sub hostOps1_2 _ hostOps1_2_writes (r := main_arg6) (by decide)
    _ = W3 m ρ c (Proc.devRef .tc main_arg6) := StableHlo.after_of_writes_sub hostOps1_1 _ hostOps1_1_writes (r := main_arg6) (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps2 _ hostOps2_writes (r := main_arg7) (by decide)
    _ = W5 m ρ c (Proc.devRef .tc main_arg7) := W6_of_ne m ρ c main_arg7 (by decide)
    _ = W4 m ρ c (Proc.devRef .tc main_arg7) := StableHlo.after_of_writes_sub hostOps1_2 _ hostOps1_2_writes (r := main_arg7) (by decide)
    _ = W3 m ρ c (Proc.devRef .tc main_arg7) := StableHlo.after_of_writes_sub hostOps1_1 _ hostOps1_1_writes (r := main_arg7) (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps2 _ hostOps2_writes (r := main_arg8) (by decide)
    _ = W5 m ρ c (Proc.devRef .tc main_arg8) := W6_of_ne m ρ c main_arg8 (by decide)
    _ = W4 m ρ c (Proc.devRef .tc main_arg8) := StableHlo.after_of_writes_sub hostOps1_2 _ hostOps1_2_writes (r := main_arg8) (by decide)
    _ = W3 m ρ c (Proc.devRef .tc main_arg8) := StableHlo.after_of_writes_sub hostOps1_1 _ hostOps1_1_writes (r := main_arg8) (by decide)
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps2 _ hostOps2_writes (r := main_arg9) (by decide)
    _ = W5 m ρ c (Proc.devRef .tc main_arg9) := W6_of_ne m ρ c main_arg9 (by decide)
    _ = W4 m ρ c (Proc.devRef .tc main_arg9) := StableHlo.after_of_writes_sub hostOps1_2 _ hostOps1_2_writes (r := main_arg9) (by decide)
    _ = W3 m ρ c (Proc.devRef .tc main_arg9) := StableHlo.after_of_writes_sub hostOps1_1 _ hostOps1_1_writes (r := main_arg9) (by decide)
    _ = W2 m ρ c (Proc.devRef .tc main_arg9) := StableHlo.after_of_writes_sub hostOps1 _ hostOps1_writes (r := main_arg9) (by decide)
    _ = W1 m ρ c (Proc.devRef .tc main_arg9) := W2_of_ne m ρ c main_arg9 (by decide)
    _ = W0 m ρ c (Proc.devRef .tc main_arg9) := StableHlo.after_of_writes_sub hostOps0 _ hostOps0_writes (r := main_arg9) (by decide)
    _ = m ((c : Thread nD τ).loc main_arg9) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W7 m ρ c) ∗ ∃ r, prngReg c r)

/-! ## The kernel launches as segments -/

-- a library lemma stated over the pinned configuration unifies with the printed one only when unification may unfold
-- plain definitions in a metavariable's type
set_option backward.isDefEq.respectTransparency.types false in
/-- Region 0 over the thread state: entered with every unscoped buffer at `W1`, left with them at `W2`. Its
    arrays are split out of the unscoped buffers at entry and put back at what the write-backs leave; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W5`, left with them at `W6`. Its
    arrays are split out of the unscoped buffers at entry and put back at what the write-backs leave; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

-- the launch theorem's implicit arguments are found by unifying its conclusion with this one, which takes unfolding
-- plain definitions in a metavariable's type
set_option backward.isDefEq.respectTransparency.types false in
set_option maxHeartbeats 4000000 in
/-- THE RUN: from any memory with zero counters, every weakly fair execution of @main on the TensorCores terminates,
    nothing faulting, and every final state holds every unscoped buffer at the fold's last stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c)⟩)
    (run_all m ρ)

end Cert.KernelIdeal.Hand

end
-- ==== Proof.KIHostDefs.lean ====
/-
  The kernel program's host stages as pure functions of arrays, spelt exactly as @main's operations spell them: the three
  weight matrices laid side by side and the three bias vectors end to end as one row; the two rows of edge words as vectors;
  the NumPy wrap of a vector of index words and its standing-up as a column of start indices; the three gathers of rows out
  of the projected array (queries from columns 0..127, keys from 128..255, values from 256..383); and the tail: the two
  accumulating scatters by the destination words, the scores' sums repeated along each head's 16 lanes, the small constant
  added, the quotient.
-/
import proofs.«107467_j10763188043963_1_alg».proof.Proof.Gen.KernelIdeal
import Idealize.ShloMosaic.PureOps.Ideal

noncomputable section

namespace Cert.KernelIdeal.Hand

open Cert.KernelIdeal Cert.KernelIdeal.Facts₀ Idealize.ShloMosaic

/-- A float array's contents at the ideal instance; an array of 32-bit words. -/
abbrev CF (S : Shape) : Type := (⟨S, .f32⟩ : BufTy).Contents (Elt Ideal)
abbrev CI (S : Shape) : Type := (⟨S, .i32⟩ : BufTy).Contents (Elt Ideal)

/-- The three weight matrices side by side. -/
def wcat (Wq Wk Wv : CF S128x128) : CF S128x384 :=
  concatenate S128x384 1 [⟨S128x128, Wq⟩, ⟨S128x128, Wk⟩, ⟨S128x128, Wv⟩] concatenates_S128x128_S128x128_S128x128_S128x384_d1

/-- The three bias vectors end to end, as one row. -/
def bcat (bq bk bv : CF S128) : CF S1x384 :=
  shapeCast S1x384 (concatenate S384 0 [⟨S128, bq⟩, ⟨S128, bk⟩, ⟨S128, bv⟩] concatenates_S128_S128_S128_S384_d0) shapeCasts_S384_S1x384

/-- Row 0 (sources) and row 1 (destinations) of the edge words, as vectors. -/
def edgeRow0 (ei : CI S2x800000) : CI S800000 :=
  shapeCast S800000 (extractStridedSlice S1x800000 ![0, 0] ei slices_S2x800000_S1x800000_0_0) shapeCasts_S1x800000_S800000
def edgeRow1 (ei : CI S2x800000) : CI S800000 :=
  shapeCast S800000 (extractStridedSlice S1x800000 ![1, 0] ei slices_S2x800000_S1x800000_1_0) shapeCasts_S1x800000_S800000

/-- The NumPy wrap of a vector of index words: a negative word gets the number of rows added. -/
def wrapV (v : CI S800000) : CI S800000 :=
  select (cmpi .slt v (broadcastInDim S800000 ![] bcast_S_S800000 (constantI S_ 32 0#32)))
    (addi v (broadcastInDim S800000 ![] bcast_S_S800000 (constantI S_ 32 100000#32))) v

/-- A vector of words stood up as a column of start indices. -/
def idxCol (v : CI S800000) : CI S800000x1 := broadcastInDim S800000x1 ![0] bcast_S800000_S800000x1_0 v

/-- The gathered query, key and value rows: rows of the projected array's three column bands, by wrapped words. -/
def gathQ (qkv : CF S100000x384) (v : CI S800000) : CF S800000x128 :=
  Host.gather gather_S100000x128_S800000x1_S800000x128_1_0_n_n_0_1_1128
    (extractStridedSlice S100000x128 ![0, 0] qkv slices_S100000x384_S100000x128_0_0) (idxCol (wrapV v))
def gathK (qkv : CF S100000x384) (v : CI S800000) : CF S800000x128 :=
  Host.gather gather_S100000x128_S800000x1_S800000x128_1_0_n_n_0_1_1128
    (extractStridedSlice S100000x128 ![0, 128] qkv slices_S100000x384_S100000x128_0_128) (idxCol (wrapV v))
def gathV (qkv : CF S100000x384) (v : CI S800000) : CF S800000x128 :=
  Host.gather gather_S100000x128_S800000x1_S800000x128_1_0_n_n_0_1_1128
    (extractStridedSlice S100000x128 ![0, 256] qkv slices_S100000x384_S100000x128_0_256) (idxCol (wrapV v))

/-- The tail: messages and scores summed per destination node, the scores' sums repeated along each head's lanes,
    the constant added, the quotient. -/
def tailF (msg : CF S800000x128) (score : CF S800000x8) (dv : CI S800000) : CF S100000x128 :=
  Host.divf (F := Ideal)
    (Host.scatterAdd (F := Ideal) (φ := .f32) scatter_S100000x128_S800000x1_S800000x128_1_0_0_1
      (broadcastInDim S100000x128 ![] bcast_S_S100000x128 (constant (F := Ideal) S_ .f32 0x00000000#32)) (idxCol dv) msg)
    (addf (F := Ideal)
      (shapeCast S100000x128
        (broadcastInDim S100000x8x16 ![0, 1] bcast_S100000x8_S100000x8x16_0_1
          (Host.scatterAdd (F := Ideal) (φ := .f32) scatter_S100000x8_S800000x1_S800000x8_1_0_0_1
            (broadcastInDim S100000x8 ![] bcast_S_S100000x8 (constant (F := Ideal) S_ .f32 0x00000000#32)) (idxCol dv) score))
        shapeCasts_S100000x8x16_S100000x128)
      (broadcastInDim S100000x128 ![] bcast_S_S100000x128 (constant (F := Ideal) S_ .f32 0x358637BD#32)))

end Cert.KernelIdeal.Hand

end
-- ==== Proof.LibLayoutRead.lean ====
import Idealize.ShloMosaic.Lib.ValueIdx
import Idealize.ShloMosaic.Lib.Pipeline.Value
import Idealize.ShloMosaic.PureOps.Ideal.Laws

/-!
# Small re-layings read at an index, and the word of 1.0

A scalar splat to any shape reads the scalar everywhere; a vector `[a]` stood up as a column `[a, 1]` reads the vector's
entry of the row; a column `[a, 1]` repeated along `b` columns reads the column's entry of the row; a vector `[b]` stood
up as a one-row matrix `[1, b]`, by a broadcast or by a shape cast, reads the vector's entry of the column. The extents
are arbitrary. The 32-bit pattern `0x3F800000` denotes the real number 1.
-/

namespace Cert.LibLayoutRead

open Idealize.ShloMosaic Idealize.ShloMosaic.ValueIdx

/-- A scalar broadcast to any shape reads the scalar at every index. -/
theorem splat_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector stood up as a column reads, in row `i`, the vector's entry `i`. -/
theorem column_apply {α : Type} {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun d => match d with
    | ⟨0, _⟩ => by
      show i.val = if a = 1 then 0 else i.val
      split
      · next h1 => have := i.isLt; omega
      · rfl)

/-- A column repeated along the columns reads, at `(i, c)`, the column's entry of row `i`. -/
theorem alongCols_apply {α : Type} {a b : ℕ} (h : (⟨2, ![a, 1]⟩ : Shape).BroadcastsInDim ⟨2, ![a, b]⟩ ![0, 1])
    (x : (⟨2, ![a, 1]⟩ : Shape).Idx → α) (i : Fin a) (c : Fin b) :
    broadcastInDim ⟨2, ![a, b]⟩ ![0, 1] h x (ix2 i c) = x (ix2 i (0 : Fin 1)) :=
  broadcastInDim_apply _ h x (ix2 i c) (ix2 i (0 : Fin 1)) (fun d => match d with
    | ⟨0, _⟩ => by
      show i.val = if a = 1 then 0 else i.val
      split
      · next h1 => have := i.isLt; omega
      · rfl
    | ⟨1, _⟩ => by
      show (0 : ℕ) = if (1 : ℕ) = 1 then 0 else c.val
      rw [if_pos rfl])

/-- A vector stood up as a one-row matrix by a broadcast reads, in column `k`, the vector's entry `k`. -/
theorem row_apply {α : Type} {b : ℕ} (h : (⟨1, ![b]⟩ : Shape).BroadcastsInDim ⟨2, ![1, b]⟩ ![1])
    (x : (⟨1, ![b]⟩ : Shape).Idx → α) (u : Fin 1) (k : Fin b) :
    broadcastInDim ⟨2, ![1, b]⟩ ![1] h x (ix2 u k) = x (ix1 k) :=
  broadcastInDim_apply _ h x (ix2 u k) (ix1 k) (fun d => match d with
    | ⟨0, _⟩ => by
      show k.val = if b = 1 then 0 else k.val
      split
      · next h1 => have := k.isLt; omega
      · rfl)

/-- A vector re-laid as a one-row matrix by a shape cast reads, in column `k`, the vector's entry `k`. -/
theorem castRow_apply {α : Type} {b : ℕ} (h : (⟨1, ![b]⟩ : Shape).ShapeCasts ⟨2, ![1, b]⟩)
    (x : (⟨1, ![b]⟩ : Shape).Idx → α) (u : Fin 1) (k : Fin b) :
    shapeCast ⟨2, ![1, b]⟩ x h (ix2 u k) = x (ix1 k) :=
  shapeCast_apply x h (ix2 u k) (ix1 k) (by
    rewrite [Shape.rowMajor_val_one, Shape.rowMajor_val_two]
    show k.val = u.val * b + k.val
    have hu : u.val = 0 := by have := u.isLt; omega
    rw [hu, Nat.zero_mul, Nat.zero_add])

/-- The pattern `0x3F800000` is the real number 1. -/
theorem one_word : Ideal.ofBits .f32 0x3F800000#32 = 1 := by
  simp [Ideal.ofBits, Ideal.ieee, -EReal.coe_mul]; norm_num

end Cert.LibLayoutRead
-- ==== Proof.LibRowBroadcast.lean ====
import Idealize.ShloMosaic.Lib.ValueLayout
import Idealize.ShloMosaic.Lib.Pipeline.Value

/-!
# One row repeated down the rows, by a `broadcast_in_dim`

A `[1, b]` array broadcast to `[a, b]` with both axes kept in place (dimensions `[0, 1]`: the operand's unit axis
stretched along the rows) reads, at `(p, q)`, the operand's one row at `q`, whatever the row `p` is — the form in which
a bias row reaches every row of a batch when it is added on the host. Any `a`, `b`.
-/

namespace Cert.LibRowBroadcast

open Idealize.ShloMosaic Idealize.ShloMosaic.ValueIdx

/-- One row `[1, b]` broadcast along the rows of `[a, b]` reads, at `(p, q)`, the row at `q`. -/
theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

end Cert.LibRowBroadcast
-- ==== Proof.MaskValue.lean ====
/-
  The 0/1 head matrix as the host computes it, read entry by entry.

  The lane numbers 0 … 127 are floor-divided by 16 the way a floor division of signed words is composed from a
  truncating quotient, a remainder and a sign test (for these non-negative lanes the correction never fires and the
  result is the quotient); the column of quotients is repeated along 8 columns and compared for equality with the row
  of head numbers 0 … 7 repeated down 128 rows; the resulting bit, read as an unsigned integer, is the real 1 or 0.
  So entry (j, h) of the matrix is 1 exactly when lane j belongs to head h, and its transpose says the same at (h, j).
-/
import proofs.«107467_j10763188043963_1_alg».proof.Proof.Gen.KernelIdeal
import proofs.«107467_j10763188043963_1_alg».proof.Proof.LibLayoutRead
import proofs.«107467_j10763188043963_1_alg».proof.Proof.LibRowBroadcast
import Idealize.ShloMosaic.Lib.ValueLayout

noncomputable section

namespace Cert.MaskValue

open Idealize.ShloMosaic Idealize.ShloMosaic.ValueIdx Cert.KernelIdeal Cert.KernelIdeal.Gen

/-- The lane numbers floor-divided by 16: the truncating quotient, lowered by one where the signs of dividend and
    divisor differ and the remainder is not zero. -/
def laneHead : IVec S128 32 :=
  have v32 : IVec S128 32 := iotaInDim S128 32 0
  have c5 : IVec S_ 32 := constantI S_ 32 16#32
  have v0 : IVec S_ 32 := id c5
  have v1 : IVec S128 32 := broadcastInDim S128 ![] bcast_S_S128 v0
  have v2 : IVec S128 32 := Host.divsi v32 v1
  have v3 : IVec S128 32 := signi v32
  have v4 : IVec S_ 32 := signi v0
  have v5 : IVec S128 32 := broadcastInDim S128 ![] bcast_S_S128 v4
  have v6 : IVec S128 1 := cmpi .ne v3 v5
  have v7 : IVec S128 32 := broadcastInDim S128 ![] bcast_S_S128 v0
  have v8 : IVec S128 32 := Host.remsi v32 v7
  have c : IVec S_ 32 := constantI S_ 32 0#32
  have v9 : IVec S128 32 := broadcastInDim S128 ![] bcast_S_S128 c
  have v10 : IVec S128 1 := cmpi .ne v8 v9
  have v11 : IVec S128 1 := andi v6 v10
  have c_0 : IVec S_ 32 := constantI S_ 32 1#32
  have v12 : IVec S128 32 := broadcastInDim S128 ![] bcast_S_S128 c_0
  have v13 : IVec S128 32 := subi v2 v12
  select v11 v13 v2

/-- The bit "lane j belongs to head h": the column of lane quotients against the row of head numbers. -/
def maskBits : IVec S128x8 1 :=
  have v34 : IVec S8 32 := iotaInDim S8 32 0
  have v35 : IVec S128x1 32 := broadcastInDim S128x1 ![0] bcast_S128_S128x1_0 laneHead
  have v36 : IVec S1x8 32 := broadcastInDim S1x8 ![1] bcast_S8_S1x8_1 v34
  have v37 : IVec S128x8 32 := broadcastInDim S128x8 ![0, 1] bcast_S128x1_S128x8_0_1 v35
  have v38 : IVec S128x8 32 := broadcastInDim S128x8 ![0, 1] bcast_S1x8_S128x8_0_1 v36
  cmpi .eq v37 v38

/-- The head matrix: the bit read as an unsigned integer. -/
def maskTerm {F : FTy → Type} [FloatOps F] : (⟨S128x8, .f32⟩ : BufTy).Contents (Elt F) :=
  uitofp .f32 maskBits

/-- The sign of a word: 0, -1 or 1. -/
def sgn (x : BitVec 32) : BitVec 32 := if x = 0 then 0 else if x.msb then -1 else 1

/-- The floor division of one word by 16, as the operations above compose it at one lane. -/
def fdiv16 (x : BitVec 32) : BitVec 32 :=
  Scalar.select
    (IntOp.andi (IntOp.cmpi .ne (sgn x) (sgn 16#32)) (IntOp.cmpi .ne (IntOp.remsi .host x 16#32) 0#32))
    (IntOp.subi (IntOp.divsi .host x 16#32) 1#32)
    (IntOp.divsi .host x 16#32)

/-- At lane j the composed operations are the one-word floor division of j. -/
theorem laneHead_eq (j : Fin 128) : laneHead (ix1 j) = fdiv16 (BitVec.ofNat 32 j.val) := rfl

/-- For each of the 128 lanes the floor division is the natural quotient: checked lane by lane. -/
theorem fdiv16_lane : ∀ j : Fin 128, fdiv16 (BitVec.ofNat 32 j.val) = BitVec.ofNat 32 (j.val / 16) := by
  decide +kernel

/-- The lane's quotient word equals the head's word exactly when the quotient is the head: checked pair by pair. -/
theorem eq_bit : ∀ (j : Fin 128) (h : Fin 8),
    IntOp.cmpi .eq (BitVec.ofNat 32 (j.val / 16)) (BitVec.ofNat 32 h.val) = if j.val / 16 = h.val then 1#1 else 0#1 := by
  decide +kernel

/-- The lane quotient at lane j. -/
theorem laneHead_apply (j : Fin 128) : laneHead (ix1 j) = BitVec.ofNat 32 (j.val / 16) :=
  (laneHead_eq j).trans (fdiv16_lane j)

/-- The bit at (j, h). -/
theorem maskBits_apply (j : Fin 128) (h : Fin 8) : maskBits (ix2 j h) = if j.val / 16 = h.val then 1#1 else 0#1 := by
  have e1 : broadcastInDim S128x8 ![0, 1] bcast_S128x1_S128x8_0_1
      (broadcastInDim S128x1 ![0] bcast_S128_S128x1_0 laneHead) (ix2 j h) = BitVec.ofNat 32 (j.val / 16) :=
    ((LibLayoutRead.alongCols_apply _ _ j h).trans (LibLayoutRead.column_apply _ _ j 0)).trans (laneHead_apply j)
  have e2 : broadcastInDim S128x8 ![0, 1] bcast_S1x8_S128x8_0_1
      (broadcastInDim S1x8 ![1] bcast_S8_S1x8_1 (iotaInDim S8 32 0)) (ix2 j h) = BitVec.ofNat 32 h.val :=
    (LibRowBroadcast.broadcastInDim_1b_ab_apply _ _ j h).trans (LibLayoutRead.row_apply _ _ 0 h)
  show IntOp.cmpi .eq
      (broadcastInDim S128x8 ![0, 1] bcast_S128x1_S128x8_0_1
        (broadcastInDim S128x1 ![0] bcast_S128_S128x1_0 laneHead) (ix2 j h))
      (broadcastInDim S128x8 ![0, 1] bcast_S1x8_S128x8_0_1
        (broadcastInDim S1x8 ![1] bcast_S8_S1x8_1 (iotaInDim S8 32 0)) (ix2 j h)) = _
  rw [e1, e2]
  exact eq_bit j h

/-- Entry (j, h) of the head matrix: 1 when lane j belongs to head h, else 0. -/
theorem maskTerm_apply (j : Fin 128) (h : Fin 8) :
    maskTerm (F := Ideal) (ix2 j h) = if j.val / 16 = h.val then (1 : EReal) else 0 := by
  show FloatOps.uitofp (F := Ideal) .f32 (maskBits (ix2 j h)) = _
  rw [maskBits_apply]
  by_cases hc : j.val / 16 = h.val
  · rw [if_pos hc, if_pos hc]
    show (((1#1 : BitVec 1).toNat : ℝ) : EReal) = 1
    simp
  · rw [if_neg hc, if_neg hc]
    show (((0#1 : BitVec 1).toNat : ℝ) : EReal) = 0
    simp

/-- Entry (h, j) of the transposed head matrix: the same indicator. -/
theorem maskT_apply (h : Fin 8) (j : Fin 128) :
    (transpose S8x128 [1, 0] (maskTerm (F := Ideal)) transposes_S128x8_S8x128_1_0) (ix2 h j)
      = if j.val / 16 = h.val then (1 : EReal) else 0 :=
  (transpose_ix2_apply (maskTerm (F := Ideal)) transposes_S128x8_S8x128_1_0 h j).trans (maskTerm_apply j h)

end Cert.MaskValue

end
-- ==== Proof.KIStages.lean ====
/-
  The kernel program's host stretches, read off the run's fold: what each stretch leaves in the buffers the kernels and
  the tail read, as the named pure stage functions of what was there before — the weights side by side and the bias row
  before the projection kernel; the gathered query, key and value rows, the destination words and the 0/1 head matrix with
  its transpose before the edge kernel; the quotient of the scattered sums at the return.
-/
import proofs.«107467_j10763188043963_1_alg».proof.Proof.KIRun
import proofs.«107467_j10763188043963_1_alg».proof.Proof.KIHostDefs
import proofs.«107467_j10763188043963_1_alg».proof.Proof.MaskValue
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the projection kernel -/

theorem W1_arg (c : Dev nD) (r : Ref sig .tc) (h : r ∉ hostOps0_W) : W1 m ρ c (Proc.devRef .tc r) = m ((c : Thread nD τ).loc r) :=
  (StableHlo.after_of_writes_sub hostOps0 _ hostOps0_writes (r := r) h).trans rfl

theorem W1_v0 (c : Dev nD) : W1 m ρ c (Proc.devRef .tc main_v0)
    = wcat (m ((c : Thread nD τ).loc main_arg4)) (m ((c : Thread nD τ).loc main_arg6)) (m ((c : Thread nD τ).loc main_arg8)) := by
  dsimp only [W1]
  after_results_simp
  rfl

theorem W1_v2 (c : Dev nD) : W1 m ρ c (Proc.devRef .tc main_v2)
    = bcat (m ((c : Thread nD τ).loc main_arg5)) (m ((c : Thread nD τ).loc main_arg7)) (m ((c : Thread nD τ).loc main_arg9)) := by
  dsimp only [W1]
  after_results_simp
  rfl

/-! ## Between the kernels -/

theorem W2_arg1 (c : Dev nD) : W2 m ρ c (Proc.devRef .tc main_arg1) = m ((c : Thread nD τ).loc main_arg1) :=
  (W2_of_ne m ρ c main_arg1 (by decide)).trans (W1_arg m ρ c main_arg1 (by decide))

theorem W5_v17 (c : Dev nD) : W5 m ρ c (Proc.devRef .tc main_v17)
    = gathK (W2 m ρ c (Proc.devRef .tc main_v3)) (edgeRow0 (W2 m ρ c (Proc.devRef .tc main_arg1))) := by
  dsimp only [W5, W4, W3]
  after_results_simp
  rfl

theorem W5_v24 (c : Dev nD) : W5 m ρ c (Proc.devRef .tc main_v24)
    = gathQ (W2 m ρ c (Proc.devRef .tc main_v3)) (edgeRow1 (W2 m ρ c (Proc.devRef .tc main_arg1))) := by
  dsimp only [W5, W4, W3]
  after_results_simp
  rfl

theorem W5_v31 (c : Dev nD) : W5 m ρ c (Proc.devRef .tc main_v31)
    = gathV (W2 m ρ c (Proc.devRef .tc main_v3)) (edgeRow0 (W2 m ρ c (Proc.devRef .tc main_arg1))) := by
  dsimp only [W5, W4, W3]
  after_results_simp
  rfl

theorem W5_v10 (c : Dev nD) : W5 m ρ c (Proc.devRef .tc main_v10) = edgeRow1 (W2 m ρ c (Proc.devRef .tc main_arg1)) := by
  dsimp only [W5, W4, W3]
  after_results_simp
  rfl

theorem W5_v40 (c : Dev nD) : W5 m ρ c (Proc.devRef .tc main_v40) = Cert.MaskValue.maskTerm (F := Ideal) := by
  dsimp only [W5, W4, W3]
  after_results_simp
  rfl

theorem W5_v41 (c : Dev nD) : W5 m ρ c (Proc.devRef .tc main_v41)
    = transpose S8x128 [1, 0] (Cert.MaskValue.maskTerm (F := Ideal)) transposes_S128x8_S8x128_1_0 := by
  dsimp only [W5, W4, W3]
  after_results_simp
  rfl

/-! ## After the edge kernel -/

theorem W6_v10 (c : Dev nD) : W6 m ρ c (Proc.devRef .tc main_v10) = W5 m ρ c (Proc.devRef .tc main_v10) :=
  W6_of_ne m ρ c main_v10 (by decide)

theorem W7_v53 (c : Dev nD) : W7 m ρ c (Proc.devRef .tc main_v53)
    = tailF (W6 m ρ c (Proc.devRef .tc main_v42_0)) (W6 m ρ c (Proc.devRef .tc main_v42_1)) (W6 m ρ c (Proc.devRef .tc main_v10)) := by
  dsimp only [W7]
  after_results_simp
  rfl

end Cert.KernelIdeal.Hand

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.KernelPay.lean ====
/-
  The arithmetic of the two kernel bodies, read one entry at a time over the extended reals.

  The first body is a rows-by-columns product of a [2000,128] block with a [128,384] matrix plus one bias row
  repeated over the rows. The second forms, per row, the lane-by-lane product of two [4000,128] blocks, multiplies
  it into a [128,8] matrix, scales by a quarter, clips to [-5,5] and exponentiates (the score); and multiplies a
  third block lane by lane with the score's product into an [8,128] matrix (the message). Narrowing to a shorter
  format is the identity on extended reals and a reshape to the same shape is the identity, so each entry is a
  plain finite sum.
-/
import proofs.«107467_j10763188043963_1_alg».proof.Proof.Gen.KernelIdeal.Skeleton
import proofs.«107467_j10763188043963_1_alg».proof.Proof.LibPlainDot
import Idealize.ShloMosaic.Lib.ValueLayout

noncomputable section

open scoped BigOperators

namespace Cert.KernelIdeal.Pay

open Idealize.ShloMosaic Idealize.ShloMosaic.ValueIdx Cert.KernelIdeal Cert.KernelIdeal.Gen

/-- Entry (p, q) of the first body: row p of the block against column q of the matrix, plus the bias row at q. -/
theorem pay0_apply (x : Vec Ideal S2000x128 .f32) (w : Vec Ideal S128x384 .f32) (b : Vec Ideal S1x384 .f32)
    (p : Fin 2000) (q : Fin 384) :
    k0_pay1 (F := Ideal) x w b (ix2 p q) = (∑ k : Fin 128, x (ix2 p k) * w (ix2 k q)) + b (ix2 (0 : Fin 1) q) := by
  unfold k0_pay1
  simp only [shapeCast_self]
  rw [addf_apply]
  congr 1
  · refine (LibPlainDot.matmul_zero_apply _ ⟨rfl, rfl, rfl, rfl, rfl, rfl⟩ none _ _ p q).trans ?_
    exact Finset.sum_congr rfl fun k _ => rfl
  · exact broadcastTo_1b_ab_apply b _ p q

/-- Entry (p, h) of the score: the lane products of row p summed against column h of the matrix, scaled by the
    quarter word, clipped between the words of -5 and 5, exponentiated. -/
theorem score_apply (ks qd : Vec Ideal S4000x128 .f32) (M : Vec Ideal S128x8 .f32) (p : Fin 4000) (h : Fin 8) :
    k1_pay1 (F := Ideal) ks qd M (ix2 p h)
      = Ideal.exp (min (Ideal.ofBits .f32 0x40A00000#32) (max (Ideal.ofBits .f32 0xC0A00000#32)
          ((∑ k : Fin 128, (ks (ix2 p k) * qd (ix2 p k)) * M (ix2 k h)) * Ideal.ofBits .f32 0x3E800000#32))) := by
  unfold k1_pay1
  simp only [shapeCast_self]
  have hm : matmul dot_S4000x128_S128x8_S4000x8_1_0_0_1_n_n none (truncf .bf16 (mulf ks qd) bitsLt_bf16_f32)
      (truncf .bf16 M bitsLt_bf16_f32) (constant (F := Ideal) S4000x8 .f32 0x00000000#32) (ix2 p h)
        = ∑ k : Fin 128, (ks (ix2 p k) * qd (ix2 p k)) * M (ix2 k h) :=
    (LibPlainDot.matmul_zero_apply _ ⟨rfl, rfl, rfl, rfl, rfl, rfl⟩ none _ _ p h).trans
      (Finset.sum_congr rfl fun k _ => rfl)
  exact congrArg (fun z : EReal => Ideal.exp (min (Ideal.ofBits .f32 0x40A00000#32)
    (max (Ideal.ofBits .f32 0xC0A00000#32) (z * Ideal.ofBits .f32 0x3E800000#32)))) hm

/-- Entry (p, j) of the message: the third block's entry times the row of scores against column j of the second
    matrix. -/
theorem msg_apply (ks qd vs : Vec Ideal S4000x128 .f32) (M : Vec Ideal S128x8 .f32) (Mt : Vec Ideal S8x128 .f32)
    (p : Fin 4000) (j : Fin 128) :
    k1_pay2 (F := Ideal) ks qd vs M Mt (ix2 p j)
      = vs (ix2 p j) * ∑ h : Fin 8, k1_pay1 (F := Ideal) ks qd M (ix2 p h) * Mt (ix2 h j) := by
  unfold k1_pay2
  simp only [shapeCast_self]
  rw [mulf_apply]
  congr 1
  refine (LibPlainDot.matmul_zero_apply _ ⟨rfl, rfl, rfl, rfl, rfl, rfl⟩ none _ _ p j).trans ?_
  exact Finset.sum_congr rfl fun k _ => rfl

end Cert.KernelIdeal.Pay

end
-- ==== Proof.KIDefs.lean ====
/-
  The two kernels' results as whole-array functions of the arrays they stage, index by index: the projection (features
  times the weights laid side by side, plus the bias row), an edge's score at a head (the lane products of the gathered key
  and query rows summed against the head matrix's column, scaled by a quarter, clipped to [-5, 5], exponentiated), and an
  edge's message (the gathered value row, each lane times the scores summed against the transposed head matrix's column).
-/
import proofs.«107467_j10763188043963_1_alg».proof.KernelIdeal
import Idealize.ShloMosaic.Lib.ValueIdx
import Idealize.ShloMosaic.PureOps.Ideal

noncomputable section

open scoped BigOperators

namespace Cert.KernelIdeal.Hand

open Cert.KernelIdeal Idealize.ShloMosaic Idealize.ShloMosaic.ValueIdx

/-- Features times weights plus the bias row, index by index. -/
def QKV (x : S100000x128.Idx → EReal) (w : S128x384.Idx → EReal) (b : S1x384.Idx → EReal) : S100000x384.Idx → EReal :=
  fun i => (∑ k : Fin 128, x (ix2 ⟨(i 0).val, (i 0).isLt⟩ k) * w (ix2 k ⟨(i 1).val, (i 1).isLt⟩)) + b (ix2 (0 : Fin 1) ⟨(i 1).val, (i 1).isLt⟩)

/-- An edge's score at a head from the gathered key and query rows and the head matrix. -/
def SCORE (ks qd : S800000x128.Idx → EReal) (M : S128x8.Idx → EReal) : S800000x8.Idx → EReal :=
  fun i => Ideal.exp (min (Ideal.ofBits .f32 0x40A00000#32) (max (Ideal.ofBits .f32 0xC0A00000#32)
    ((∑ k : Fin 128, (ks (ix2 ⟨(i 0).val, (i 0).isLt⟩ k) * qd (ix2 ⟨(i 0).val, (i 0).isLt⟩ k)) * M (ix2 k ⟨(i 1).val, (i 1).isLt⟩))
      * Ideal.ofBits .f32 0x3E800000#32)))

/-- An edge's message at a lane. -/
def MSG (ks qd vs : S800000x128.Idx → EReal) (M : S128x8.Idx → EReal) (Mt : S8x128.Idx → EReal) : S800000x128.Idx → EReal :=
  fun i => vs i * ∑ h : Fin 8, SCORE ks qd M (ix2 ⟨(i 0).val, (i 0).isLt⟩ h) * Mt (ix2 h ⟨(i 1).val, (i 1).isLt⟩)

theorem QKV_apply (x : S100000x128.Idx → EReal) (w : S128x384.Idx → EReal) (b : S1x384.Idx → EReal) (n : Fin 100000) (q : Fin 384) :
    QKV x w b (ix2 n q) = (∑ k : Fin 128, x (ix2 n k) * w (ix2 k q)) + b (ix2 (0 : Fin 1) q) := rfl

theorem SCORE_apply (ks qd : S800000x128.Idx → EReal) (M : S128x8.Idx → EReal) (e : Fin 800000) (h : Fin 8) :
    SCORE ks qd M (ix2 e h) = Ideal.exp (min (Ideal.ofBits .f32 0x40A00000#32) (max (Ideal.ofBits .f32 0xC0A00000#32)
      ((∑ k : Fin 128, (ks (ix2 e k) * qd (ix2 e k)) * M (ix2 k h)) * Ideal.ofBits .f32 0x3E800000#32))) := rfl

theorem MSG_apply (ks qd vs : S800000x128.Idx → EReal) (M : S128x8.Idx → EReal) (Mt : S8x128.Idx → EReal) (e : Fin 800000) (j : Fin 128) :
    MSG ks qd vs M Mt (ix2 e j) = vs (ix2 e j) * ∑ h : Fin 8, SCORE ks qd M (ix2 e h) * Mt (ix2 h j) := rfl

end Cert.KernelIdeal.Hand

end
-- ==== Proof.KIValue.lean ====
/-
  From blocks to arrays, for the two pipelined regions of the idealized kernel program.

  Each region's output window is written back at every grid point, and the blocks of consecutive points tile the
  output array along its rows: point t owns rows t·R … t·R + R − 1 (R = 2000 rows in the first region, 4000 in the
  second). The windows that move with the point read the same rows of their arrays; the others sit at block 0 and
  read their arrays whole. So what point t writes back is block t of ONE function of the arrays as the region finds
  them, entry by entry, and since every row lies in the block of the point (row / R), the output array ends holding
  that function.
-/
import proofs.«107467_j10763188043963_1_alg».proof.Proof.KIRegion0
import proofs.«107467_j10763188043963_1_alg».proof.Proof.KIRegion1
import proofs.«107467_j10763188043963_1_alg».proof.Proof.KernelPay
import proofs.«107467_j10763188043963_1_alg».proof.Proof.KIDefs
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- the TensorCore's buffer contents when a region is entered: a parameter, instantiated by the run
variable (V : (c : Dev nD) → (b : Ref sig .tc) → Buf (Elt Ideal) ((c : Thread nD τ).loc b))

/-- The zero offsets of a whole-buffer access, however spelt. -/
theorem zero_offsets : (![0, 0] : Fin 2 → Nat) = fun _ => 0 := funext fun a => by fin_cases a <;> rfl

/-! # Region 0: features times weights plus the bias row -/

/-- The body's payload on a block whose rows are rows n·2000 … of the feature array is the same rows of `QKV`. -/
theorem pay0_rows (X : S100000x128.Idx → EReal) (W : S128x384.Idx → EReal) (B : S1x384.Idx → EReal)
    (x0 : Vec Ideal S2000x128 .f32) (n : Nat) (hn : n < 50)
    (h0 : ∀ (p : Fin 2000) (k : Fin 128), x0 (ix2 p k) = X (ix2 ⟨n * 2000 + p.val, by have := p.isLt; omega⟩ k))
    (j : S2000x384.Idx) (i : S100000x384.Idx) (hi0 : (i 0).val = n * 2000 + (j 0).val) (hi1 : (i 1).val = (j 1).val) :
    k0_pay1 (F := Ideal) x0 W B j = QKV X W B i := by
  obtain ⟨p, q, rfl⟩ : ∃ (p : Fin 2000) (q : Fin 384), j = ix2 p q := ⟨j 0, j 1, eq_ix2 j⟩
  have hi0' : (i 0).val = n * 2000 + p.val := hi0
  have hi1' : (i 1).val = q.val := hi1
  have hp : p.val < 2000 := p.isLt
  refine (Pay.pay0_apply x0 W B p q).trans ?_
  unfold QKV
  have e1 : (⟨(i 1).val, (i 1).isLt⟩ : Fin 384) = q := Fin.ext hi1'
  have e0 : (⟨(i 0).val, (i 0).isLt⟩ : Fin 100000) = ⟨n * 2000 + p.val, by omega⟩ := Fin.ext hi0'
  rw [e1, e0]
  congr 1
  exact Finset.sum_congr rfl fun k _ => congrArg (fun z => z * W (ix2 k q)) (h0 p k)

/-- The printed index maps over the grid: windows 0 and 3 move with the point along the rows, windows 1 and 2 sit
    at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Window 0's block at point t is rows t·2000 … of the feature array. -/
theorem iblk0_0_apply (c : Dev nD) (t : Fin cfg0.N) (p : Fin 2000) (k : Fin 128) (i : S100000x128.Idx)
    (hi0 : (i 0).val = t.val * 2000 + p.val) (hi1 : (i 1).val = k.val) :
    (iblk0 V c 0 t : Vec Ideal S2000x128 .f32) (ix2 p k) = (V c main_arg0 : S100000x128.Idx → EReal) i := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 2000 + 1 * p.val = (i 0).val; omega
  | ⟨1, _⟩ => show win0_0.index t (1 : Fin 2) * 128 + 1 * k.val = (i 1).val; omega

/-- Window 1's block at every point is the weight array whole. -/
theorem iblk0_1_eq (c : Dev nD) (t : Fin cfg0.N) :
    (iblk0 V c 1 t : Vec Ideal S128x384 .f32) = (V c main_v0 : S128x384.Idx → EReal) := by
  obtain ⟨-, -, e0, e1, -⟩ := idx0 t
  funext y
  unfold iblk0
  rw [View.read_apply]
  show V c main_v0 _ = V c main_v0 _
  congr 1
  funext a
  apply Fin.ext
  match a with
  | ⟨0, _⟩ => show win0_1.index t (0 : Fin 2) * 128 + 1 * (y 0).val = (y 0).val; omega
  | ⟨1, _⟩ => show win0_1.index t (1 : Fin 2) * 384 + 1 * (y 1).val = (y 1).val; omega

/-- Window 2's block at every point is the bias row whole. -/
theorem iblk0_2_eq (c : Dev nD) (t : Fin cfg0.N) :
    (iblk0 V c 2 t : Vec Ideal S1x384 .f32) = (V c main_v2 : S1x384.Idx → EReal) := by
  obtain ⟨-, -, -, -, e0, e1, -⟩ := idx0 t
  funext y
  unfold iblk0
  rw [View.read_apply]
  show V c main_v2 _ = V c main_v2 _
  congr 1
  funext a
  apply Fin.ext
  match a with
  | ⟨0, _⟩ => show win0_2.index t (0 : Fin 2) * 1 + 1 * (y 0).val = (y 0).val; omega
  | ⟨1, _⟩ => show win0_2.index t (1 : Fin 2) * 384 + 1 * (y 1).val = (y 1).val; omega

/-- What point t writes back is block t of `QKV` of the arrays as the region finds them. -/
theorem flushed0_3_eq (c : Dev nD) (t : Fin cfg0.N) :
    (dat0 (F := Ideal) V c).flushed 3 t
      = ((cfg0.win 3).blk t).view.read (Elt Ideal) (QKV (V c main_arg0) (V c main_v0) (V c main_v2)) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S128x384) zero_offsets,
    View.ld_unit_zero (S := S1x384) zero_offsets]
  obtain ⟨-, -, -, -, -, -, e0, e1⟩ := idx0 t
  have hN : cfg0.N = 50 := N_0
  funext j
  show k0_pay1 (F := Ideal) (iblk0 V c 0 t) (iblk0 V c 1 t) (iblk0 V c 2 t) j
    = QKV (V c main_arg0) (V c main_v0) (V c main_v2) (((cfg0.win 3).blk t).view.emb j)
  rw [iblk0_1_eq, iblk0_2_eq]
  refine pay0_rows _ _ _ _ t.val (by have := t.isLt; omega) (fun p k => iblk0_0_apply V c t p k _ rfl rfl) j _ ?_ ?_
  · show win0_3.index t (0 : Fin 2) * 2000 + 1 * (j 0).val = t.val * 2000 + (j 0).val; omega
  · show win0_3.index t (1 : Fin 2) * 384 + 1 * (j 1).val = (j 1).val; omega

/-- An index of the output array is in point t's block iff each coordinate is in the block's range on its axis. -/
theorem mem_blk0_3 (t : Fin cfg0.N) (i : S100000x384.Idx) :
    i ∈ ((cfg0.win 3).blk t).view.set ↔ ∀ a : Fin 2, win0_3.index t a * S2000x384.size a ≤ (i a).val
      ∧ (i a).val < win0_3.index t a * S2000x384.size a + S2000x384.size a := by
  show i ∈ ((View.whole main_v3).slice (win0_3.rect t)).set ↔ _
  rw [View.set_slice_whole, Rect.mem_set_unit]
  exact Iff.rfl

/-- Every index of the output array is in the block of the point (row / 2000). -/
theorem cover0_3_arr (i : S100000x384.Idx) :
    ∃ t : Fin cfg0.N, (cfg0.win 3).flush t = true ∧ i ∈ ((cfg0.win 3).blk t).view.set := by
  have hN : cfg0.N = 50 := N_0
  have hi0 : (i 0).val < 100000 := (i 0).isLt
  have hi1 : (i 1).val < 384 := (i 1).isLt
  refine ⟨⟨(i 0).val / 2000, by omega⟩, flush0_3 _, ?_⟩
  rw [mem_blk0_3]
  obtain ⟨-, -, -, -, -, -, e0, e1⟩ := idx0 ⟨(i 0).val / 2000, by omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 384 ≤ (i 1).val ∧ (i 1).val < win0_3.index _ (1 : Fin 2) * 384 + 384
    rw [e1]; omega

/-- The first region's output array after its run: features times weights plus the bias row. -/
theorem final0_3 (c : Dev nD) :
    (dat0 (F := Ideal) V c).arrAt 3 cfg0.N = QKV (V c main_arg0) (V c main_v0) (V c main_v2) :=
  (dat0 (F := Ideal) V c).arrAt_eq_of_cover 3 (QKV (V c main_arg0) (V c main_v0) (V c main_v2))
    (fun t _ => flushed0_3_eq V c t) cover0_3_arr

/-! # Region 1: the edge scores and the messages -/

/-- The score payload on blocks whose rows are rows n·4000 … of the two gathered arrays is the same rows of `SCORE`. -/
theorem score_rows (KS QD : S800000x128.Idx → EReal) (M : S128x8.Idx → EReal)
    (x0 x1 : Vec Ideal S4000x128 .f32) (n : Nat) (hn : n < 200)
    (h0 : ∀ (p : Fin 4000) (k : Fin 128), x0 (ix2 p k) = KS (ix2 ⟨n * 4000 + p.val, by have := p.isLt; omega⟩ k))
    (h1 : ∀ (p : Fin 4000) (k : Fin 128), x1 (ix2 p k) = QD (ix2 ⟨n * 4000 + p.val, by have := p.isLt; omega⟩ k))
    (j : S4000x8.Idx) (i : S800000x8.Idx) (hi0 : (i 0).val = n * 4000 + (j 0).val) (hi1 : (i 1).val = (j 1).val) :
    k1_pay1 (F := Ideal) x0 x1 M j = SCORE KS QD M i := by
  obtain ⟨p, q, rfl⟩ : ∃ (p : Fin 4000) (q : Fin 8), j = ix2 p q := ⟨j 0, j 1, eq_ix2 j⟩
  have hi0' : (i 0).val = n * 4000 + p.val := hi0
  have hi1' : (i 1).val = q.val := hi1
  have hp : p.val < 4000 := p.isLt
  refine (Pay.score_apply x0 x1 M p q).trans ?_
  unfold SCORE
  have e1 : (⟨(i 1).val, (i 1).isLt⟩ : Fin 8) = q := Fin.ext hi1'
  have e0 : (⟨(i 0).val, (i 0).isLt⟩ : Fin 800000) = ⟨n * 4000 + p.val, by omega⟩ := Fin.ext hi0'
  rw [e1, e0]
  have hs : (∑ k : Fin 128, (x0 (ix2 p k) * x1 (ix2 p k)) * M (ix2 k q))
      = ∑ k : Fin 128, (KS (ix2 ⟨n * 4000 + p.val, by omega⟩ k) * QD (ix2 ⟨n * 4000 + p.val, by omega⟩ k)) * M (ix2 k q) :=
    Finset.sum_congr rfl fun k _ => by rw [h0 p k, h1 p k]
  rw [hs]

/-- The message payload on blocks whose rows are rows n·4000 … of the three gathered arrays is the same rows of `MSG`. -/
theorem msg_rows (KS QD VS : S800000x128.Idx → EReal) (M : S128x8.Idx → EReal) (Mt : S8x128.Idx → EReal)
    (x0 x1 x2 : Vec Ideal S4000x128 .f32) (n : Nat) (hn : n < 200)
    (h0 : ∀ (p : Fin 4000) (k : Fin 128), x0 (ix2 p k) = KS (ix2 ⟨n * 4000 + p.val, by have := p.isLt; omega⟩ k))
    (h1 : ∀ (p : Fin 4000) (k : Fin 128), x1 (ix2 p k) = QD (ix2 ⟨n * 4000 + p.val, by have := p.isLt; omega⟩ k))
    (h2 : ∀ (p : Fin 4000) (k : Fin 128), x2 (ix2 p k) = VS (ix2 ⟨n * 4000 + p.val, by have := p.isLt; omega⟩ k))
    (j : S4000x128.Idx) (i : S800000x128.Idx) (hi0 : (i 0).val = n * 4000 + (j 0).val) (hi1 : (i 1).val = (j 1).val) :
    k1_pay2 (F := Ideal) x0 x1 x2 M Mt j = MSG KS QD VS M Mt i := by
  obtain ⟨p, q, rfl⟩ : ∃ (p : Fin 4000) (q : Fin 128), j = ix2 p q := ⟨j 0, j 1, eq_ix2 j⟩
  have hi0' : (i 0).val = n * 4000 + p.val := hi0
  have hi1' : (i 1).val = q.val := hi1
  have hp : p.val < 4000 := p.isLt
  refine (Pay.msg_apply x0 x1 x2 M Mt p q).trans ?_
  unfold MSG
  have hi : i = ix2 (⟨n * 4000 + p.val, by omega⟩ : Fin 800000) q := by
    funext a
    match a with
    | ⟨0, _⟩ => exact Fin.ext hi0'
    | ⟨1, _⟩ => exact Fin.ext hi1'
  have e1 : (⟨(i 1).val, (i 1).isLt⟩ : Fin 128) = q := Fin.ext hi1'
  rw [e1, h2 p q, ← hi]
  congr 1
  refine Finset.sum_congr rfl fun h _ => ?_
  exact congrArg (fun z => z * Mt (ix2 h q))
    (score_rows KS QD M x0 x1 n hn h0 h1 (ix2 p h) (ix2 ⟨(i 0).val, (i 0).isLt⟩ h) hi0' rfl)

/-- The printed index maps over the grid: windows 0, 1, 2, 5 and 6 move with the point along the rows, windows 3
    and 4 sit at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Window 0's block at point t is rows t·4000 … of the first gathered array. -/
theorem iblk1_0_apply (c : Dev nD) (t : Fin cfg1.N) (p : Fin 4000) (k : Fin 128) (i : S800000x128.Idx)
    (hi0 : (i 0).val = t.val * 4000 + p.val) (hi1 : (i 1).val = k.val) :
    (iblk1 V c 0 t : Vec Ideal S4000x128 .f32) (ix2 p k) = (V c main_v17 : S800000x128.Idx → EReal) i := by
  have e0 : win1_0.index t (0 : Fin 2) = t.val := (idx1 t).1
  have e1 : win1_0.index t (1 : Fin 2) = 0 := (idx1 t).2.1
  unfold iblk1
  rw [View.read_apply]
  show V c main_v17 _ = V c main_v17 _
  congr 1
  funext a
  apply Fin.ext
  match a with
  | ⟨0, _⟩ => show win1_0.index t (0 : Fin 2) * 4000 + 1 * p.val = (i 0).val; omega
  | ⟨1, _⟩ => show win1_0.index t (1 : Fin 2) * 128 + 1 * k.val = (i 1).val; omega

/-- Window 1's block at point t is rows t·4000 … of the second gathered array. -/
theorem iblk1_1_apply (c : Dev nD) (t : Fin cfg1.N) (p : Fin 4000) (k : Fin 128) (i : S800000x128.Idx)
    (hi0 : (i 0).val = t.val * 4000 + p.val) (hi1 : (i 1).val = k.val) :
    (iblk1 V c 1 t : Vec Ideal S4000x128 .f32) (ix2 p k) = (V c main_v24 : S800000x128.Idx → EReal) i := by
  have e0 : win1_1.index t (0 : Fin 2) = t.val := (idx1 t).2.2.1
  have e1 : win1_1.index t (1 : Fin 2) = 0 := (idx1 t).2.2.2.1
  unfold iblk1
  rw [View.read_apply]
  show V c main_v24 _ = V c main_v24 _
  congr 1
  funext a
  apply Fin.ext
  match a with
  | ⟨0, _⟩ => show win1_1.index t (0 : Fin 2) * 4000 + 1 * p.val = (i 0).val; omega
  | ⟨1, _⟩ => show win1_1.index t (1 : Fin 2) * 128 + 1 * k.val = (i 1).val; omega

/-- Window 2's block at point t is rows t·4000 … of the third gathered array. -/
theorem iblk1_2_apply (c : Dev nD) (t : Fin cfg1.N) (p : Fin 4000) (k : Fin 128) (i : S800000x128.Idx)
    (hi0 : (i 0).val = t.val * 4000 + p.val) (hi1 : (i 1).val = k.val) :
    (iblk1 V c 2 t : Vec Ideal S4000x128 .f32) (ix2 p k) = (V c main_v31 : S800000x128.Idx → EReal) i := by
  have e0 : win1_2.index t (0 : Fin 2) = t.val := (idx1 t).2.2.2.2.1
  have e1 : win1_2.index t (1 : Fin 2) = 0 := (idx1 t).2.2.2.2.2.1
  unfold iblk1
  rw [View.read_apply]
  show V c main_v31 _ = V c main_v31 _
  congr 1
  funext a
  apply Fin.ext
  match a with
  | ⟨0, _⟩ => show win1_2.index t (0 : Fin 2) * 4000 + 1 * p.val = (i 0).val; omega
  | ⟨1, _⟩ => show win1_2.index t (1 : Fin 2) * 128 + 1 * k.val = (i 1).val; omega

/-- Window 3's block at every point is the head matrix whole. -/
theorem iblk1_3_eq (c : Dev nD) (t : Fin cfg1.N) :
    (iblk1 V c 3 t : Vec Ideal S128x8 .f32) = (V c main_v40 : S128x8.Idx → EReal) := by
  have e0 : win1_3.index t (0 : Fin 2) = 0 := (idx1 t).2.2.2.2.2.2.1
  have e1 : win1_3.index t (1 : Fin 2) = 0 := (idx1 t).2.2.2.2.2.2.2.1
  funext y
  unfold iblk1
  rw [View.read_apply]
  show V c main_v40 _ = V c main_v40 _
  congr 1
  funext a
  apply Fin.ext
  match a with
  | ⟨0, _⟩ => show win1_3.index t (0 : Fin 2) * 128 + 1 * (y 0).val = (y 0).val; omega
  | ⟨1, _⟩ => show win1_3.index t (1 : Fin 2) * 8 + 1 * (y 1).val = (y 1).val; omega

/-- Window 4's block at every point is the transposed head matrix whole. -/
theorem iblk1_4_eq (c : Dev nD) (t : Fin cfg1.N) :
    (iblk1 V c 4 t : Vec Ideal S8x128 .f32) = (V c main_v41 : S8x128.Idx → EReal) := by
  have e0 : win1_4.index t (0 : Fin 2) = 0 := (idx1 t).2.2.2.2.2.2.2.2.1
  have e1 : win1_4.index t (1 : Fin 2) = 0 := (idx1 t).2.2.2.2.2.2.2.2.2.1
  funext y
  unfold iblk1
  rw [View.read_apply]
  show V c main_v41 _ = V c main_v41 _
  congr 1
  funext a
  apply Fin.ext
  match a with
  | ⟨0, _⟩ => show win1_4.index t (0 : Fin 2) * 8 + 1 * (y 0).val = (y 0).val; omega
  | ⟨1, _⟩ => show win1_4.index t (1 : Fin 2) * 128 + 1 * (y 1).val = (y 1).val; omega

/-- What point t writes back to the message array is block t of `MSG` of the arrays as the region finds them. -/
theorem flushed1_5_eq (c : Dev nD) (t : Fin cfg1.N) :
    (dat1 (F := Ideal) V c).flushed 5 t
      = ((cfg1.win 5).blk t).view.read (Elt Ideal)
          (MSG (V c main_v17) (V c main_v24) (V c main_v31) (V c main_v40) (V c main_v41)) := by
  show (cfg1.win 5).cut (grid1.coords t) ((dat1 V c).after 5 t) = _
  rw [after1_5]
  unfold out1_5
  rw [View.canon_unit_zero zero_offsets]
  simp only [View.ld_unit_zero (S := S4000x128) zero_offsets, View.ld_unit_zero (S := S128x8) zero_offsets,
    View.ld_unit_zero (S := S8x128) zero_offsets]
  have e0 : win1_5.index t (0 : Fin 2) = t.val := (idx1 t).2.2.2.2.2.2.2.2.2.2.1
  have e1 : win1_5.index t (1 : Fin 2) = 0 := (idx1 t).2.2.2.2.2.2.2.2.2.2.2.1
  have hN : cfg1.N = 200 := N_1
  funext j
  show k1_pay2 (F := Ideal) (iblk1 V c 0 t) (iblk1 V c 1 t) (iblk1 V c 2 t) (iblk1 V c 3 t) (iblk1 V c 4 t) j
    = MSG (V c main_v17) (V c main_v24) (V c main_v31) (V c main_v40) (V c main_v41) (((cfg1.win 5).blk t).view.emb j)
  rw [iblk1_3_eq, iblk1_4_eq]
  refine msg_rows _ _ _ _ _ _ _ _ t.val (by have := t.isLt; omega)
    (fun p k => iblk1_0_apply V c t p k _ rfl rfl) (fun p k => iblk1_1_apply V c t p k _ rfl rfl)
    (fun p k => iblk1_2_apply V c t p k _ rfl rfl) j _ ?_ ?_
  · show win1_5.index t (0 : Fin 2) * 4000 + 1 * (j 0).val = t.val * 4000 + (j 0).val; omega
  · show win1_5.index t (1 : Fin 2) * 128 + 1 * (j 1).val = (j 1).val; omega

/-- What point t writes back to the score array is block t of `SCORE` of the arrays as the region finds them. -/
theorem flushed1_6_eq (c : Dev nD) (t : Fin cfg1.N) :
    (dat1 (F := Ideal) V c).flushed 6 t
      = ((cfg1.win 6).blk t).view.read (Elt Ideal) (SCORE (V c main_v17) (V c main_v24) (V c main_v40)) := by
  show (cfg1.win 6).cut (grid1.coords t) ((dat1 V c).after 6 t) = _
  rw [after1_6]
  unfold out1_6
  rw [View.canon_unit_zero zero_offsets]
  simp only [View.ld_unit_zero (S := S4000x128) zero_offsets, View.ld_unit_zero (S := S128x8) zero_offsets]
  have e0 : win1_6.index t (0 : Fin 2) = t.val := (idx1 t).2.2.2.2.2.2.2.2.2.2.2.2.1
  have e1 : win1_6.index t (1 : Fin 2) = 0 := (idx1 t).2.2.2.2.2.2.2.2.2.2.2.2.2
  have hN : cfg1.N = 200 := N_1
  funext j
  show k1_pay1 (F := Ideal) (iblk1 V c 0 t) (iblk1 V c 1 t) (iblk1 V c 3 t) j
    = SCORE (V c main_v17) (V c main_v24) (V c main_v40) (((cfg1.win 6).blk t).view.emb j)
  rw [iblk1_3_eq]
  refine score_rows _ _ _ _ _ t.val (by have := t.isLt; omega)
    (fun p k => iblk1_0_apply V c t p k _ rfl rfl) (fun p k => iblk1_1_apply V c t p k _ rfl rfl) j _ ?_ ?_
  · show win1_6.index t (0 : Fin 2) * 4000 + 1 * (j 0).val = t.val * 4000 + (j 0).val; omega
  · show win1_6.index t (1 : Fin 2) * 8 + 1 * (j 1).val = (j 1).val; omega

/-- An index of the message array is in point t's block iff each coordinate is in the block's range on its axis. -/
theorem mem_blk1_5 (t : Fin cfg1.N) (i : S800000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v42_0).slice (win1_5.rect t)).set ↔ _
  rw [View.set_slice_whole, Rect.mem_set_unit]
  exact Iff.rfl

/-- An index of the score array is in point t's block iff each coordinate is in the block's range on its axis. -/
theorem mem_blk1_6 (t : Fin cfg1.N) (i : S800000x8.Idx) :
    i ∈ ((cfg1.win 6).blk t).view.set ↔ ∀ a : Fin 2, win1_6.index t a * S4000x8.size a ≤ (i a).val
      ∧ (i a).val < win1_6.index t a * S4000x8.size a + S4000x8.size a := by
  show i ∈ ((View.whole main_v42_1).slice (win1_6.rect t)).set ↔ _
  rw [View.set_slice_whole, Rect.mem_set_unit]
  exact Iff.rfl

/-- Every index of the message array is in the block of the point (row / 4000). -/
theorem cover1_5_arr (i : S800000x128.Idx) :
    ∃ t : Fin cfg1.N, (cfg1.win 5).flush t = true ∧ i ∈ ((cfg1.win 5).blk t).view.set := by
  have hN : cfg1.N = 200 := N_1
  have hi0 : (i 0).val < 800000 := (i 0).isLt
  have hi1 : (i 1).val < 128 := (i 1).isLt
  obtain ⟨t, ht⟩ : ∃ t : Fin cfg1.N, t.val = (i 0).val / 4000 := ⟨⟨(i 0).val / 4000, by omega⟩, rfl⟩
  have e0 : win1_5.index t (0 : Fin 2) = t.val := (idx1 t).2.2.2.2.2.2.2.2.2.2.1
  have e1 : win1_5.index t (1 : Fin 2) = 0 := (idx1 t).2.2.2.2.2.2.2.2.2.2.2.1
  refine ⟨t, flush1_5 t, ?_⟩
  rw [mem_blk1_5]
  intro a
  match a with
  | ⟨0, _⟩ =>
    show win1_5.index t (0 : Fin 2) * 4000 ≤ (i 0).val ∧ (i 0).val < win1_5.index t (0 : Fin 2) * 4000 + 4000
    omega
  | ⟨1, _⟩ =>
    show win1_5.index t (1 : Fin 2) * 128 ≤ (i 1).val ∧ (i 1).val < win1_5.index t (1 : Fin 2) * 128 + 128
    omega

/-- Every index of the score array is in the block of the point (row / 4000). -/
theorem cover1_6_arr (i : S800000x8.Idx) :
    ∃ t : Fin cfg1.N, (cfg1.win 6).flush t = true ∧ i ∈ ((cfg1.win 6).blk t).view.set := by
  have hN : cfg1.N = 200 := N_1
  have hi0 : (i 0).val < 800000 := (i 0).isLt
  have hi1 : (i 1).val < 8 := (i 1).isLt
  obtain ⟨t, ht⟩ : ∃ t : Fin cfg1.N, t.val = (i 0).val / 4000 := ⟨⟨(i 0).val / 4000, by omega⟩, rfl⟩
  have e0 : win1_6.index t (0 : Fin 2) = t.val := (idx1 t).2.2.2.2.2.2.2.2.2.2.2.2.1
  have e1 : win1_6.index t (1 : Fin 2) = 0 := (idx1 t).2.2.2.2.2.2.2.2.2.2.2.2.2
  refine ⟨t, flush1_6 t, ?_⟩
  rw [mem_blk1_6]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 8 ≤ (i 1).val ∧ (i 1).val < win1_6.index t (1 : Fin 2) * 8 + 8
    omega

/-- The second region's message array after its run. -/
theorem final1_5 (c : Dev nD) :
    (dat1 (F := Ideal) V c).arrAt 5 cfg1.N
      = MSG (V c main_v17) (V c main_v24) (V c main_v31) (V c main_v40) (V c main_v41) :=
  (dat1 (F := Ideal) V c).arrAt_eq_of_cover 5
    (MSG (V c main_v17) (V c main_v24) (V c main_v31) (V c main_v40) (V c main_v41))
    (fun t _ => flushed1_5_eq V c t) cover1_5_arr

/-- The second region's score array after its run. -/
theorem final1_6 (c : Dev nD) :
    (dat1 (F := Ideal) V c).arrAt 6 cfg1.N = SCORE (V c main_v17) (V c main_v24) (V c main_v40) :=
  (dat1 (F := Ideal) V c).arrAt_eq_of_cover 6 (SCORE (V c main_v17) (V c main_v24) (V c main_v40))
    (fun t _ => flushed1_6_eq V c t) cover1_6_arr

end Cert.KernelIdeal.Hand

end
-- ==== Proof.Spec.lean ====
/-
  The function both programs compute, index by index, over the extended reals.

  Nodes carry features x (100000 rows of 128); three affine maps give per node a query, a key and a value
  row, each read as 8 heads of 16 lanes (lane 16·h + d). An edge e runs from the node its source word
  names to the node its destination word names; a word is first wrapped NumPy-style (a negative word gets
  100000 added) and then, read signed, clamped into [0, 99999] — that is the row a gather reads. Per edge and
  head the key row of the source and the query row of the destination are multiplied lane by lane and summed over
  the head's 16 lanes, divided by 4 (the square root of the head width), clipped to [-5, 5] and exponentiated:
  the edge's score. The message of an edge is the source's value row, each lane times its head's score. A
  node collects, over the edges whose destination word read signed is the node's number (no wrap there: the
  accumulating scatter drops the others), the sum of messages and the sum of scores, and the result is the
  quotient of the first by the second plus a small constant, lane by lane.
-/
import Idealize.ShloMosaic.Lib.ValueIdx
import Idealize.ShloMosaic.PureOps.Ideal

noncomputable section

open scoped BigOperators

namespace Cert.Attn

open Idealize.ShloMosaic Idealize.ShloMosaic.ValueIdx

abbrev SX : Shape := ⟨2, ![100000, 128]⟩
abbrev SEI : Shape := ⟨2, ![2, 800000]⟩
abbrev SW : Shape := ⟨2, ![128, 128]⟩
abbrev SB : Shape := ⟨1, ![128]⟩

/-- The arrays the result depends on: features, the two rows of edge words, three weight matrices and bias vectors. -/
structure Args where
  x : SX.Idx → EReal
  ei : SEI.Idx → BitVec 32
  Wq : SW.Idx → EReal
  bq : SB.Idx → EReal
  Wk : SW.Idx → EReal
  bk : SB.Idx → EReal
  Wv : SW.Idx → EReal
  bv : SB.Idx → EReal

/-- One entry of an affine map of the features: (x W + b)(n, j). -/
def proj (x : SX.Idx → EReal) (W : SW.Idx → EReal) (b : SB.Idx → EReal) (n : Fin 100000) (j : Fin 128) : EReal :=
  (∑ k : Fin 128, x (ix2 n k) * W (ix2 k j)) + b (ix1 j)

/-- The NumPy wrap of an index word: a negative word gets the number of rows added. -/
def wrap (v : BitVec 32) : BitVec 32 := Scalar.select (IntOp.cmpi .slt v 0#32) (IntOp.addi v 100000#32) v

/-- The row a gather reads for a start word: the word read signed, clamped into [0, 99999]. -/
def row (v : BitVec 32) : Fin 100000 := ⟨min v.toInt.toNat (100000 - 1), by omega⟩

/-- Lane d of head h. -/
def lane (h : Fin 8) (d : Fin 16) : Fin 128 := ⟨h.val * 16 + d.val, by omega⟩

def src (a : Args) (e : Fin 800000) : BitVec 32 := a.ei (ix2 (0 : Fin 2) e)
def dst (a : Args) (e : Fin 800000) : BitVec 32 := a.ei (ix2 (1 : Fin 2) e)

/-- Key row of the source, query row of the destination, value row of the source, at a lane. -/
def kS (a : Args) (e : Fin 800000) (j : Fin 128) : EReal := proj a.x a.Wk a.bk (row (wrap (src a e))) j
def qD (a : Args) (e : Fin 800000) (j : Fin 128) : EReal := proj a.x a.Wq a.bq (row (wrap (dst a e))) j
def vS (a : Args) (e : Fin 800000) (j : Fin 128) : EReal := proj a.x a.Wv a.bv (row (wrap (src a e))) j

/-- The head's inner product of key and query. -/
def qk (a : Args) (e : Fin 800000) (h : Fin 8) : EReal := ∑ d : Fin 16, kS a e (lane h d) * qD a e (lane h d)

/-- The clip to [-5, 5] and the exponential, of an already scaled inner product. -/
def expClip (z : EReal) : EReal :=
  Ideal.exp (min (Ideal.ofBits .f32 0x40A00000#32) (max (Ideal.ofBits .f32 0xC0A00000#32) z))

/-- An edge's score at a head: the inner product divided by 4, clipped, exponentiated. -/
def score (a : Args) (e : Fin 800000) (h : Fin 8) : EReal :=
  expClip (Ideal.div (qk a e h) (Ideal.ofBits .f32 0x40800000#32))

/-- An edge's message at a lane. -/
def msg (a : Args) (e : Fin 800000) (h : Fin 8) (d : Fin 16) : EReal := vS a e (lane h d) * score a e h

/-- The edges a node collects: those whose destination word, read signed, is the node's number. -/
def hits (a : Args) (n : Fin 100000) : Finset (Fin 800000) :=
  Finset.univ.filter fun e => (dst a e).toInt = (n.val : Int)

/-- The result at node n, head h, lane d. -/
def out (a : Args) (n : Fin 100000) (h : Fin 8) (d : Fin 16) : EReal :=
  Ideal.div (∑ e ∈ hits a n, msg a e h d) ((∑ e ∈ hits a n, score a e h) + Ideal.ofBits .f32 0x358637BD#32)

/-- The whole result array: entry (n, j) is node n at head j / 16, lane j % 16. -/
def G (a : Args) : SX.Idx → EReal := fun i =>
  out a ⟨(i 0).val, (i 0).isLt⟩ ⟨(i 1).val / 16, Nat.div_lt_of_lt_mul (i 1).isLt⟩ ⟨(i 1).val % 16, Nat.mod_lt _ (by decide)⟩

theorem G_apply (a : Args) (n : Fin 100000) (h : Fin 8) (d : Fin 16) : G a (ix2 n (lane h d)) = out a n h d := by
  unfold G
  have h1 : (lane h d).val / 16 = h.val := by unfold lane; show (h.val * 16 + d.val) / 16 = h.val; omega
  have h2 : (lane h d).val % 16 = d.val := by unfold lane; show (h.val * 16 + d.val) % 16 = d.val; omega
  congr 1
  · exact Fin.ext h1
  · exact Fin.ext h2

/-- Every lane is lane d of head h for its quotient and remainder by 16. -/
theorem lane_div_mod (j : Fin 128) :
    lane ⟨j.val / 16, Nat.div_lt_of_lt_mul j.isLt⟩ ⟨j.val % 16, Nat.mod_lt _ (by decide)⟩ = j :=
  Fin.ext (by unfold lane; show j.val / 16 * 16 + j.val % 16 = j.val; omega)

end Cert.Attn

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.LibRowLayout.lean ====
import Idealize.ShloMosaic.Lib.Pipeline.Value
import Idealize.ShloMosaic.Lib.ValueLayout
import Idealize.ShloMosaic.PureOps.Ideal.Laws
import proofs.«107467_j10763188043963_1_alg».proof.Proof.LibTileLayout

/-!
# Two-axis arrays handled row by row: slices of columns, pieces joined side by side, row sums as a column

A program that treats every row of an `[a, b]` array by itself cuts columns out of it, sums along a row, stands the sums up
as a column `[a, 1]`, and joins columns and blocks side by side again. Each of these steps only moves numbers (or adds up
one row), and here each is read at an index `(p, q)` written by its coordinates, for any extents:

* `slice_cols_apply`: the slice of columns `o … o + b' − 1` has at `(p, k)` the entry `(p, o + k)`;
* `concat_axis1_apply`: pieces joined along axis 1 have at `(p, q)` the entry `(p, r)` of the piece whose columns start
  at `pre` and hold `q = pre + r`;
* `sumCol_apply`: the sums along axis 1 (from a zero word, at the exact instance) stood up as a column have at `(p, 0)`
  the sum of row `p`;
* `column_apply`: a vector `[a]` stood up as a column `[a, 1]` by `broadcast_in_dim` has at `(p, 0)` the entry `p`.
-/

namespace Cert.RowLayout

open Idealize.ShloMosaic Idealize.ShloMosaic.ValueIdx
open scoped BigOperators

variable {α : Type}

/-- A slice of whole columns: at `(p, k)` it has the operand's entry `(p, o + k)`. -/
theorem slice_cols_apply {a b b' : ℕ} (o : ℕ) (x : (⟨2, ![a, b]⟩ : Shape).Idx → α)
    (h : (⟨2, ![a, b]⟩ : Shape).Slices ![0, o] ⟨2, ![a, b']⟩) (p : Fin a) (k : Fin b') (hk : o + k.val < b) :
    extractStridedSlice ⟨2, ![a, b']⟩ ![0, o] x h (ix2 p k) = x (ix2 p ⟨o + k.val, hk⟩) :=
  extractStridedSlice_apply _ x h _ _ fun ax =>
    match ax with
    | ⟨0, _⟩ => (Nat.zero_add _).symm
    | ⟨1, _⟩ => rfl

/-- Pieces joined along axis 1: the entry `(p, q)` is the entry `(p, r)` of piece `k`, when the pieces before it are `pre`
    columns wide and `q = pre + r`. -/
theorem concat_axis1_apply {a n b₁ : ℕ} (xs : List ((s : Shape) × (s.Idx → α)))
    (h : Shape.Concatenates (xs.map (·.1)) ⟨2, ![a, n]⟩ 1) (k : ℕ) (hk : k < xs.length)
    (x₁ : (⟨2, ![a, b₁]⟩ : Shape).Idx → α) (hxk : xs[k] = ⟨⟨2, ![a, b₁]⟩, x₁⟩) (pre : ℕ)
    (hpre : (((xs.take k).map (·.1)).map fun s =>
      if h : s.rank = (⟨2, ![a, n]⟩ : Shape).rank then s.size ((1 : Fin (⟨2, ![a, n]⟩ : Shape).rank).cast h.symm) else 0).sum = pre)
    (p : Fin a) (q : Fin n) (r : Fin b₁) (hq : pre + r.val = q.val) :
    concatenate ⟨2, ![a, n]⟩ 1 xs h (ix2 p q) = x₁ (ix2 p r) :=
  concatenate_apply_piece 1 xs h (ix2 p q) k hk _ x₁ hxk rfl pre hpre (ix2 p r)
    (fun b hb => match b with
      | ⟨0, _⟩ => rfl
      | ⟨1, _⟩ => absurd rfl hb) hq

/-- The sums along axis 1, started from a zero word, stood up as a column: at `(p, u)` the sum of row `p`. -/
theorem sumCol_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ src acc h hφ hacc) hc (ix2 p u) = ∑ q : Fin b, src (ix2 p q) :=
  (Cert.TileLayout.shapeCast_a_a1_apply _ hc p u).trans (Cert.TileLayout.sum_axis1_apply src acc h hφ hacc p)

/-- A vector stood up as a column by `broadcast_in_dim` along axis 0: at `(p, u)` the vector's entry `p`. -/
theorem column_apply {a : ℕ} (ha : a ≠ 1) (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ _ fun ax =>
    match ax with
    | ⟨0, _⟩ => by
      show p.val = if a = 1 then 0 else p.val
      rw [if_neg ha]

end Cert.RowLayout
-- ==== Proof.KIProj.lean ====
/-
  The projection stage read column band by column band.

  The three weight matrices laid side by side have, in columns 0 … 127, 128 … 255 and 256 … 383, the entries of the
  first, second and third matrix; the three bias vectors laid end to end as one row likewise. So the product of the
  features with the joined matrix plus the joined bias row is, band by band, the query, key and value map of the
  specification.
-/
import proofs.«107467_j10763188043963_1_alg».proof.Proof.KIHostDefs
import proofs.«107467_j10763188043963_1_alg».proof.Proof.KIDefs
import proofs.«107467_j10763188043963_1_alg».proof.Proof.Spec
import proofs.«107467_j10763188043963_1_alg».proof.Proof.LibRowLayout
import Idealize.ShloMosaic.Lib.Pipeline.Value
import Idealize.ShloMosaic.Lib.ValueLayout

noncomputable section

open scoped BigOperators

namespace Cert.KernelIdeal.Hand

open Cert.KernelIdeal Idealize.ShloMosaic Idealize.ShloMosaic.ValueIdx

/-- Vectors joined end to end: the entry q is entry r of piece k, when the pieces before it hold pre entries and
    q = pre + r. -/
theorem catVec_apply {α : Type} {n b₁ : ℕ} (xs : List ((s : Shape) × (s.Idx → α)))
    (h : Shape.Concatenates (xs.map (·.1)) ⟨1, ![n]⟩ 0) (k : ℕ) (hk : k < xs.length)
    (x₁ : (⟨1, ![b₁]⟩ : Shape).Idx → α) (hxk : xs[k] = ⟨⟨1, ![b₁]⟩, x₁⟩) (pre : ℕ)
    (hpre : (((xs.take k).map (·.1)).map fun s =>
      if h : s.rank = (⟨1, ![n]⟩ : Shape).rank then s.size ((0 : Fin (⟨1, ![n]⟩ : Shape).rank).cast h.symm) else 0).sum = pre)
    (q : Fin n) (r : Fin b₁) (hq : pre + r.val = q.val) :
    concatenate ⟨1, ![n]⟩ 0 xs h (ix1 q) = x₁ (ix1 r) :=
  concatenate_apply_piece 0 xs h (ix1 q) k hk _ x₁ hxk rfl pre hpre (ix1 r)
    (fun b hb => match b with
      | ⟨0, _⟩ => absurd rfl hb) hq

/-- Columns 0 … 127 of the joined weights are the first matrix. -/
theorem wcat_apply_q (Wq Wk Wv : CF S128x128) (k j : Fin 128) :
    wcat Wq Wk Wv (ix2 k ⟨j.val, by omega⟩) = Wq (ix2 k j) := by
  unfold wcat
  exact Cert.RowLayout.concat_axis1_apply _ _ 0 (by show (0 : ℕ) < 3; decide) Wq rfl 0 rfl k _ j (Nat.zero_add _)

/-- Columns 128 … 255 are the second matrix. -/
theorem wcat_apply_k (Wq Wk Wv : CF S128x128) (k j : Fin 128) :
    wcat Wq Wk Wv (ix2 k ⟨128 + j.val, by omega⟩) = Wk (ix2 k j) := by
  unfold wcat
  exact Cert.RowLayout.concat_axis1_apply _ _ 1 (by show (1 : ℕ) < 3; decide) Wk rfl 128 rfl k _ j rfl

/-- Columns 256 … 383 are the third matrix. -/
theorem wcat_apply_v (Wq Wk Wv : CF S128x128) (k j : Fin 128) :
    wcat Wq Wk Wv (ix2 k ⟨256 + j.val, by omega⟩) = Wv (ix2 k j) := by
  unfold wcat
  exact Cert.RowLayout.concat_axis1_apply _ _ 2 (by show (2 : ℕ) < 3; decide) Wv rfl 256 rfl k _ j rfl

/-- Entries 0 … 127 of the joined bias row are the first vector. -/
theorem bcat_apply_q (bq bk bv : CF S128) (j : Fin 128) :
    bcat bq bk bv (ix2 (0 : Fin 1) ⟨j.val, by omega⟩) = bq (ix1 j) := by
  unfold bcat
  refine (shapeCast_a_1a_apply _ _ (0 : Fin 1) _).trans ?_
  exact catVec_apply _ _ 0 (by show (0 : ℕ) < 3; decide) bq rfl 0 rfl _ j (Nat.zero_add _)

/-- Entries 128 … 255 are the second vector. -/
theorem bcat_apply_k (bq bk bv : CF S128) (j : Fin 128) :
    bcat bq bk bv (ix2 (0 : Fin 1) ⟨128 + j.val, by omega⟩) = bk (ix1 j) := by
  unfold bcat
  refine (shapeCast_a_1a_apply _ _ (0 : Fin 1) _).trans ?_
  exact catVec_apply _ _ 1 (by show (1 : ℕ) < 3; decide) bk rfl 128 rfl _ j rfl

/-- Entries 256 … 383 are the third vector. -/
theorem bcat_apply_v (bq bk bv : CF S128) (j : Fin 128) :
    bcat bq bk bv (ix2 (0 : Fin 1) ⟨256 + j.val, by omega⟩) = bv (ix1 j) := by
  unfold bcat
  refine (shapeCast_a_1a_apply _ _ (0 : Fin 1) _).trans ?_
  exact catVec_apply _ _ 2 (by show (2 : ℕ) < 3; decide) bv rfl 256 rfl _ j rfl

/-- The first band of the projection is the query map. -/
theorem QKV_q (x : CF S100000x128) (Wq Wk Wv : CF S128x128) (bq bk bv : CF S128) (n : Fin 100000) (j : Fin 128) :
    QKV x (wcat Wq Wk Wv) (bcat bq bk bv) (ix2 n ⟨j.val, by omega⟩) = Cert.Attn.proj x Wq bq n j := by
  refine (QKV_apply x _ _ n _).trans ?_
  unfold Cert.Attn.proj
  congr 1
  · exact Finset.sum_congr rfl fun k _ => congrArg (x (ix2 n k) * ·) (wcat_apply_q Wq Wk Wv k j)
  · exact bcat_apply_q bq bk bv j

/-- The second band is the key map. -/
theorem QKV_k (x : CF S100000x128) (Wq Wk Wv : CF S128x128) (bq bk bv : CF S128) (n : Fin 100000) (j : Fin 128) :
    QKV x (wcat Wq Wk Wv) (bcat bq bk bv) (ix2 n ⟨128 + j.val, by omega⟩) = Cert.Attn.proj x Wk bk n j := by
  refine (QKV_apply x _ _ n _).trans ?_
  unfold Cert.Attn.proj
  congr 1
  · exact Finset.sum_congr rfl fun k _ => congrArg (x (ix2 n k) * ·) (wcat_apply_k Wq Wk Wv k j)
  · exact bcat_apply_k bq bk bv j

/-- The third band is the value map. -/
theorem QKV_v (x : CF S100000x128) (Wq Wk Wv : CF S128x128) (bq bk bv : CF S128) (n : Fin 100000) (j : Fin 128) :
    QKV x (wcat Wq Wk Wv) (bcat bq bk bv) (ix2 n ⟨256 + j.val, by omega⟩) = Cert.Attn.proj x Wv bv n j := by
  refine (QKV_apply x _ _ n _).trans ?_
  unfold Cert.Attn.proj
  congr 1
  · exact Finset.sum_congr rfl fun k _ => congrArg (x (ix2 n k) * ·) (wcat_apply_v Wq Wk Wv k j)
  · exact bcat_apply_v bq bk bv j

end Cert.KernelIdeal.Hand

end
-- ==== Proof.LibScatterSet.lean ====
import Idealize.ShloMosaic.PureOps
import Idealize.ShloMosaic.Lib.ValueIdx

namespace Cert.Lib

open Idealize.ShloMosaic Idealize.ShloMosaic.ValueIdx

/-! ## A left fold of pointwise overwrites, read at one position -/

/-- A left fold whose every step leaves position `i` alone leaves the accumulator's value at `i`. -/
theorem foldl_apply_of_keep {β ι γ : Type} (step : (ι → γ) → β → (ι → γ)) (i : ι) (l : List β)
    (h : ∀ n ∈ l, ∀ r, step r n i = r i) (r : ι → γ) : l.foldl step r i = r i := by
  induction l generalizing r with
  | nil => rfl
  | cons n l ih =>
    rw [List.foldl_cons, ih (fun m hm => h m (List.mem_cons_of_mem _ hm)), h n List.mem_cons_self]

section General
variable {s si u : Shape} {α : Type} {w : Nat}

/-- An update index lands on `i` exactly when, on every axis, its start plus its window coordinate is
    `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro e a
      have h1 := congrArg (fun f => (f a).val) e
      have h2 := h a
      simp only at h1
      omega
    · intro e
      funext a
      apply Fin.ext
      have h1 := e a
      have h2 := h a
      simp only
      omega
  · next h =>
    constructor
    · intro e; cases e
    · intro e
      exact absurd (fun a => by have h1 := e a; have h2 := (i a).isLt; omega) h

/-- A position no update index lands on keeps the operand's value. -/
theorem scatter_set_miss (d : ScatterDims s si u) (x : s.Idx → α) (idx : IVec si w) (upd : u.Idx → α)
    (i : s.Idx) (hmiss : ∀ j, d.resultIdx? j idx ≠ some i) : Host.scatter d (fun _ b => b) x idx upd i = x i := by
  unfold Host.scatter
  refine foldl_apply_of_keep _ i _ (fun n _ r => ?_) x
  generalize ho : d.resultIdx? (u.rowMajor.symm n) idx = o
  cases o with
  | none => rfl
  | some i0 => exact if_neg (fun e => hmiss _ (e ▸ ho))

/-- When the body returns the update and exactly one update index lands on a position, the result there is that
    update's value. -/
theorem scatter_set_hit (d : ScatterDims s si u) (x : s.Idx → α) (idx : IVec si w) (upd : u.Idx → α)
    (i : s.Idx) (j₀ : u.Idx) (h₀ : d.resultIdx? j₀ idx = some i) (huniq : ∀ j, d.resultIdx? j idx = some i → j = j₀) :
    Host.scatter d (fun _ b => b) x idx upd i = upd j₀ := by
  unfold Host.scatter
  have hmem : u.rowMajor j₀ ∈ List.finRange u.numel := List.mem_finRange _
  have hnd := List.nodup_finRange u.numel
  generalize List.finRange u.numel = l at hmem hnd
  induction l generalizing x with
  | nil => cases hmem
  | cons n l ih =>
    rw [List.foldl_cons]
    rw [List.nodup_cons] at hnd
    by_cases hn : n = u.rowMajor j₀
    · subst hn
      rw [foldl_apply_of_keep _ i l (fun m hm r => ?_)]
      · simp only [Equiv.symm_apply_apply, h₀, if_true]
      · generalize ho : d.resultIdx? (u.rowMajor.symm m) idx = o
        cases o with
        | none => rfl
        | some i0 =>
          refine if_neg (fun e => ?_)
          subst e
          have := huniq _ ho
          exact hnd.1 (by rw [← this, Equiv.apply_symm_apply]; exact hm)
    · rcases List.mem_cons.1 hmem with e | hm
      · exact absurd e.symm hn
      · exact ih _ hm hnd.2

end General

/-! ## A block of channels written into `[16, 64, 256, 256]` at a run-time first channel -/

section Channels

/-- The dimension numbers of writing a `[16, C, 256, 256]` block into a `[16, 64, 256, 256]` array at one scatter
    index that names the first channel: every update axis is a window axis, nothing is inserted, and the one
    component of the start index goes to axis 1. -/
abbrev chanDims (C : Nat)
    (wf : ScatterDims.WF ⟨4, ![16, 64, 256, 256]⟩ ⟨1, ![1]⟩ ⟨4, ![16, C, 256, 256]⟩ [0, 1, 2, 3] [] [1] 0) :
    ScatterDims ⟨4, ![16, 64, 256, 256]⟩ ⟨1, ![1]⟩ ⟨4, ![16, C, 256, 256]⟩ :=
  ⟨[0, 1, 2, 3], [], [1], 0, wf⟩

/-- The window coordinate on every axis is the update index's own coordinate. -/
theorem chanDims_window (C : Nat)
    (wf : ScatterDims.WF ⟨4, ![16, 64, 256, 256]⟩ ⟨1, ![1]⟩ ⟨4, ![16, C, 256, 256]⟩ [0, 1, 2, 3] [] [1] 0)
    (j : (⟨4, ![16, C, 256, 256]⟩ : Shape).Idx) (a : Fin 4) : (chanDims C wf).window j a = (j a).val := by
  have hk : ∀ a : Fin 4, a ∈ Shape.kept ⟨4, ![16, 64, 256, 256]⟩ [] := by decide
  unfold ScatterDims.window
  rw [dif_pos (show a ∈ (chanDims C wf).sKept from hk a)]
  match a with
  | ⟨0, _⟩ => rfl
  | ⟨1, _⟩ => rfl
  | ⟨2, _⟩ => rfl
  | ⟨3, _⟩ => rfl

/-- The window starts at the scatter index's value on the channel axis and at `0` on the others. -/
theorem chanDims_start (C : Nat)
    (wf : ScatterDims.WF ⟨4, ![16, 64, 256, 256]⟩ ⟨1, ![1]⟩ ⟨4, ![16, C, 256, 256]⟩ [0, 1, 2, 3] [] [1] 0)
    (j : (⟨4, ![16, C, 256, 256]⟩ : Shape).Idx) {w : Nat} (idx : IVec ⟨1, ![1]⟩ w) (a : Fin 4) :
    (chanDims C wf).start j idx a = if a = 1 then (idx (ix1 0)).toInt else 0 := by
  unfold ScatterDims.start
  by_cases ha : a = 1
  · subst ha
    rw [dif_pos (show (1 : Fin 4) ∈ (chanDims C wf).scatterDimsToOperandDims from List.mem_singleton.mpr rfl),
      if_pos rfl]
    have hsi : (chanDims C wf).siIdx j ⟨List.idxOf (1 : Fin 4) (chanDims C wf).scatterDimsToOperandDims,
        List.idxOf_lt_length_iff.2 (List.mem_singleton.mpr rfl)⟩ = ix1 0 := by
      funext b; refine Fin.ext ?_
      match b with
      | ⟨0, _⟩ => rfl
    rw [hsi]
  · rw [dif_neg (show a ∉ (chanDims C wf).scatterDimsToOperandDims from fun h => ha (List.mem_singleton.mp h)),
      if_neg ha]

/-- An update index lands on `(n, ch, h, w)` exactly when its coordinates are `n`, `ch - k`, `h`, `w`, `k` the first
    channel the scatter index names. -/
theorem chanDims_resultIdx?_iff (C : Nat)
    (wf : ScatterDims.WF ⟨4, ![16, 64, 256, 256]⟩ ⟨1, ![1]⟩ ⟨4, ![16, C, 256, 256]⟩ [0, 1, 2, 3] [] [1] 0)
    {v : Nat} (idx : IVec ⟨1, ![1]⟩ v) (k : Nat) (hidx : (idx (ix1 0)).toInt = (k : Int))
    (j : (⟨4, ![16, C, 256, 256]⟩ : Shape).Idx) (n : Fin 16) (ch : Fin 64) (h : Fin 256) (w : Fin 256) :
    (chanDims C wf).resultIdx? j idx = some (ix4 n ch h w) ↔
      (j 0).val = n.val ∧ k + (j 1).val = ch.val ∧ (j 2).val = h.val ∧ (j 3).val = w.val := by
  rw [resultIdx?_eq_some_iff]
  have key : ∀ a : Fin 4, (chanDims C wf).start j idx a + ((chanDims C wf).window j a : Int)
      = (if a = 1 then (k : Int) else 0) + ((j a).val : Int) := by
    intro a; rw [chanDims_start, chanDims_window, hidx]
  constructor
  · intro e
    have e0 : (0 : Int) + ((j 0).val : Int) = (n.val : Int) := (key 0).symm.trans (e (0 : Fin 4))
    have e1 : (k : Int) + ((j 1).val : Int) = (ch.val : Int) := (key 1).symm.trans (e (1 : Fin 4))
    have e2 : (0 : Int) + ((j 2).val : Int) = (h.val : Int) := (key 2).symm.trans (e (2 : Fin 4))
    have e3 : (0 : Int) + ((j 3).val : Int) = (w.val : Int) := (key 3).symm.trans (e (3 : Fin 4))
    omega
  · rintro ⟨e0, e1, e2, e3⟩ a
    refine (key a).trans ?_
    match a with
    | ⟨0, _⟩ => show (0 : Int) + ((j 0).val : Int) = (n.val : Int); omega
    | ⟨1, _⟩ => show (k : Int) + ((j 1).val : Int) = (ch.val : Int); omega
    | ⟨2, _⟩ => show (0 : Int) + ((j 2).val : Int) = (h.val : Int); omega
    | ⟨3, _⟩ => show (0 : Int) + ((j 3).val : Int) = (w.val : Int); omega

/-- THE SCATTER READ AT `(n, ch, h, w)`: inside the written block of channels `[k, k + C)` it is the update at
    channel `ch - k`, outside it the operand. -/
theorem scatter_channels_apply {α : Type} (C : Nat)
    (wf : ScatterDims.WF ⟨4, ![16, 64, 256, 256]⟩ ⟨1, ![1]⟩ ⟨4, ![16, C, 256, 256]⟩ [0, 1, 2, 3] [] [1] 0)
    (x : (⟨4, ![16, 64, 256, 256]⟩ : Shape).Idx → α) (idx : IVec ⟨1, ![1]⟩ 32) (k : Nat)
    (hidx : (idx (ix1 0)).toInt = (k : Int)) (hk : k + C ≤ 64)
    (upd : (⟨4, ![16, C, 256, 256]⟩ : Shape).Idx → α) (n : Fin 16) (ch : Fin 64) (h : Fin 256) (w : Fin 256) :
    Host.scatter (⟨[0, 1, 2, 3], [], [1], 0, wf⟩ : ScatterDims ⟨4, ![16, 64, 256, 256]⟩ ⟨1, ![1]⟩ ⟨4, ![16, C, 256, 256]⟩)
        (fun _ b => b) x idx upd (ix4 n ch h w)
      = if hc : k ≤ ch.val ∧ ch.val < k + C then upd (ix4 n ⟨ch.val - k, by omega⟩ h w) else x (ix4 n ch h w) := by
  have hiff := fun j => chanDims_resultIdx?_iff C wf idx k hidx j n ch h w
  split
  · next hc =>
    refine scatter_set_hit (chanDims C wf) x idx upd _ _ ((hiff _).2 ⟨rfl, ?_, rfl, rfl⟩) (fun j hj => ?_)
    · show k + (ch.val - k) = ch.val
      omega
    · obtain ⟨e0, e1, e2, e3⟩ := (hiff j).1 hj
      funext a
      refine Fin.ext ?_
      match a with
      | ⟨0, _⟩ => exact e0
      | ⟨1, _⟩ => show (j 1).val = ch.val - k; omega
      | ⟨2, _⟩ => exact e2
      | ⟨3, _⟩ => exact e3
  · next hc =>
    refine scatter_set_miss (chanDims C wf) x idx upd _ (fun j hj => hc ?_)
    obtain ⟨e0, e1, e2, e3⟩ := (hiff j).1 hj
    have hj1 : (j 1).val < C := (j 1).isLt
    omega

end Channels

end Cert.Lib
-- ==== Proof.LibEdgeOps.lean ====
import proofs.«107467_j10763188043963_1_alg».proof.Proof.LibScatterSet
import Idealize.ShloMosaic.Lib.ValueIdx
import Idealize.ShloMosaic.PureOps.Ideal.Laws

/-!
# Gathers and an accumulating scatter along one axis, read at an index

Three index-driven operations, each driven by an `[E, 1]` array of integer words (one start index per row, read
signed), at arbitrary sizes `N`, `C`, `E` and an arbitrary index width:

* the accumulating scatter of an `[E]` vector of updates into an `[N]` operand: the result at `n` is the operand
  there plus the sum of the updates `e` whose scatter index is `n`; an index that is negative or at least `N` lands
  nowhere (`host_scatterAdd_vec_apply`);
* the gather of `E` rows of an `[N, C]` operand: result row `e` is the operand's row at the `e`-th start index read
  signed and clamped into `[0, N − 1]` (`gather_rows_apply`);
* the gather of `E` entries of an `[N]` operand, likewise clamped (`gather_vec_apply`).

Then a few facts about 32-bit index words: a small natural number's word reads back signed as itself; the wrap of a
negative index (`v < 0 ? v + K : v`) leaves a non-negative word alone; and the gather's clamp of a word whose signed
value is an in-range `n` is `n`.
-/

open scoped BigOperators

namespace Cert.LibEdgeOps

open Idealize.ShloMosaic Idealize.ShloMosaic.ValueIdx

/-! ## The accumulating scatter of a vector -/

section VecScatterLiteral
variable {N E : Nat}

/-- The dimension numbers of adding the entries of an `[E]` vector of updates into an `[N]` operand at `E` scatter
    indices held in an `[E, 1]` array: the updates have no window axis, operand axis 0 is inserted, and the one
    component of each start index goes to operand axis 0. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  ⟨[], [0], [0], 1, wf⟩

/-- The operand has no axis that is not inserted. -/
theorem vecDims_sKept (wf : ScatterDims.WF ⟨1, ![N]⟩ ⟨2, ![E, 1]⟩ ⟨1, ![E]⟩ [] [0] [0] 1) :
    (vecDims N E wf).sKept = [] :=
  (by decide : (List.finRange 1).filter (fun a => a ∉ [(0 : Fin 1)]) = [])

/-- The window coordinate on the operand's one axis is `0`: that axis is inserted. -/
theorem vecDims_window (wf : ScatterDims.WF ⟨1, ![N]⟩ ⟨2, ![E, 1]⟩ ⟨1, ![E]⟩ [] [0] [0] 1)
    (j : (⟨1, ![E]⟩ : Shape).Idx) : (vecDims N E wf).window j 0 = 0 := by
  unfold ScatterDims.window
  refine dif_neg ?_
  rw [vecDims_sKept]
  exact List.not_mem_nil

/-- The window starts at the position the update's scatter index names, read signed. -/
theorem vecDims_start (wf : ScatterDims.WF ⟨1, ![N]⟩ ⟨2, ![E, 1]⟩ ⟨1, ![E]⟩ [] [0] [0] 1)
    (j : (⟨1, ![E]⟩ : Shape).Idx) {w : Nat} (idx : IVec ⟨2, ![E, 1]⟩ w) :
    (vecDims N E wf).start j idx 0 = (idx (ix2 ⟨(j 0).val, (j 0).isLt⟩ (0 : Fin 1))).toInt := by
  unfold ScatterDims.start
  have hmem : (0 : Fin 1) ∈ (vecDims N E wf).scatterDimsToOperandDims := List.mem_singleton.mpr rfl
  refine (dif_pos hmem).trans ?_
  have hsi : (vecDims N E wf).siIdx j ⟨List.idxOf (0 : Fin 1) (vecDims N E wf).scatterDimsToOperandDims,
      List.idxOf_lt_length_iff.2 hmem⟩ = ix2 ⟨(j 0).val, (j 0).isLt⟩ (0 : Fin 1) := by
    funext b; refine Fin.ext ?_
    match b with
    | ⟨0, _⟩ => rfl
    | ⟨1, _⟩ => rfl
  exact congrArg (fun i => (idx i).toInt) hsi

/-- An update index lands on `n` exactly when its scatter index, read signed, is `n`. -/
theorem vecDims_resultIdx?_iff (wf : ScatterDims.WF ⟨1, ![N]⟩ ⟨2, ![E, 1]⟩ ⟨1, ![E]⟩ [] [0] [0] 1)
    {w : Nat} (idx : IVec ⟨2, ![E, 1]⟩ w) (j : (⟨1, ![E]⟩ : Shape).Idx) (n : Fin N) :
    (vecDims N E wf).resultIdx? j idx = some (ix1 n) ↔
      (idx (ix2 ⟨(j 0).val, (j 0).isLt⟩ (0 : Fin 1))).toInt = (n.val : Int) := by
  rw [Cert.Lib.resultIdx?_eq_some_iff]
  have k0 : (vecDims N E wf).start j idx 0 + ((vecDims N E wf).window j 0 : Int)
      = (idx (ix2 ⟨(j 0).val, (j 0).isLt⟩ (0 : Fin 1))).toInt := by
    rw [vecDims_start, vecDims_window]; simp
  constructor
  · intro e
    exact k0.symm.trans (e (0 : Fin 1))
  · intro e0 a
    match a with
    | ⟨0, _⟩ => exact k0.trans e0

end VecScatterLiteral

section VecScatter
variable {N E : Nat}

/-- The dimension numbers `d` are those of a vector scatter: no update window axis, operand axis 0 inserted, the
    start index's one component sent to operand axis 0, and the index vector on axis 1 of the scatter indices. -/
structure VecScatter (d : ScatterDims ⟨1, ![N]⟩ ⟨2, ![E, 1]⟩ ⟨1, ![E]⟩) : Prop where
  uw : d.updateWindowDims = []
  iw : d.insertedWindowDims = [0]
  sd : d.scatterDimsToOperandDims = [0]
  iv : d.indexVectorDim = 1

/-- For a vector scatter, update index `j` lands on `n` exactly when the scatter index of entry `j 0`, read signed,
    is `n`. -/
theorem vec_resultIdx?_iff (d : ScatterDims ⟨1, ![N]⟩ ⟨2, ![E, 1]⟩ ⟨1, ![E]⟩) (h : VecScatter d) {w : Nat}
    (idx : IVec ⟨2, ![E, 1]⟩ w) (j : (⟨1, ![E]⟩ : Shape).Idx) (n : Fin N) :
    d.resultIdx? j idx = some (ix1 n) ↔
      (idx (ix2 ⟨(j 0).val, (j 0).isLt⟩ (0 : Fin 1))).toInt = (n.val : Int) := by
  obtain ⟨uw, iw, sd, iv, wf⟩ := d
  obtain ⟨h1, h2, h3, h4⟩ := h
  dsimp only at h1 h2 h3 h4
  subst h1 h2 h3 h4
  exact vecDims_resultIdx?_iff wf idx j n

/-- THE ACCUMULATING VECTOR SCATTER READ AT `n`: the operand there plus the sum, over the entries `e` of the updates
    whose scatter index read signed is `n`, of the update at `e`. Entries whose index is negative or at least `N`
    contribute to no position. -/
theorem scatterAdd_vec_apply (d : ScatterDims ⟨1, ![N]⟩ ⟨2, ![E, 1]⟩ ⟨1, ![E]⟩) (h : VecScatter d) {w : Nat}
    (x : (⟨1, ![N]⟩ : Shape).Idx → EReal) (idx : IVec ⟨2, ![E, 1]⟩ w)
    (upd : (⟨1, ![E]⟩ : Shape).Idx → EReal) (n : Fin N) :
    Ideal.hostScatterAdd d x idx upd (ix1 n)
      = x (ix1 n) + ∑ e ∈ Finset.univ.filter (fun e : Fin E => (idx (ix2 e (0 : Fin 1))).toInt = (n.val : Int)),
          upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (vec_resultIdx?_iff d h idx (ix1 e) n).2 he.2⟩
  · intro e₁ _ e₂ _ heq
    exact congrFun heq (0 : Fin 1)
  · intro j hj
    rw [Finset.mem_filter] at hj
    have h0 := (vec_resultIdx?_iff d h idx j n).1 hj.2
    refine ⟨⟨(j 0).val, (j 0).isLt⟩, Finset.mem_filter.2 ⟨Finset.mem_univ _, h0⟩, ?_⟩
    funext a
    match a with
    | ⟨0, _⟩ => rfl
  · intro e _
    rfl

/-- The same reading of the host's accumulating scatter operation at the ideal instance. -/
theorem host_scatterAdd_vec_apply {w : Nat} (d : ScatterDims ⟨1, ![N]⟩ ⟨2, ![E, 1]⟩ ⟨1, ![E]⟩) (h : VecScatter d)
    (x : FVec Ideal ⟨1, ![N]⟩ .f32) (idx : IVec ⟨2, ![E, 1]⟩ w)
    (upd : FVec Ideal ⟨1, ![E]⟩ .f32) (n : Fin N) :
    Host.scatterAdd (F := Ideal) (φ := .f32) d x idx upd (ix1 n)
      = x (ix1 n) + ∑ e ∈ Finset.univ.filter (fun e : Fin E => (idx (ix2 e (0 : Fin 1))).toInt = (n.val : Int)),
          upd (ix1 e) :=
  scatterAdd_vec_apply d h x idx upd n

end VecScatter

/-! ## The gather of rows -/

section RowGather
variable {N C E : Nat}

/-- The dimension numbers of reading `E` rows of an `[N, C]` operand at start indices held in an `[E, 1]` array: result
    axis 1 is the offset axis, operand axis 0 is collapsed, the one component of each start index goes to operand
    axis 0, and a slice is one row, `[1, C]`. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand's axes that are neither collapsed nor batching: the column axis alone. -/
theorem rowGatherDims_sKept (wf : GatherDims.WF ⟨2, ![N, C]⟩ ⟨2, ![E, 1]⟩ ⟨2, ![E, C]⟩ [1] [0] [] [0] [] 1 ![1, C]) :
    (rowGatherDims N C E wf).sKept = [(1 : Fin 2)] :=
  (by decide : (List.finRange 2).filter (fun a => a ∉ [(0 : Fin 2)] ++ []) = [1])

/-- On the row axis the slice starts at the start index read signed and clamped into `[0, N − 1]`. -/
theorem rowGatherDims_start_row (wf : GatherDims.WF ⟨2, ![N, C]⟩ ⟨2, ![E, 1]⟩ ⟨2, ![E, C]⟩ [1] [0] [] [0] [] 1 ![1, C])
    (j : (⟨2, ![E, C]⟩ : Shape).Idx) {w : Nat} (idx : IVec ⟨2, ![E, 1]⟩ w) :
    (rowGatherDims N C E wf).start j idx 0
      = min (idx (ix2 ⟨(j 0).val, (j 0).isLt⟩ (0 : Fin 1))).toInt.toNat (N - 1) := by
  unfold GatherDims.start
  have hmem : (0 : Fin 2) ∈ (rowGatherDims N C E wf).startIndexMap := List.mem_singleton.mpr rfl
  refine (dif_pos hmem).trans ?_
  have hsi : (rowGatherDims N C E wf).siIdx j ⟨List.idxOf (0 : Fin 2) (rowGatherDims N C E wf).startIndexMap,
      List.idxOf_lt_length_iff.2 hmem⟩ = ix2 ⟨(j 0).val, (j 0).isLt⟩ (0 : Fin 1) := by
    funext b; refine Fin.ext ?_
    match b with
    | ⟨0, _⟩ => rfl
    | ⟨1, _⟩ => rfl
  rw [hsi]
  rfl

/-- On the column axis the slice starts at `0`: no component of the start index goes there. -/
theorem rowGatherDims_start_col (wf : GatherDims.WF ⟨2, ![N, C]⟩ ⟨2, ![E, 1]⟩ ⟨2, ![E, C]⟩ [1] [0] [] [0] [] 1 ![1, C])
    (j : (⟨2, ![E, C]⟩ : Shape).Idx) {w : Nat} (idx : IVec ⟨2, ![E, 1]⟩ w) :
    (rowGatherDims N C E wf).start j idx 1 = 0 := by
  unfold GatherDims.start
  refine dif_neg (fun h => ?_)
  exact absurd (List.mem_singleton.mp h) (by decide : ¬ (1 : Fin 2) = 0)

/-- The offset coordinate on the row axis is `0`: that axis is collapsed. -/
theorem rowGatherDims_off_row (wf : GatherDims.WF ⟨2, ![N, C]⟩ ⟨2, ![E, 1]⟩ ⟨2, ![E, C]⟩ [1] [0] [] [0] [] 1 ![1, C])
    (j : (⟨2, ![E, C]⟩ : Shape).Idx) : (rowGatherDims N C E wf).offCoord j 0 = 0 := by
  refine GatherDims.offCoord_eq_zero _ _ _ ?_
  rw [rowGatherDims_sKept]
  exact (by decide : (0 : Fin 2) ∉ [(1 : Fin 2)])

/-- The offset coordinate on the column axis is the result index's column. -/
theorem rowGatherDims_off_col (wf : GatherDims.WF ⟨2, ![N, C]⟩ ⟨2, ![E, 1]⟩ ⟨2, ![E, C]⟩ [1] [0] [] [0] [] 1 ![1, C])
    (j : (⟨2, ![E, C]⟩ : Shape).Idx) : (rowGatherDims N C E wf).offCoord j 1 = (j 1).val := by
  unfold GatherDims.offCoord
  refine (dif_pos ?_).trans rfl
  rw [rowGatherDims_sKept]
  exact List.mem_singleton.mpr rfl

/-- The gather with the literal dimension numbers, read at `(e, c)`. -/
theorem rowGatherDims_apply {α : Type} (hN : 0 < N)
    (wf : GatherDims.WF ⟨2, ![N, C]⟩ ⟨2, ![E, 1]⟩ ⟨2, ![E, C]⟩ [1] [0] [] [0] [] 1 ![1, C]) {w : Nat}
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil, rowGatherDims_off_row, rowGatherDims_start_row]
    rfl
  | ⟨1, _⟩ =>
    show (rowGatherDims N C E wf).start (ix2 e c) idx 1 + (rowGatherDims N C E wf).batchCoord (ix2 e c) 1
      + (rowGatherDims N C E wf).offCoord (ix2 e c) 1 = _
    rw [GatherDims.batchCoord_eq_zero _ _ _ List.not_mem_nil, rowGatherDims_off_col, rowGatherDims_start_col]
    exact ((by omega : ∀ v : Nat, 0 + 0 + v = v) _).trans rfl

/-- The dimension numbers `d` are those of a row gather: result axis 1 the offset axis, operand axis 0 collapsed, no
    batching axes, the start index's one component sent to operand axis 0, the index vector on axis 1 of the start
    indices, and slices of one row. -/
structure RowGather (d : GatherDims ⟨2, ![N, C]⟩ ⟨2, ![E, 1]⟩ ⟨2, ![E, C]⟩) : Prop where
  od : d.offsetDims = [1]
  cs : d.collapsedSliceDims = [0]
  ob : d.operandBatchingDims = []
  sb : d.startIndicesBatchingDims = []
  sim : d.startIndexMap = [0]
  iv : d.indexVectorDim = 1
  ss : d.sliceSizes = ![1, C]

/-- THE ROW GATHER READ AT `(e, c)`: the operand at column `c` of the row the `e`-th start index names, that index
    read signed (a negative one is `0`) and clamped to `N − 1`, the last row a one-row slice can start at. -/
theorem gather_rows_apply {α : Type} {w : Nat} (hN : 0 < N) (d : GatherDims ⟨2, ![N, C]⟩ ⟨2, ![E, 1]⟩ ⟨2, ![E, C]⟩)
    (h : RowGather d) (x : (⟨2, ![N, C]⟩ : Shape).Idx → α) (idx : IVec ⟨2, ![E, 1]⟩ w) (e : Fin E) (c : Fin C) :
    Host.gather d x idx (ix2 e c)
      = x (ix2 ⟨min (idx (ix2 e (0 : Fin 1))).toInt.toNat (N - 1), by omega⟩ c) := by
  obtain ⟨od, cs, ob, sb, sim, iv, ss, wf⟩ := d
  obtain ⟨h1, h2, h3, h4, h5, h6, h7⟩ := h
  dsimp only at h1 h2 h3 h4 h5 h6 h7
  subst h1 h2 h3 h4 h5 h6 h7
  exact rowGatherDims_apply hN wf x idx e c

end RowGather

/-- The row gather read at `(e, c)` when the clamped start index is known to be the row `n`. -/
theorem gather_rows_apply_of_eq {N C E : Nat} {α : Type} {w : Nat} (hN : 0 < N)
    (d : GatherDims ⟨2, ![N, C]⟩ ⟨2, ![E, 1]⟩ ⟨2, ![E, C]⟩) (h : RowGather d)
    (x : (⟨2, ![N, C]⟩ : Shape).Idx → α) (idx : IVec ⟨2, ![E, 1]⟩ w) (e : Fin E) (c : Fin C) (n : Fin N)
    (hn : min (idx (ix2 e (0 : Fin 1))).toInt.toNat (N - 1) = n.val) :
    Host.gather d x idx (ix2 e c) = x (ix2 n c) := by
  rw [gather_rows_apply hN d h x idx e c]
  exact congrArg (fun r => x (ix2 r c)) (Fin.ext hn)

/-! ## The gather of entries of a vector -/

section VecGather
variable {N E : Nat}

/-- The dimension numbers of reading `E` entries of an `[N]` operand at start indices held in an `[E, 1]` array: the
    result has no offset axis, operand axis 0 is collapsed, the one component of each start index goes to operand
    axis 0, and a slice is one entry. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The slice starts at the start index read signed and clamped into `[0, N − 1]`. -/
theorem vecGatherDims_start (wf : GatherDims.WF ⟨1, ![N]⟩ ⟨2, ![E, 1]⟩ ⟨1, ![E]⟩ [] [0] [] [0] [] 1 ![1])
    (j : (⟨1, ![E]⟩ : Shape).Idx) {w : Nat} (idx : IVec ⟨2, ![E, 1]⟩ w) :
    (vecGatherDims N E wf).start j idx 0
      = min (idx (ix2 ⟨(j 0).val, (j 0).isLt⟩ (0 : Fin 1))).toInt.toNat (N - 1) := by
  unfold GatherDims.start
  have hmem : (0 : Fin 1) ∈ (vecGatherDims N E wf).startIndexMap := List.mem_singleton.mpr rfl
  refine (dif_pos hmem).trans ?_
  have hsi : (vecGatherDims N E wf).siIdx j ⟨List.idxOf (0 : Fin 1) (vecGatherDims N E wf).startIndexMap,
      List.idxOf_lt_length_iff.2 hmem⟩ = ix2 ⟨(j 0).val, (j 0).isLt⟩ (0 : Fin 1) := by
    funext b; refine Fin.ext ?_
    match b with
    | ⟨0, _⟩ => rfl
    | ⟨1, _⟩ => rfl
  rw [hsi]
  rfl

/-- The gather with the literal dimension numbers, read at `e`. -/
theorem vecGatherDims_apply {α : Type} (hN : 0 < N)
    (wf : GatherDims.WF ⟨1, ![N]⟩ ⟨2, ![E, 1]⟩ ⟨1, ![E]⟩ [] [0] [] [0] [] 1 ![1]) {w : Nat}
    (x : (⟨1, ![N]⟩ : Shape).Idx → α) (idx : IVec ⟨2, ![E, 1]⟩ w) (e : Fin E) :
    Host.gather (vecGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl)),
    vecGatherDims_start]
  rfl

/-- The dimension numbers `d` are those of a vector gather: no offset axis, operand axis 0 collapsed, no batching
    axes, the start index's one component sent to operand axis 0, the index vector on axis 1 of the start indices,
    and slices of one entry. -/
structure VecGather (d : GatherDims ⟨1, ![N]⟩ ⟨2, ![E, 1]⟩ ⟨1, ![E]⟩) : Prop where
  od : d.offsetDims = []
  cs : d.collapsedSliceDims = [0]
  ob : d.operandBatchingDims = []
  sb : d.startIndicesBatchingDims = []
  sim : d.startIndexMap = [0]
  iv : d.indexVectorDim = 1
  ss : d.sliceSizes = ![1]

/-- THE VECTOR GATHER READ AT `e`: the operand at the entry the `e`-th start index names, that index read signed (a
    negative one is `0`) and clamped to `N − 1`. -/
theorem gather_vec_apply {α : Type} {w : Nat} (hN : 0 < N) (d : GatherDims ⟨1, ![N]⟩ ⟨2, ![E, 1]⟩ ⟨1, ![E]⟩)
    (h : VecGather d) (x : (⟨1, ![N]⟩ : Shape).Idx → α) (idx : IVec ⟨2, ![E, 1]⟩ w) (e : Fin E) :
    Host.gather d x idx (ix1 e)
      = x (ix1 ⟨min (idx (ix2 e (0 : Fin 1))).toInt.toNat (N - 1), by omega⟩) := by
  obtain ⟨od, cs, ob, sb, sim, iv, ss, wf⟩ := d
  obtain ⟨h1, h2, h3, h4, h5, h6, h7⟩ := h
  dsimp only at h1 h2 h3 h4 h5 h6 h7
  subst h1 h2 h3 h4 h5 h6 h7
  exact vecGatherDims_apply hN wf x idx e

end VecGather

/-- The vector gather read at `e` when the clamped start index is known to be the entry `n`. -/
theorem gather_vec_apply_of_eq {N E : Nat} {α : Type} {w : Nat} (hN : 0 < N)
    (d : GatherDims ⟨1, ![N]⟩ ⟨2, ![E, 1]⟩ ⟨1, ![E]⟩) (h : VecGather d)
    (x : (⟨1, ![N]⟩ : Shape).Idx → α) (idx : IVec ⟨2, ![E, 1]⟩ w) (e : Fin E) (n : Fin N)
    (hn : min (idx (ix2 e (0 : Fin 1))).toInt.toNat (N - 1) = n.val) :
    Host.gather d x idx (ix1 e) = x (ix1 n) := by
  rw [gather_vec_apply hN d h x idx e]
  exact congrArg (fun r => x (ix1 r)) (Fin.ext hn)

/-! ## 32-bit index words: the wrap of a negative index, then the gather's clamp -/

section Words

/-- The word of a natural number below `2 ^ 31` reads back signed as that number. -/
theorem toInt_ofNat_small (i : Nat) (h : i < 2 ^ 31) : (BitVec.ofNat 32 i).toInt = (i : Int) := by
  have hn : (BitVec.ofNat 32 i).toNat = i := by
    rw [BitVec.toNat_ofNat]
    exact Nat.mod_eq_of_lt (by omega)
  rw [BitVec.toInt_eq_toNat_of_lt (by rw [hn]; omega), hn]

/-- The wrap of a possibly negative index word `v` by the length `K`: `v + K` when `v` is below zero signed, else
    `v`. -/
def wrapAt (K v : BitVec 32) : BitVec 32 :=
  Scalar.select (IntOp.cmpi .slt v 0#32) (IntOp.addi v K) v

/-- The wrap spelled out. -/
theorem wrapAt_eq (K v : BitVec 32) :
    wrapAt K v = Scalar.select (IntOp.cmpi .slt v 0#32) (IntOp.addi v K) v := rfl

/-- A non-negative word is not below zero signed, so the select keeps it. -/
theorem wrap_of_nonneg (K v : BitVec 32) (h : 0 ≤ v.toInt) :
    Scalar.select (IntOp.cmpi .slt v 0#32) (IntOp.addi v K) v = v := by
  have hs : v.slt 0#32 = false := by
    rw [BitVec.slt]
    exact decide_eq_false (by rw [BitVec.toInt_zero]; omega)
  have hc : IntOp.cmpi .slt v 0#32 = 0#1 := by
    show BitVec.ofBool (v.slt 0#32) = 0#1
    rw [hs]; rfl
  rw [hc]
  exact select_zero _ _

/-- The gather's clamp of a word whose signed value is an in-range `n` is `n`. -/
theorem clamp_of_toInt_eq {N : Nat} (v : BitVec 32) (n : Fin N) (h : v.toInt = (n.val : Int)) :
    min v.toInt.toNat (N - 1) = n.val := by
  rw [h, Int.toNat_natCast]
  have := n.isLt
  omega

/-- The wrap followed by the clamp, of a word whose signed value is an in-range `n`, is `n`. -/
theorem clamp_wrap_of_toInt_eq {N : Nat} (K v : BitVec 32) (n : Fin N) (h : v.toInt = (n.val : Int)) :
    min (Scalar.select (IntOp.cmpi .slt v 0#32) (IntOp.addi v K) v).toInt.toNat (N - 1) = n.val := by
  rw [wrap_of_nonneg K v (by rw [h]; exact Int.natCast_nonneg _)]
  exact clamp_of_toInt_eq v n h

end Words

end Cert.LibEdgeOps
-- ==== Proof.LibScatterRows.lean ====
import proofs.«107467_j10763188043963_1_alg».proof.Proof.LibScatterSet

/-!
# An accumulating scatter of rows, read at an index

An `[N, C]` operand receives the rows of an `[E, C]` array of updates: row `e` of the updates is added into the operand's
row named by the `e`-th scatter index, an entry of an `[E, 1]` array of integer words read signed. Several rows may name
the same operand row, and a row whose index is negative or at least `N` lands nowhere.

For the dimension numbers of such a scatter (update axis 1 the window axis, operand axis 0 inserted, the one component
of the start index sent to operand axis 0, the index vector on axis 1 of the scatter indices):

* update index `j` lands on `(n, c)` exactly when the scatter index of row `j 0` is `n` and `j 1 = c`
  (`rows_resultIdx?_iff`);
* at the ideal instance the result at `(n, c)` is the operand there plus the sum, over the rows `e` whose scatter index
  is `n`, of the update at `(e, c)` (`scatterAdd_rows_apply`, `host_scatterAdd_rows_apply`).

The sizes `N`, `C`, `E` and the index width are arbitrary.
-/

open scoped BigOperators

namespace Cert.LibScatterRows

open Idealize.ShloMosaic Idealize.ShloMosaic.ValueIdx

/-! ## The literal dimension numbers of a row scatter -/

section Literal
variable {N C E : Nat}

/-- The dimension numbers of adding the rows of an `[E, C]` array of updates into an `[N, C]` operand at `E` scatter
    indices held in an `[E, 1]` array: update axis 1 is the window axis, operand axis 0 is inserted, and the one
    component of each start index goes to operand axis 0. -/
abbrev rowDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  ⟨[1], [0], [0], 1, wf⟩

/-- The operand's axes that are not inserted: the column axis alone. -/
theorem rowDims_sKept (wf : ScatterDims.WF ⟨2, ![N, C]⟩ ⟨2, ![E, 1]⟩ ⟨2, ![E, C]⟩ [1] [0] [0] 1) :
    (rowDims N C E wf).sKept = [(1 : Fin 2)] :=
  (by decide : (List.finRange 2).filter (fun a => a ∉ [(0 : Fin 2)]) = [1])

/-- The window coordinate on the row axis is `0`: that axis is inserted. -/
theorem rowDims_window_row (wf : ScatterDims.WF ⟨2, ![N, C]⟩ ⟨2, ![E, 1]⟩ ⟨2, ![E, C]⟩ [1] [0] [0] 1)
    (j : (⟨2, ![E, C]⟩ : Shape).Idx) : (rowDims N C E wf).window j 0 = 0 := by
  unfold ScatterDims.window
  refine dif_neg ?_
  rw [rowDims_sKept]
  exact (by decide : (0 : Fin 2) ∉ [(1 : Fin 2)])

/-- The window coordinate on the column axis is the update index's column. -/
theorem rowDims_window_col (wf : ScatterDims.WF ⟨2, ![N, C]⟩ ⟨2, ![E, 1]⟩ ⟨2, ![E, C]⟩ [1] [0] [0] 1)
    (j : (⟨2, ![E, C]⟩ : Shape).Idx) : (rowDims N C E wf).window j 1 = (j 1).val := by
  unfold ScatterDims.window
  refine (dif_pos ?_).trans rfl
  rw [rowDims_sKept]
  exact List.mem_singleton.mpr rfl

/-- On the row axis the window starts at the row the update's scatter index names, read signed. -/
theorem rowDims_start_row (wf : ScatterDims.WF ⟨2, ![N, C]⟩ ⟨2, ![E, 1]⟩ ⟨2, ![E, C]⟩ [1] [0] [0] 1)
    (j : (⟨2, ![E, C]⟩ : Shape).Idx) {w : Nat} (idx : IVec ⟨2, ![E, 1]⟩ w) :
    (rowDims N C E wf).start j idx 0 = (idx (ix2 ⟨(j 0).val, (j 0).isLt⟩ (0 : Fin 1))).toInt := by
  unfold ScatterDims.start
  have hmem : (0 : Fin 2) ∈ (rowDims N C E wf).scatterDimsToOperandDims := List.mem_singleton.mpr rfl
  refine (dif_pos hmem).trans ?_
  have hsi : (rowDims N C E wf).siIdx j ⟨List.idxOf (0 : Fin 2) (rowDims N C E wf).scatterDimsToOperandDims,
      List.idxOf_lt_length_iff.2 hmem⟩ = ix2 ⟨(j 0).val, (j 0).isLt⟩ (0 : Fin 1) := by
    funext b; refine Fin.ext ?_
    match b with
    | ⟨0, _⟩ => rfl
    | ⟨1, _⟩ => rfl
  exact congrArg (fun i => (idx i).toInt) hsi

/-- On the column axis the window starts at `0`: no component of the start index goes there. -/
theorem rowDims_start_col (wf : ScatterDims.WF ⟨2, ![N, C]⟩ ⟨2, ![E, 1]⟩ ⟨2, ![E, C]⟩ [1] [0] [0] 1)
    (j : (⟨2, ![E, C]⟩ : Shape).Idx) {w : Nat} (idx : IVec ⟨2, ![E, 1]⟩ w) :
    (rowDims N C E wf).start j idx 1 = 0 := by
  unfold ScatterDims.start
  refine dif_neg (fun h => ?_)
  exact absurd (List.mem_singleton.mp h) (by decide : ¬ (1 : Fin 2) = 0)

/-- An update index lands on `(n, c)` exactly when its row's scatter index, read signed, is `n` and its column is
    `c`. -/
theorem rowDims_resultIdx?_iff (wf : ScatterDims.WF ⟨2, ![N, C]⟩ ⟨2, ![E, 1]⟩ ⟨2, ![E, C]⟩ [1] [0] [0] 1)
    {w : Nat} (idx : IVec ⟨2, ![E, 1]⟩ w) (j : (⟨2, ![E, C]⟩ : Shape).Idx) (n : Fin N) (c : Fin C) :
    (rowDims N C E wf).resultIdx? j idx = some (ix2 n c) ↔
      (idx (ix2 ⟨(j 0).val, (j 0).isLt⟩ (0 : Fin 1))).toInt = (n.val : Int) ∧ (j 1).val = c.val := by
  rw [Cert.Lib.resultIdx?_eq_some_iff]
  have k0 : (rowDims N C E wf).start j idx 0 + ((rowDims N C E wf).window j 0 : Int)
      = (idx (ix2 ⟨(j 0).val, (j 0).isLt⟩ (0 : Fin 1))).toInt := by
    rw [rowDims_start_row, rowDims_window_row]; simp
  have k1 : (rowDims N C E wf).start j idx 1 + ((rowDims N C E wf).window j 1 : Int) = ((j 1).val : Int) := by
    rw [rowDims_start_col, rowDims_window_col]; simp
  constructor
  · intro e
    have e0 : (idx (ix2 ⟨(j 0).val, (j 0).isLt⟩ (0 : Fin 1))).toInt = (n.val : Int) := k0.symm.trans (e (0 : Fin 2))
    have e1 : ((j 1).val : Int) = (c.val : Int) := k1.symm.trans (e (1 : Fin 2))
    exact ⟨e0, by exact_mod_cast e1⟩
  · rintro ⟨e0, e1⟩ a
    match a with
    | ⟨0, _⟩ => exact k0.trans e0
    | ⟨1, _⟩ =>
      refine k1.trans ?_
      show ((j 1).val : Int) = (c.val : Int)
      exact_mod_cast e1

end Literal

/-! ## Any dimension numbers with those four lists -/

section Rows
variable {N C E : Nat}

/-- The dimension numbers `d` are those of a row scatter: update axis 1 the window axis, operand axis 0 inserted,
    the start index's one component sent to operand axis 0, and the index vector on axis 1 of the scatter
    indices. -/
structure Rows (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  iv : d.indexVectorDim = 1

/-- For a row scatter, update index `j` lands on `(n, c)` exactly when the scatter index of row `j 0`, read
    signed, is `n` and `j`'s column is `c`. -/
theorem rows_resultIdx?_iff (d : ScatterDims ⟨2, ![N, C]⟩ ⟨2, ![E, 1]⟩ ⟨2, ![E, C]⟩) (h : Rows d) {w : Nat}
    (idx : IVec ⟨2, ![E, 1]⟩ w) (j : (⟨2, ![E, C]⟩ : Shape).Idx) (n : Fin N) (c : Fin C) :
    d.resultIdx? j idx = some (ix2 n c) ↔
      (idx (ix2 ⟨(j 0).val, (j 0).isLt⟩ (0 : Fin 1))).toInt = (n.val : Int) ∧ (j 1).val = c.val := by
  obtain ⟨uw, iw, sd, iv, wf⟩ := d
  obtain ⟨h1, h2, h3, h4⟩ := h
  dsimp only at h1 h2 h3 h4
  subst h1 h2 h3 h4
  exact rowDims_resultIdx?_iff wf idx j n c

/-- THE ACCUMULATING ROW SCATTER READ AT `(n, c)`: the operand there plus the sum, over the rows `e` of the updates
    whose scatter index read signed is `n`, of the update at `(e, c)`. Rows whose index is negative or at least
    `N` contribute to no position. -/
theorem scatterAdd_rows_apply (d : ScatterDims ⟨2, ![N, C]⟩ ⟨2, ![E, 1]⟩ ⟨2, ![E, C]⟩) (h : Rows d) {w : Nat}
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  symm
  refine Finset.sum_bij (fun e _ => ix2 e c) ?_ ?_ ?_ ?_
  · intro e he
    rw [Finset.mem_filter] at he ⊢
    exact ⟨Finset.mem_univ _, (rows_resultIdx?_iff d h idx (ix2 e c) n c).2 ⟨he.2, rfl⟩⟩
  · intro e₁ _ e₂ _ heq
    exact congrFun heq (0 : Fin 2)
  · intro j hj
    rw [Finset.mem_filter] at hj
    obtain ⟨h0, h1⟩ := (rows_resultIdx?_iff d h idx j n c).1 hj.2
    refine ⟨⟨(j 0).val, (j 0).isLt⟩, Finset.mem_filter.2 ⟨Finset.mem_univ _, h0⟩, ?_⟩
    funext a
    match a with
    | ⟨0, _⟩ => rfl
    | ⟨1, _⟩ => exact Fin.ext h1.symm
  · intro e _
    rfl

/-- The same reading of the host's accumulating scatter operation at the ideal instance. -/
theorem host_scatterAdd_rows_apply (d : ScatterDims ⟨2, ![N, C]⟩ ⟨2, ![E, 1]⟩ ⟨2, ![E, C]⟩) (h : Rows d) {w : Nat}
    (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (φ := .f32) d x idx upd (ix2 n c)
      = x (ix2 n c) + ∑ e ∈ Finset.univ.filter (fun e : Fin E => (idx (ix2 e (0 : Fin 1))).toInt = (n.val : Int)),
          upd (ix2 e c) :=
  scatterAdd_rows_apply d h x idx upd n c

end Rows

end Cert.LibScatterRows
-- ==== Proof.LibEdgeOps3.lean ====
import proofs.«107467_j10763188043963_1_alg».proof.Proof.LibScatterSet
import Idealize.ShloMosaic.Lib.ValueIdx
import Idealize.ShloMosaic.Lib.ValueLayout
import Idealize.ShloMosaic.PureOps.Ideal.Laws

/-!
# Rank-three arrays driven by one index per slab, and the last axis split or joined

An `[N, A, B]` array is a stack of `N` slabs `[A, B]`. Two index-driven operations move whole slabs, each driven by an
`[E, 1]` array of integer words (one index per slab, read signed), at arbitrary sizes and an arbitrary index width:

* the gather of `E` slabs: slab `e` of the result is the operand's slab at the `e`-th start index, read signed and clamped
  into `[0, N − 1]` (`gather_slabs_apply`);
* the accumulating scatter of the `E` slabs of an `[E, A, B]` array of updates: the result at `(n, p, q)` is the operand
  there plus the sum of the updates `(e, p, q)` over the slabs `e` whose scatter index is `n`; an index that is negative
  or at least `N` lands nowhere (`host_scatterAdd_slabs_apply`).

Then the re-laying that splits the last axis of a matrix `[n, a * b]` into `[n, a, b]` or joins it back: both hold the
same entries in the same row-major order, entry `(i, p, q)` of the one being entry `(i, p * b + q)` of the other; and
three broadcasts that add, keep or repeat a trailing axis.
-/

open scoped BigOperators

namespace Cert.LibEdgeOps3

open Idealize.ShloMosaic Idealize.ShloMosaic.ValueIdx

/-! ## The gather of slabs -/

section SlabGather
variable {N A B E : Nat}

/-- The dimension numbers of reading `E` slabs of an `[N, A, B]` operand at start indices held in an `[E, 1]` array:
    result axes 1 and 2 are the offset axes, operand axis 0 is collapsed, the one component of each start index goes
    to operand axis 0, and a slice is one slab, `[1, A, B]`. -/
abbrev slabGatherDims (N A B E : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- The operand's axes that are neither collapsed nor batching: the two axes of a slab. -/
theorem slabGatherDims_sKept
    (wf : GatherDims.WF ⟨3, ![N, A, B]⟩ ⟨2, ![E, 1]⟩ ⟨3, ![E, A, B]⟩ [1, 2] [0] [] [0] [] 1 ![1, A, B]) :
    (slabGatherDims N A B E wf).sKept = [(1 : Fin 3), 2] :=
  (by decide : (List.finRange 3).filter (fun a => a ∉ [(0 : Fin 3)] ++ []) = [1, 2])

/-- On the slab axis the slice starts at the start index read signed and clamped into `[0, N − 1]`. -/
theorem slabGatherDims_start_slab
    (wf : GatherDims.WF ⟨3, ![N, A, B]⟩ ⟨2, ![E, 1]⟩ ⟨3, ![E, A, B]⟩ [1, 2] [0] [] [0] [] 1 ![1, A, B])
    (j : (⟨3, ![E, A, B]⟩ : Shape).Idx) {w : Nat} (idx : IVec ⟨2, ![E, 1]⟩ w) :
    (slabGatherDims N A B E wf).start j idx 0
      = min (idx (ix2 ⟨(j 0).val, (j 0).isLt⟩ (0 : Fin 1))).toInt.toNat (N - 1) := by
  unfold GatherDims.start
  have hmem : (0 : Fin 3) ∈ (slabGatherDims N A B E wf).startIndexMap := List.mem_singleton.mpr rfl
  refine (dif_pos hmem).trans ?_
  have hsi : (slabGatherDims N A B E wf).siIdx j ⟨List.idxOf (0 : Fin 3) (slabGatherDims N A B E wf).startIndexMap,
      List.idxOf_lt_length_iff.2 hmem⟩ = ix2 ⟨(j 0).val, (j 0).isLt⟩ (0 : Fin 1) := by
    funext b; refine Fin.ext ?_
    match b with
    | ⟨0, _⟩ => rfl
    | ⟨1, _⟩ => rfl
  rw [hsi]
  rfl

/-- On the two axes of a slab the slice starts at `0`: no component of the start index goes there. -/
theorem slabGatherDims_start_in
    (wf : GatherDims.WF ⟨3, ![N, A, B]⟩ ⟨2, ![E, 1]⟩ ⟨3, ![E, A, B]⟩ [1, 2] [0] [] [0] [] 1 ![1, A, B])
    (j : (⟨3, ![E, A, B]⟩ : Shape).Idx) {w : Nat} (idx : IVec ⟨2, ![E, 1]⟩ w) (a : Fin 3) (ha : a ≠ 0) :
    (slabGatherDims N A B E wf).start j idx a = 0 := by
  unfold GatherDims.start
  refine dif_neg (fun h => ?_)
  exact ha (List.mem_singleton.mp h)

/-- The offset coordinate on the slab axis is `0`: that axis is collapsed. -/
theorem slabGatherDims_off_slab
    (wf : GatherDims.WF ⟨3, ![N, A, B]⟩ ⟨2, ![E, 1]⟩ ⟨3, ![E, A, B]⟩ [1, 2] [0] [] [0] [] 1 ![1, A, B])
    (j : (⟨3, ![E, A, B]⟩ : Shape).Idx) : (slabGatherDims N A B E wf).offCoord j 0 = 0 := by
  refine GatherDims.offCoord_eq_zero _ _ _ ?_
  rw [slabGatherDims_sKept]
  exact (by decide : (0 : Fin 3) ∉ [(1 : Fin 3), 2])

/-- The offset coordinate on the slab's first axis is the result index's middle coordinate. -/
theorem slabGatherDims_off_mid
    (wf : GatherDims.WF ⟨3, ![N, A, B]⟩ ⟨2, ![E, 1]⟩ ⟨3, ![E, A, B]⟩ [1, 2] [0] [] [0] [] 1 ![1, A, B])
    (j : (⟨3, ![E, A, B]⟩ : Shape).Idx) : (slabGatherDims N A B E wf).offCoord j 1 = (j 1).val := by
  unfold GatherDims.offCoord
  refine (dif_pos ?_).trans rfl
  rw [slabGatherDims_sKept]
  exact (by decide : (1 : Fin 3) ∈ [(1 : Fin 3), 2])

/-- The offset coordinate on the slab's second axis is the result index's last coordinate. -/
theorem slabGatherDims_off_last
    (wf : GatherDims.WF ⟨3, ![N, A, B]⟩ ⟨2, ![E, 1]⟩ ⟨3, ![E, A, B]⟩ [1, 2] [0] [] [0] [] 1 ![1, A, B])
    (j : (⟨3, ![E, A, B]⟩ : Shape).Idx) : (slabGatherDims N A B E wf).offCoord j 2 = (j 2).val := by
  unfold GatherDims.offCoord
  refine (dif_pos ?_).trans rfl
  rw [slabGatherDims_sKept]
  exact (by decide : (2 : Fin 3) ∈ [(1 : Fin 3), 2])

/-- The gather with the literal dimension numbers, read at `(e, p, q)`. -/
theorem slabGatherDims_apply {α : Type} (hN : 0 < N)
    (wf : GatherDims.WF ⟨3, ![N, A, B]⟩ ⟨2, ![E, 1]⟩ ⟨3, ![E, A, B]⟩ [1, 2] [0] [] [0] [] 1 ![1, A, B]) {w : Nat}
    (x : (⟨3, ![N, A, B]⟩ : Shape).Idx → α) (idx : IVec ⟨2, ![E, 1]⟩ w) (e : Fin E) (p : Fin A) (q : Fin B) :
    Host.gather (slabGatherDims N A B E wf) x idx (ix3 e p q)
      = x (ix3 ⟨min (idx (ix2 e (0 : Fin 1))).toInt.toNat (N - 1), by omega⟩ p q) := by
  unfold Host.gather
  congr 1
  funext a
  refine Fin.ext ?_
  match a with
  | ⟨0, _⟩ =>
    show (slabGatherDims N A B E wf).start (ix3 e p q) idx 0 + (slabGatherDims N A B E wf).batchCoord (ix3 e p q) 0
      + (slabGatherDims N A B E wf).offCoord (ix3 e p q) 0 = _
    rw [GatherDims.batchCoord_eq_zero _ _ _ List.not_mem_nil, slabGatherDims_off_slab, slabGatherDims_start_slab]
    rfl
  | ⟨1, _⟩ =>
    show (slabGatherDims N A B E wf).start (ix3 e p q) idx 1 + (slabGatherDims N A B E wf).batchCoord (ix3 e p q) 1
      + (slabGatherDims N A B E wf).offCoord (ix3 e p q) 1 = _
    rw [GatherDims.batchCoord_eq_zero _ _ _ List.not_mem_nil, slabGatherDims_off_mid,
      slabGatherDims_start_in wf _ idx 1 (by decide)]
    exact ((by omega : ∀ v : Nat, 0 + 0 + v = v) _).trans rfl
  | ⟨2, _⟩ =>
    show (slabGatherDims N A B E wf).start (ix3 e p q) idx 2 + (slabGatherDims N A B E wf).batchCoord (ix3 e p q) 2
      + (slabGatherDims N A B E wf).offCoord (ix3 e p q) 2 = _
    rw [GatherDims.batchCoord_eq_zero _ _ _ List.not_mem_nil, slabGatherDims_off_last,
      slabGatherDims_start_in wf _ idx 2 (by decide)]
    exact ((by omega : ∀ v : Nat, 0 + 0 + v = v) _).trans rfl

/-- The dimension numbers `d` are those of a slab gather: result axes 1 and 2 the offset axes, operand axis 0
    collapsed, no batching axes, the start index's one component sent to operand axis 0, the index vector on axis 1 of
    the start indices, and slices of one slab. -/
structure SlabGather (d : GatherDims ⟨3, ![N, A, B]⟩ ⟨2, ![E, 1]⟩ ⟨3, ![E, A, B]⟩) : Prop where
  od : d.offsetDims = [1, 2]
  cs : d.collapsedSliceDims = [0]
  ob : d.operandBatchingDims = []
  sb : d.startIndicesBatchingDims = []
  sim : d.startIndexMap = [0]
  iv : d.indexVectorDim = 1
  ss : d.sliceSizes = ![1, A, B]

/-- THE SLAB GATHER READ AT `(e, p, q)`: the operand at `(p, q)` of the slab the `e`-th start index names, that index
    read signed (a negative one is `0`) and clamped to `N − 1`, the last slab a one-slab slice can start at. -/
theorem gather_slabs_apply {α : Type} {w : Nat} (hN : 0 < N)
    (d : GatherDims ⟨3, ![N, A, B]⟩ ⟨2, ![E, 1]⟩ ⟨3, ![E, A, B]⟩) (h : SlabGather d)
    (x : (⟨3, ![N, A, B]⟩ : Shape).Idx → α) (idx : IVec ⟨2, ![E, 1]⟩ w) (e : Fin E) (p : Fin A) (q : Fin B) :
    Host.gather d x idx (ix3 e p q)
      = x (ix3 ⟨min (idx (ix2 e (0 : Fin 1))).toInt.toNat (N - 1), by omega⟩ p q) := by
  obtain ⟨od, cs, ob, sb, sim, iv, ss, wf⟩ := d
  obtain ⟨h1, h2, h3, h4, h5, h6, h7⟩ := h
  dsimp only at h1 h2 h3 h4 h5 h6 h7
  subst h1 h2 h3 h4 h5 h6 h7
  exact slabGatherDims_apply hN wf x idx e p q

end SlabGather

/-! ## The accumulating scatter of slabs -/

section SlabScatterLiteral
variable {N A B E : Nat}

/-- The dimension numbers of adding the slabs of an `[E, A, B]` array of updates into an `[N, A, B]` operand at `E`
    scatter indices held in an `[E, 1]` array: update axes 1 and 2 are the window axes, operand axis 0 is inserted, and
    the one component of each start index goes to operand axis 0. -/
abbrev slabDims (N A B E : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ :=
  ⟨[1, 2], [0], [0], 1, wf⟩

/-- The operand's axes that are not inserted: the two axes of a slab. -/
theorem slabDims_sKept (wf : ScatterDims.WF ⟨3, ![N, A, B]⟩ ⟨2, ![E, 1]⟩ ⟨3, ![E, A, B]⟩ [1, 2] [0] [0] 1) :
    (slabDims N A B E wf).sKept = [(1 : Fin 3), 2] :=
  (by decide : (List.finRange 3).filter (fun a => a ∉ [(0 : Fin 3)]) = [1, 2])

/-- The window coordinate on the slab axis is `0`: that axis is inserted. -/
theorem slabDims_window_slab (wf : ScatterDims.WF ⟨3, ![N, A, B]⟩ ⟨2, ![E, 1]⟩ ⟨3, ![E, A, B]⟩ [1, 2] [0] [0] 1)
    (j : (⟨3, ![E, A, B]⟩ : Shape).Idx) : (slabDims N A B E wf).window j 0 = 0 := by
  unfold ScatterDims.window
  refine dif_neg ?_
  rw [slabDims_sKept]
  exact (by decide : (0 : Fin 3) ∉ [(1 : Fin 3), 2])

/-- The window coordinate on the slab's first axis is the update index's middle coordinate. -/
theorem slabDims_window_mid (wf : ScatterDims.WF ⟨3, ![N, A, B]⟩ ⟨2, ![E, 1]⟩ ⟨3, ![E, A, B]⟩ [1, 2] [0] [0] 1)
    (j : (⟨3, ![E, A, B]⟩ : Shape).Idx) : (slabDims N A B E wf).window j 1 = (j 1).val := by
  unfold ScatterDims.window
  refine (dif_pos ?_).trans rfl
  rw [slabDims_sKept]
  exact (by decide : (1 : Fin 3) ∈ [(1 : Fin 3), 2])

/-- The window coordinate on the slab's second axis is the update index's last coordinate. -/
theorem slabDims_window_last (wf : ScatterDims.WF ⟨3, ![N, A, B]⟩ ⟨2, ![E, 1]⟩ ⟨3, ![E, A, B]⟩ [1, 2] [0] [0] 1)
    (j : (⟨3, ![E, A, B]⟩ : Shape).Idx) : (slabDims N A B E wf).window j 2 = (j 2).val := by
  unfold ScatterDims.window
  refine (dif_pos ?_).trans rfl
  rw [slabDims_sKept]
  exact (by decide : (2 : Fin 3) ∈ [(1 : Fin 3), 2])

/-- On the slab axis the window starts at the slab the update's scatter index names, read signed. -/
theorem slabDims_start_slab (wf : ScatterDims.WF ⟨3, ![N, A, B]⟩ ⟨2, ![E, 1]⟩ ⟨3, ![E, A, B]⟩ [1, 2] [0] [0] 1)
    (j : (⟨3, ![E, A, B]⟩ : Shape).Idx) {w : Nat} (idx : IVec ⟨2, ![E, 1]⟩ w) :
    (slabDims N A B E wf).start j idx 0 = (idx (ix2 ⟨(j 0).val, (j 0).isLt⟩ (0 : Fin 1))).toInt := by
  unfold ScatterDims.start
  have hmem : (0 : Fin 3) ∈ (slabDims N A B E wf).scatterDimsToOperandDims := List.mem_singleton.mpr rfl
  refine (dif_pos hmem).trans ?_
  have hsi : (slabDims N A B E wf).siIdx j ⟨List.idxOf (0 : Fin 3) (slabDims N A B E wf).scatterDimsToOperandDims,
      List.idxOf_lt_length_iff.2 hmem⟩ = ix2 ⟨(j 0).val, (j 0).isLt⟩ (0 : Fin 1) := by
    funext b; refine Fin.ext ?_
    match b with
    | ⟨0, _⟩ => rfl
    | ⟨1, _⟩ => rfl
  exact congrArg (fun i => (idx i).toInt) hsi

/-- On the two axes of a slab the window starts at `0`: no component of the start index goes there. -/
theorem slabDims_start_in (wf : ScatterDims.WF ⟨3, ![N, A, B]⟩ ⟨2, ![E, 1]⟩ ⟨3, ![E, A, B]⟩ [1, 2] [0] [0] 1)
    (j : (⟨3, ![E, A, B]⟩ : Shape).Idx) {w : Nat} (idx : IVec ⟨2, ![E, 1]⟩ w) (a : Fin 3) (ha : a ≠ 0) :
    (slabDims N A B E wf).start j idx a = 0 := by
  unfold ScatterDims.start
  refine dif_neg (fun h => ?_)
  exact ha (List.mem_singleton.mp h)

/-- An update index lands on `(n, p, q)` exactly when its slab's scatter index, read signed, is `n` and its two inner
    coordinates are `p` and `q`. -/
theorem slabDims_resultIdx?_iff (wf : ScatterDims.WF ⟨3, ![N, A, B]⟩ ⟨2, ![E, 1]⟩ ⟨3, ![E, A, B]⟩ [1, 2] [0] [0] 1)
    {w : Nat} (idx : IVec ⟨2, ![E, 1]⟩ w) (j : (⟨3, ![E, A, B]⟩ : Shape).Idx) (n : Fin N) (p : Fin A) (q : Fin B) :
    (slabDims N A B E wf).resultIdx? j idx = some (ix3 n p q) ↔
      (idx (ix2 ⟨(j 0).val, (j 0).isLt⟩ (0 : Fin 1))).toInt = (n.val : Int) ∧ (j 1).val = p.val ∧ (j 2).val = q.val := by
  rw [Cert.Lib.resultIdx?_eq_some_iff]
  have k0 : (slabDims N A B E wf).start j idx 0 + ((slabDims N A B E wf).window j 0 : Int)
      = (idx (ix2 ⟨(j 0).val, (j 0).isLt⟩ (0 : Fin 1))).toInt := by
    rw [slabDims_start_slab, slabDims_window_slab]; simp
  have k1 : (slabDims N A B E wf).start j idx 1 + ((slabDims N A B E wf).window j 1 : Int) = ((j 1).val : Int) := by
    rw [slabDims_start_in wf j idx 1 (by decide), slabDims_window_mid]; simp
  have k2 : (slabDims N A B E wf).start j idx 2 + ((slabDims N A B E wf).window j 2 : Int) = ((j 2).val : Int) := by
    rw [slabDims_start_in wf j idx 2 (by decide), slabDims_window_last]; simp
  constructor
  · intro e
    have e0 : (idx (ix2 ⟨(j 0).val, (j 0).isLt⟩ (0 : Fin 1))).toInt = (n.val : Int) := k0.symm.trans (e (0 : Fin 3))
    have e1 : ((j 1).val : Int) = (p.val : Int) := k1.symm.trans (e (1 : Fin 3))
    have e2 : ((j 2).val : Int) = (q.val : Int) := k2.symm.trans (e (2 : Fin 3))
    exact ⟨e0, by exact_mod_cast e1, by exact_mod_cast e2⟩
  · rintro ⟨e0, e1, e2⟩ a
    match a with
    | ⟨0, _⟩ => exact k0.trans e0
    | ⟨1, _⟩ =>
      refine k1.trans ?_
      show ((j 1).val : Int) = (p.val : Int)
      exact_mod_cast e1
    | ⟨2, _⟩ =>
      refine k2.trans ?_
      show ((j 2).val : Int) = (q.val : Int)
      exact_mod_cast e2

end SlabScatterLiteral

section Slabs
variable {N A B E : Nat}

/-- The dimension numbers `d` are those of a slab scatter: update axes 1 and 2 the window axes, operand axis 0
    inserted, the start index's one component sent to operand axis 0, and the index vector on axis 1 of the scatter
    indices. -/
structure Slabs (d : ScatterDims ⟨3, ![N, A, B]⟩ ⟨2, ![E, 1]⟩ ⟨3, ![E, A, B]⟩) : Prop where
  uw : d.updateWindowDims = [1, 2]
  iw : d.insertedWindowDims = [0]
  sd : d.scatterDimsToOperandDims = [0]
  iv : d.indexVectorDim = 1

/-- For a slab scatter, update index `j` lands on `(n, p, q)` exactly when the scatter index of slab `j 0`, read
    signed, is `n` and `j`'s inner coordinates are `p` and `q`. -/
theorem slabs_resultIdx?_iff (d : ScatterDims ⟨3, ![N, A, B]⟩ ⟨2, ![E, 1]⟩ ⟨3, ![E, A, B]⟩) (h : Slabs d) {w : Nat}
    (idx : IVec ⟨2, ![E, 1]⟩ w) (j : (⟨3, ![E, A, B]⟩ : Shape).Idx) (n : Fin N) (p : Fin A) (q : Fin B) :
    d.resultIdx? j idx = some (ix3 n p q) ↔
      (idx (ix2 ⟨(j 0).val, (j 0).isLt⟩ (0 : Fin 1))).toInt = (n.val : Int) ∧ (j 1).val = p.val ∧ (j 2).val = q.val := by
  obtain ⟨uw, iw, sd, iv, wf⟩ := d
  obtain ⟨h1, h2, h3, h4⟩ := h
  dsimp only at h1 h2 h3 h4
  subst h1 h2 h3 h4
  exact slabDims_resultIdx?_iff wf idx j n p q

/-- THE ACCUMULATING SLAB SCATTER READ AT `(n, p, q)`: the operand there plus the sum, over the slabs `e` of the updates
    whose scatter index read signed is `n`, of the update at `(e, p, q)`. Slabs whose index is negative or at least `N`
    contribute to no position. -/
theorem scatterAdd_slabs_apply (d : ScatterDims ⟨3, ![N, A, B]⟩ ⟨2, ![E, 1]⟩ ⟨3, ![E, A, B]⟩) (h : Slabs d) {w : Nat}
    (x : (⟨3, ![N, A, B]⟩ : Shape).Idx → EReal) (idx : IVec ⟨2, ![E, 1]⟩ w)
    (upd : (⟨3, ![E, A, B]⟩ : Shape).Idx → EReal) (n : Fin N) (p : Fin A) (q : Fin B) :
    Ideal.hostScatterAdd d x idx upd (ix3 n p q)
      = x (ix3 n p q) + ∑ e ∈ Finset.univ.filter (fun e : Fin E => (idx (ix2 e (0 : Fin 1))).toInt = (n.val : Int)),
          upd (ix3 e p q) := by
  unfold Ideal.hostScatterAdd
  congr 1
  symm
  refine Finset.sum_bij (fun e _ => ix3 e p q) ?_ ?_ ?_ ?_
  · intro e he
    rw [Finset.mem_filter] at he ⊢
    exact ⟨Finset.mem_univ _, (slabs_resultIdx?_iff d h idx (ix3 e p q) n p q).2 ⟨he.2, rfl, rfl⟩⟩
  · intro e₁ _ e₂ _ heq
    exact congrFun heq (0 : Fin 3)
  · intro j hj
    rw [Finset.mem_filter] at hj
    obtain ⟨h0, h1, h2⟩ := (slabs_resultIdx?_iff d h idx j n p q).1 hj.2
    refine ⟨⟨(j 0).val, (j 0).isLt⟩, Finset.mem_filter.2 ⟨Finset.mem_univ _, h0⟩, ?_⟩
    funext a
    match a with
    | ⟨0, _⟩ => rfl
    | ⟨1, _⟩ => exact Fin.ext h1.symm
    | ⟨2, _⟩ => exact Fin.ext h2.symm
  · intro e _
    rfl

/-- The same reading of the host's accumulating scatter operation at the ideal instance. -/
theorem host_scatterAdd_slabs_apply (d : ScatterDims ⟨3, ![N, A, B]⟩ ⟨2, ![E, 1]⟩ ⟨3, ![E, A, B]⟩) (h : Slabs d)
    {w : Nat} (x : FVec Ideal ⟨3, ![N, A, B]⟩ .f32) (idx : IVec ⟨2, ![E, 1]⟩ w)
    (upd : FVec Ideal ⟨3, ![E, A, B]⟩ .f32) (n : Fin N) (p : Fin A) (q : Fin B) :
    Host.scatterAdd (F := Ideal) (φ := .f32) d x idx upd (ix3 n p q)
      = x (ix3 n p q) + ∑ e ∈ Finset.univ.filter (fun e : Fin E => (idx (ix2 e (0 : Fin 1))).toInt = (n.val : Int)),
          upd (ix3 e p q) :=
  scatterAdd_slabs_apply d h x idx upd n p q

end Slabs

/-! ## The last axis split or joined -/

section LastAxis
variable {α : Type}

/-- A matrix `[n, c]` with `c = a * b` cast to `[n, a, b]` reads, at `(i, p, q)`, the operand at `(i, l)` where
    `l = p * b + q`. -/
theorem shapeCast_nc_nab_apply {n a b c : ℕ} (x : (⟨2, ![n, c]⟩ : Shape).Idx → α)
    (h : (⟨2, ![n, c]⟩ : Shape).ShapeCasts ⟨3, ![n, a, b]⟩) (hc : c = a * b) (i : Fin n) (p : Fin a) (q : Fin b)
    (l : Fin c) (hl : l.val = p.val * b + q.val) :
    shapeCast ⟨3, ![n, a, b]⟩ x h (ix3 i p q) = x (ix2 i l) :=
  shapeCast_apply x h _ _ (by
    rw [Shape.rowMajor_val_two, Shape.rowMajor_val_three]
    show i.val * c + l.val = (i.val * a + p.val) * b + q.val
    rw [hl, hc, Nat.add_mul, Nat.mul_assoc, Nat.add_assoc])

/-- An array `[n, a, b]` cast to the matrix `[n, c]` with `c = a * b` reads, at `(i, l)` with `l = p * b + q`, the
    operand at `(i, p, q)`. -/
theorem shapeCast_nab_nc_apply {n a b c : ℕ} (x : (⟨3, ![n, a, b]⟩ : Shape).Idx → α)
    (h : (⟨3, ![n, a, b]⟩ : Shape).ShapeCasts ⟨2, ![n, c]⟩) (hc : c = a * b) (i : Fin n) (p : Fin a) (q : Fin b)
    (l : Fin c) (hl : l.val = p.val * b + q.val) :
    shapeCast ⟨2, ![n, c]⟩ x h (ix2 i l) = x (ix3 i p q) :=
  shapeCast_apply x h _ _ (by
    rw [Shape.rowMajor_val_two, Shape.rowMajor_val_three]
    show (i.val * a + p.val) * b + q.val = i.val * c + l.val
    rw [hl, hc, Nat.add_mul, Nat.mul_assoc, Nat.add_assoc])

/-- The same joining read at any column `l`: the operand at `(i, l / b, l % b)`. -/
theorem shapeCast_nab_nc_apply_divMod {n a b c : ℕ} (x : (⟨3, ![n, a, b]⟩ : Shape).Idx → α)
    (h : (⟨3, ![n, a, b]⟩ : Shape).ShapeCasts ⟨2, ![n, c]⟩) (hc : c = a * b) (hb : 0 < b) (i : Fin n) (l : Fin c) :
    shapeCast ⟨2, ![n, c]⟩ x h (ix2 i l)
      = x (ix3 i ⟨l.val / b, Nat.div_lt_of_lt_mul (by rw [Nat.mul_comm, ← hc]; exact l.isLt)⟩
          ⟨l.val % b, Nat.mod_lt _ hb⟩) :=
  shapeCast_nab_nc_apply x h hc i _ _ l (by
    show l.val = l.val / b * b + l.val % b
    rw [Nat.mul_comm]; exact (Nat.div_add_mod _ _).symm)

end LastAxis

/-! ## Broadcasts along a trailing unit axis -/

section UnitAxis
variable {α : Type}

/-- A matrix `[e, a]` stood up with a trailing unit axis reads, at `(i, p, u)`, the operand at `(i, p)`. -/
theorem broadcastInDim_ea_ea1_apply {e a : ℕ} (v : (⟨2, ![e, a]⟩ : Shape).Idx → α)
    (h : (⟨2, ![e, a]⟩ : Shape).BroadcastsInDim ⟨3, ![e, a, 1]⟩ ![0, 1]) (i : Fin e) (p : Fin a) (u : Fin 1) :
    broadcastInDim ⟨3, ![e, a, 1]⟩ ![0, 1] h v (ix3 i p u) = v (ix2 i p) := by
  refine broadcastInDim_apply _ h v (ix3 i p u) (ix2 i p) fun ax => ?_
  match ax with
  | ⟨0, _⟩ =>
    show i.val = if e = 1 then 0 else i.val
    split
    · next he => have := i.isLt; omega
    · rfl
  | ⟨1, _⟩ =>
    show p.val = if a = 1 then 0 else p.val
    split
    · next ha => have := p.isLt; omega
    · rfl

/-- An array `[n, a, 1]` repeated along its trailing unit axis to `[n, a, b]` reads, at `(i, p, q)`, the operand at
    `(i, p, 0)`. -/
theorem broadcastInDim_na1_nab_apply {n a b : ℕ} (v : (⟨3, ![n, a, 1]⟩ : Shape).Idx → α)
    (h : (⟨3, ![n, a, 1]⟩ : Shape).BroadcastsInDim ⟨3, ![n, a, b]⟩ ![0, 1, 2]) (i : Fin n) (p : Fin a) (q : Fin b) :
    broadcastInDim ⟨3, ![n, a, b]⟩ ![0, 1, 2] h v (ix3 i p q) = v (ix3 i p (0 : Fin 1)) := by
  refine broadcastInDim_apply _ h v (ix3 i p q) (ix3 i p (0 : Fin 1)) fun ax => ?_
  match ax with
  | ⟨0, _⟩ =>
    show i.val = if n = 1 then 0 else i.val
    split
    · next hn => have := i.isLt; omega
    · rfl
  | ⟨1, _⟩ =>
    show p.val = if a = 1 then 0 else p.val
    split
    · next ha => have := p.isLt; omega
    · rfl
  | ⟨2, _⟩ =>
    show (0 : Nat) = if (1 : Nat) = 1 then 0 else q.val
    rw [if_pos rfl]

/-- A matrix `[n, a]` repeated along a new trailing axis to `[n, a, b]` reads, at `(i, p, q)`, the operand at `(i, p)`. -/
theorem broadcastInDim_na_nab_apply {n a b : ℕ} (v : (⟨2, ![n, a]⟩ : Shape).Idx → α)
    (h : (⟨2, ![n, a]⟩ : Shape).BroadcastsInDim ⟨3, ![n, a, b]⟩ ![0, 1]) (i : Fin n) (p : Fin a) (q : Fin b) :
    broadcastInDim ⟨3, ![n, a, b]⟩ ![0, 1] h v (ix3 i p q) = v (ix2 i p) := by
  refine broadcastInDim_apply _ h v (ix3 i p q) (ix2 i p) fun ax => ?_
  match ax with
  | ⟨0, _⟩ =>
    show i.val = if n = 1 then 0 else i.val
    split
    · next hn => have := i.isLt; omega
    · rfl
  | ⟨1, _⟩ =>
    show p.val = if a = 1 then 0 else p.val
    split
    · next ha => have := p.isLt; omega
    · rfl

end UnitAxis

end Cert.LibEdgeOps3
-- ==== Proof.KITail.lean ====
import proofs.«107467_j10763188043963_1_alg».proof.Proof.KIHostDefs
import proofs.«107467_j10763188043963_1_alg».proof.Proof.Spec
import proofs.«107467_j10763188043963_1_alg».proof.Proof.LibEdgeOps
import proofs.«107467_j10763188043963_1_alg».proof.Proof.LibScatterRows
import proofs.«107467_j10763188043963_1_alg».proof.Proof.LibEdgeOps3
import proofs.«107467_j10763188043963_1_alg».proof.Proof.LibLayoutRead
import Idealize.ShloMosaic.Lib.Pipeline.Value
import Idealize.ShloMosaic.PureOps.Ideal.Laws

/-!
# The kernel program's host stages, read at an index

Each host stage of the kernel program is an array operation, and here each is read at an index written by its
coordinates. The two rows of edge words as vectors hold at `e` the word of edge `e`; a vector stood up as a column
holds at `(e, 0)` its entry `e`; the wrap of a vector of index words wraps each word. The three gathers read, for edge
`e` and lane `j`, the projected array's row named by the wrapped word (read signed and clamped to a node) at column
`j`, `128 + j` or `256 + j`. The tail at `(n, j)` is the quotient of the sum of the messages of the edges whose destination
word is `n`, by the sum of those edges' scores at head `j / 16` plus a small constant: the two accumulating scatters
start from zero arrays, the scores' sums are repeated along the 16 lanes of each head and the three axes joined back
into rows of 128.
-/

noncomputable section

open scoped BigOperators

namespace Cert.KernelIdeal.Hand

open Cert.KernelIdeal Cert.KernelIdeal.Facts₀ Idealize.ShloMosaic Idealize.ShloMosaic.ValueIdx

/-! ## The edge words -/

/-- The first row of the edge words as a vector: entry `e` is the word at `(0, e)`. -/
theorem edgeRow0_apply (ei : CI S2x800000) (e : Fin 800000) : edgeRow0 ei (ix1 e) = ei (ix2 (0 : Fin 2) e) := by
  unfold edgeRow0
  refine (shapeCast_apply _ shapeCasts_S1x800000_S800000 (ix1 e) (ix2 (0 : Fin 1) e) ?_).trans ?_
  · rw [Shape.rowMajor_val_two, Shape.rowMajor_val_one]
    show 0 * 800000 + e.val = e.val
    omega
  · exact extractStridedSlice_apply ![0, 0] ei slices_S2x800000_S1x800000_0_0 (ix2 (0 : Fin 1) e) (ix2 (0 : Fin 2) e)
      fun ax => match ax with
        | ⟨0, _⟩ => rfl
        | ⟨1, _⟩ => (Nat.zero_add _).symm

/-- The second row of the edge words as a vector: entry `e` is the word at `(1, e)`. -/
theorem edgeRow1_apply (ei : CI S2x800000) (e : Fin 800000) : edgeRow1 ei (ix1 e) = ei (ix2 (1 : Fin 2) e) := by
  unfold edgeRow1
  refine (shapeCast_apply _ shapeCasts_S1x800000_S800000 (ix1 e) (ix2 (0 : Fin 1) e) ?_).trans ?_
  · rw [Shape.rowMajor_val_two, Shape.rowMajor_val_one]
    show 0 * 800000 + e.val = e.val
    omega
  · exact extractStridedSlice_apply ![1, 0] ei slices_S2x800000_S1x800000_1_0 (ix2 (0 : Fin 1) e) (ix2 (1 : Fin 2) e)
      fun ax => match ax with
        | ⟨0, _⟩ => rfl
        | ⟨1, _⟩ => (Nat.zero_add _).symm

/-- A vector of words stood up as a column: row `e` holds entry `e`. -/
theorem idxCol_apply (v : CI S800000) (e : Fin 800000) : idxCol v (ix2 e (0 : Fin 1)) = v (ix1 e) :=
  Cert.LibLayoutRead.column_apply bcast_S800000_S800000x1_0 v e (0 : Fin 1)

/-- The wrap of a vector of index words wraps each word. -/
theorem wrapV_apply (v : CI S800000) (e : Fin 800000) : wrapV v (ix1 e) = Cert.Attn.wrap (v (ix1 e)) := by
  show Scalar.select
      (IntOp.cmpi .slt (v (ix1 e)) (broadcastInDim S800000 ![] bcast_S_S800000 (constantI S_ 32 0#32) (ix1 e)))
      (IntOp.addi (v (ix1 e)) (broadcastInDim S800000 ![] bcast_S_S800000 (constantI S_ 32 100000#32) (ix1 e)))
      (v (ix1 e)) = _
  rw [Cert.LibLayoutRead.splat_apply, Cert.LibLayoutRead.splat_apply]
  rfl

/-! ## The three gathers -/

/-- A band of 128 columns of the projected array starting at column `o`: at `(p, k)` it has the entry `(p, o + k)`. -/
theorem band_apply (o : Nat) (qkv : CF S100000x384) (h : S100000x384.Slices ![0, o] S100000x128) (p : Fin 100000)
    (k : Fin 128) (hk : o + k.val < 384) :
    extractStridedSlice S100000x128 ![0, o] qkv h (ix2 p k) = qkv (ix2 p ⟨o + k.val, hk⟩) :=
  extractStridedSlice_apply _ qkv h _ _ fun ax =>
    match ax with
    | ⟨0, _⟩ => (Nat.zero_add _).symm
    | ⟨1, _⟩ => rfl

/-- The node a gather reads for edge `e`: the wrapped word, read signed and clamped. -/
theorem gathRow (v : CI S800000) (e : Fin 800000) :
    (⟨min (idxCol (wrapV v) (ix2 e (0 : Fin 1))).toInt.toNat (100000 - 1), by omega⟩ : Fin 100000)
      = Cert.Attn.row (Cert.Attn.wrap (v (ix1 e))) :=
  Fin.ext (by
    show min (idxCol (wrapV v) (ix2 e (0 : Fin 1))).toInt.toNat (100000 - 1)
      = min (Cert.Attn.wrap (v (ix1 e))).toInt.toNat (100000 - 1)
    rw [idxCol_apply, wrapV_apply])

/-- The gathered query row of edge `e` at lane `j`: column `j` of the projected array. -/
theorem gathQ_apply (qkv : CF S100000x384) (v : CI S800000) (e : Fin 800000) (j : Fin 128) :
    gathQ qkv v (ix2 e j) = qkv (ix2 (Cert.Attn.row (Cert.Attn.wrap (v (ix1 e)))) ⟨j.val, by omega⟩) := by
  unfold gathQ
  refine (Cert.LibEdgeOps.gather_rows_apply (by decide) _ ⟨rfl, rfl, rfl, rfl, rfl, rfl, rfl⟩ _ _ e j).trans ?_
  refine (congrArg (fun r => extractStridedSlice S100000x128 ![0, 0] qkv slices_S100000x384_S100000x128_0_0 (ix2 r j))
    (gathRow v e)).trans ?_
  refine (band_apply 0 qkv slices_S100000x384_S100000x128_0_0 _ j (by omega)).trans ?_
  exact congrArg (fun c => qkv (ix2 (Cert.Attn.row (Cert.Attn.wrap (v (ix1 e)))) c)) (Fin.ext (Nat.zero_add _))

/-- The gathered key row of edge `e` at lane `j`: column `128 + j` of the projected array. -/
theorem gathK_apply (qkv : CF S100000x384) (v : CI S800000) (e : Fin 800000) (j : Fin 128) :
    gathK qkv v (ix2 e j) = qkv (ix2 (Cert.Attn.row (Cert.Attn.wrap (v (ix1 e)))) ⟨128 + j.val, by omega⟩) := by
  unfold gathK
  refine (Cert.LibEdgeOps.gather_rows_apply (by decide) _ ⟨rfl, rfl, rfl, rfl, rfl, rfl, rfl⟩ _ _ e j).trans ?_
  refine (congrArg (fun r => extractStridedSlice S100000x128 ![0, 128] qkv slices_S100000x384_S100000x128_0_128 (ix2 r j))
    (gathRow v e)).trans ?_
  exact band_apply 128 qkv slices_S100000x384_S100000x128_0_128 _ j (by omega)

/-- The gathered value row of edge `e` at lane `j`: column `256 + j` of the projected array. -/
theorem gathV_apply (qkv : CF S100000x384) (v : CI S800000) (e : Fin 800000) (j : Fin 128) :
    gathV qkv v (ix2 e j) = qkv (ix2 (Cert.Attn.row (Cert.Attn.wrap (v (ix1 e)))) ⟨256 + j.val, by omega⟩) := by
  unfold gathV
  refine (Cert.LibEdgeOps.gather_rows_apply (by decide) _ ⟨rfl, rfl, rfl, rfl, rfl, rfl, rfl⟩ _ _ e j).trans ?_
  refine (congrArg (fun r => extractStridedSlice S100000x128 ![0, 256] qkv slices_S100000x384_S100000x128_0_256 (ix2 r j))
    (gathRow v e)).trans ?_
  exact band_apply 256 qkv slices_S100000x384_S100000x128_0_256 _ j (by omega)

/-! ## The tail -/

/-- The edges whose scatter index is node `n`: those whose destination word, read signed, is `n`. -/
theorem filter_idxCol (dv : CI S800000) (n : Fin 100000) :
    Finset.univ.filter (fun e : Fin 800000 => (idxCol dv (ix2 e (0 : Fin 1))).toInt = (n.val : Int))
      = Finset.univ.filter (fun e : Fin 800000 => (dv (ix1 e)).toInt = (n.val : Int)) :=
  Finset.filter_congr fun e _ => by rw [idxCol_apply]

/-- The host's quotient of two float arrays, read at an index, is the quotient of the entries. -/
theorem hostDivf_at {s : Shape} (x y : FVec Ideal s .f32) (i : s.Idx) :
    Host.divf (F := Ideal) x y i = Ideal.div (x i) (y i) := rfl

/-- THE TAIL READ AT `(n, j)`: the sum of the messages at lane `j` of the edges whose destination word is `n`, divided
    by the sum of those edges' scores at head `j / 16` plus the small constant. -/
theorem tailF_apply (msg : CF S800000x128) (score : CF S800000x8) (dv : CI S800000) (n : Fin 100000) (j : Fin 128) :
    tailF msg score dv (ix2 n j)
      = Ideal.div (∑ e ∈ Finset.univ.filter (fun e : Fin 800000 => (dv (ix1 e)).toInt = (n.val : Int)), msg (ix2 e j))
          ((∑ e ∈ Finset.univ.filter (fun e : Fin 800000 => (dv (ix1 e)).toInt = (n.val : Int)),
              score (ix2 e ⟨j.val / 16, Nat.div_lt_of_lt_mul j.isLt⟩)) + Ideal.ofBits .f32 0x358637BD#32) := by
  unfold tailF
  rw [hostDivf_at, ValueIdx.addf_apply]
  refine congrArg₂ Ideal.div ?_ (congrArg₂ (· + ·) ?_ ?_)
  · refine (Cert.LibScatterRows.host_scatterAdd_rows_apply _ ⟨rfl, rfl, rfl, rfl⟩ _ _ _ n j).trans ?_
    rw [Cert.LibLayoutRead.splat_apply, filter_idxCol]
    show Ideal.ofBits .f32 0x00000000#32 + _ = _
    rw [Ideal.ofBits_zero_f32, zero_add]
  · refine (Cert.LibEdgeOps3.shapeCast_nab_nc_apply_divMod _ shapeCasts_S100000x8x16_S100000x128 rfl (by decide) n j).trans ?_
    refine (Cert.LibEdgeOps3.broadcastInDim_na_nab_apply _ bcast_S100000x8_S100000x8x16_0_1 n _ _).trans ?_
    refine (Cert.LibScatterRows.host_scatterAdd_rows_apply _ ⟨rfl, rfl, rfl, rfl⟩ _ _ _ n _).trans ?_
    rw [Cert.LibLayoutRead.splat_apply, filter_idxCol]
    show Ideal.ofBits .f32 0x00000000#32 + _ = _
    rw [Ideal.ofBits_zero_f32, zero_add]
  · exact Cert.LibLayoutRead.splat_apply _ _ _

end Cert.KernelIdeal.Hand

end
-- ==== Proof.HeadMask.lean ====
/-
  The algebra of the 0/1 head matrix over the extended reals.

  The 128 lanes are 8 heads of 16: lane 16·h + d is lane d of head h. A sum over the 128 lanes against the indicator
  "the lane's head is h" keeps the 16 lanes of head h; a sum over the 8 heads against the indicator "the head is the
  lane's head" keeps one term. Nothing here needs a finite value: x · 0 = 0 and x · 1 = x hold for every extended
  real. Last, the scaling by a quarter is the division by four, at the infinities too.
-/
import proofs.«107467_j10763188043963_1_alg».proof.Proof.Spec
import Idealize.ShloMosaic.PureOps.Ideal.Laws

noncomputable section

open scoped BigOperators

namespace Cert.HeadMask

open Idealize.ShloMosaic Cert.Attn

/-- A lane's head is its quotient by 16. -/
theorem lane_div (h : Fin 8) (d : Fin 16) : (lane h d).val / 16 = h.val := by
  show (h.val * 16 + d.val) / 16 = h.val
  omega

/-- The lanes are the pairs (head, lane in the head). -/
def split : Fin 8 × Fin 16 ≃ Fin 128 where
  toFun x := lane x.1 x.2
  invFun k := (⟨k.val / 16, Nat.div_lt_of_lt_mul k.isLt⟩, ⟨k.val % 16, Nat.mod_lt _ (by decide)⟩)
  left_inv := by
    rintro ⟨a, b⟩
    refine Prod.ext (Fin.ext ?_) (Fin.ext ?_)
    · show (a.val * 16 + b.val) / 16 = a.val
      omega
    · show (a.val * 16 + b.val) % 16 = b.val
      omega
  right_inv k := lane_div_mod k

/-- A sum over the lanes against the indicator of head h is the sum over the 16 lanes of head h. -/
theorem sum_mask (f : Fin 128 → EReal) (h : Fin 8) :
    (∑ k : Fin 128, f k * (if k.val / 16 = h.val then (1 : EReal) else 0)) = ∑ d : Fin 16, f (lane h d) := by
  rw [← Equiv.sum_comp split, Fintype.sum_prod_type]
  show (∑ a : Fin 8, ∑ d : Fin 16, f (lane a d) * (if (lane a d).val / 16 = h.val then (1 : EReal) else 0)) = _
  simp only [lane_div]
  rw [Finset.sum_eq_single h]
  · simp
  · intro a _ hne
    have hn : ¬ a.val = h.val := fun e => hne (Fin.ext e)
    simp [hn]
  · simp

/-- A sum over the heads against the indicator "the head of lane j" is the term of that head. -/
theorem sum_maskT (s : Fin 8 → EReal) (j : Fin 128) :
    (∑ h : Fin 8, s h * (if j.val / 16 = h.val then (1 : EReal) else 0)) = s ⟨j.val / 16, Nat.div_lt_of_lt_mul j.isLt⟩ := by
  rw [Finset.sum_eq_single (⟨j.val / 16, Nat.div_lt_of_lt_mul j.isLt⟩ : Fin 8)]
  · simp
  · intro a _ hne
    have hn : ¬ j.val / 16 = a.val := fun e => hne (Fin.ext e.symm)
    simp [hn]
  · simp

/-- The pattern 0x3E800000 is the real number 1/4. -/
theorem quarter_word : Ideal.ofBits .f32 0x3E800000#32 = ((1 / 4 : ℝ) : EReal) := by
  simp [Ideal.ofBits, Ideal.ieee, -EReal.coe_mul]; norm_num

/-- The pattern 0x40800000 is the real number 4. -/
theorem four_word : Ideal.ofBits .f32 0x40800000#32 = ((4 : ℝ) : EReal) := by
  simp [Ideal.ofBits, Ideal.ieee, -EReal.coe_mul]; norm_num

/-- Multiplying by the quarter word is dividing by the word of four. -/
theorem quarter (z : EReal) : z * Ideal.ofBits .f32 0x3E800000#32 = Ideal.div z (Ideal.ofBits .f32 0x40800000#32) := by
  rw [quarter_word, four_word, Ideal.div_coe (by norm_num)]

end Cert.HeadMask

end
-- ==== Proof.KIHost.lean ====
/-
  The kernel program's result is the specified function of the arguments. The run leaves the result buffer at the tail of the
  host stages applied to the two kernels' outputs; each kernel output is its whole-array function of what it staged; and,
  index by index: a gathered key, query or value entry is the affine map of the features at the row the wrapped word names;
  the lane products summed against a column of the 0/1 head matrix are the sum over that head's sixteen lanes, and a quarter
  of it is its quotient by four; the scores summed against a column of the transposed head matrix are the lane's own head's
  score; the two scatters sum over the edges whose destination word is the node's number. No law used here needs finiteness:
  x·0 = 0 and x·1 = x hold for every extended real, and the sums are only regrouped.
-/
import proofs.«107467_j10763188043963_1_alg».proof.Proof.KIStages
import proofs.«107467_j10763188043963_1_alg».proof.Proof.KIValue
import proofs.«107467_j10763188043963_1_alg».proof.Proof.KIDefs
import proofs.«107467_j10763188043963_1_alg».proof.Proof.KIProj
import proofs.«107467_j10763188043963_1_alg».proof.Proof.KITail
import proofs.«107467_j10763188043963_1_alg».proof.Proof.HeadMask
import proofs.«107467_j10763188043963_1_alg».proof.Proof.MaskValue
import proofs.«107467_j10763188043963_1_alg».proof.Proof.Spec

noncomputable section

open scoped BigOperators

namespace Cert.KernelIdeal.Hand

open Cert.KernelIdeal Cert.KernelIdeal.Gen Cert.KernelIdeal.Facts₀
open Idealize.ShloMosaic Idealize.ShloMosaic.TcCoe Idealize.SL.Sem Idealize.ShloMosaic.ValueIdx
open Cert.Attn (Args)

/-- The argument arrays the result depends on, read off a memory. -/
def argsOf (m : (ℓ : Loc nD τ sig) → Buf (Elt Ideal) ℓ) (c : Dev nD) : Args :=
  { x := m ((c.tc : Thread nD τ).loc main_arg0), ei := m ((c.tc : Thread nD τ).loc main_arg1),
    Wq := m ((c.tc : Thread nD τ).loc main_arg4), bq := m ((c.tc : Thread nD τ).loc main_arg5),
    Wk := m ((c.tc : Thread nD τ).loc main_arg6), bk := m ((c.tc : Thread nD τ).loc main_arg7),
    Wv := m ((c.tc : Thread nD τ).loc main_arg8), bv := m ((c.tc : Thread nD τ).loc main_arg9) }

/-- The projected array, and the three gathered row arrays, of the arguments. -/
def qkvOf (a : Args) : CF S100000x384 := QKV a.x (wcat a.Wq a.Wk a.Wv) (bcat a.bq a.bk a.bv)
def ksOf (a : Args) : CF S800000x128 := gathK (qkvOf a) (edgeRow0 a.ei)
def qdOf (a : Args) : CF S800000x128 := gathQ (qkvOf a) (edgeRow1 a.ei)
def vsOf (a : Args) : CF S800000x128 := gathV (qkvOf a) (edgeRow0 a.ei)
abbrev headM : CF S128x8 := Cert.MaskValue.maskTerm (F := Ideal)
abbrev headMt : CF S8x128 := transpose S8x128 [1, 0] (Cert.MaskValue.maskTerm (F := Ideal)) Gen.transposes_S128x8_S8x128_1_0

/-- The kernel program's result as one function of the arguments. -/
def kerOut (a : Args) : CF S100000x128 :=
  tailF (MSG (ksOf a) (qdOf a) (vsOf a) headM headMt) (SCORE (ksOf a) (qdOf a) headM) (edgeRow1 a.ei)

variable (m : (ℓ : Loc nD τ sig) → Buf (Elt Ideal) ℓ) (ρ : Dev nD → PrngReg)

/-- The projected array the first kernel leaves. -/
theorem W2_v3 (c : Dev nD) : W2 m ρ c (Proc.devRef .tc main_v3) = qkvOf (argsOf m c) := by
  refine (W2_arr m ρ c 3).trans ((final0_3 (V1 m ρ) c).trans ?_)
  show QKV (W1 m ρ c (Proc.devRef .tc main_arg0)) (W1 m ρ c (Proc.devRef .tc main_v0)) (W1 m ρ c (Proc.devRef .tc main_v2)) = _
  rw [W1_arg m ρ c main_arg0 (by decide), W1_v0, W1_v2]
  first | done | rfl

/-- The result buffer at the return is the kernel program's function of the arguments. -/
theorem value_stage (c : Dev nD) : W7 m ρ c (Proc.devRef .tc main_v53) = kerOut (argsOf m c) := by
  have h5 : W6 m ρ c (Proc.devRef .tc main_v42_0) = MSG (ksOf (argsOf m c)) (qdOf (argsOf m c)) (vsOf (argsOf m c)) headM headMt := by
    refine (W6_arr m ρ c 5).trans ((final1_5 (V5 m ρ) c).trans ?_)
    show MSG (W5 m ρ c (Proc.devRef .tc main_v17)) (W5 m ρ c (Proc.devRef .tc main_v24)) (W5 m ρ c (Proc.devRef .tc main_v31))
      (W5 m ρ c (Proc.devRef .tc main_v40)) (W5 m ρ c (Proc.devRef .tc main_v41)) = _
    rw [W5_v17, W5_v24, W5_v31, W5_v40, W5_v41, W2_v3, W2_arg1]
    first | done | rfl
  have h6 : W6 m ρ c (Proc.devRef .tc main_v42_1) = SCORE (ksOf (argsOf m c)) (qdOf (argsOf m c)) headM := by
    refine (W6_arr m ρ c 6).trans ((final1_6 (V5 m ρ) c).trans ?_)
    show SCORE (W5 m ρ c (Proc.devRef .tc main_v17)) (W5 m ρ c (Proc.devRef .tc main_v24)) (W5 m ρ c (Proc.devRef .tc main_v40)) = _
    rw [W5_v17, W5_v24, W5_v40, W2_v3, W2_arg1]
    first | done | rfl
  rw [W7_v53, h5, h6, W6_v10, W5_v10, W2_arg1]
  first | done | rfl

/-! ## Index by index -/

variable (a : Args)

theorem dst_eq (e : Fin 800000) : edgeRow1 a.ei (ix1 e) = Cert.Attn.dst a e := edgeRow1_apply a.ei e
theorem src_eq (e : Fin 800000) : edgeRow0 a.ei (ix1 e) = Cert.Attn.src a e := edgeRow0_apply a.ei e

theorem ks_eq (e : Fin 800000) (j : Fin 128) : ksOf a (ix2 e j) = Cert.Attn.kS a e j := by
  unfold ksOf qkvOf Cert.Attn.kS
  rw [gathK_apply, src_eq, QKV_k]
theorem qd_eq (e : Fin 800000) (j : Fin 128) : qdOf a (ix2 e j) = Cert.Attn.qD a e j := by
  unfold qdOf qkvOf Cert.Attn.qD
  rw [gathQ_apply, dst_eq, QKV_q]
theorem vs_eq (e : Fin 800000) (j : Fin 128) : vsOf a (ix2 e j) = Cert.Attn.vS a e j := by
  unfold vsOf qkvOf Cert.Attn.vS
  rw [gathV_apply, src_eq, QKV_v]

/-- The edge kernel's score output is the specified score. -/
theorem score_eq (e : Fin 800000) (h : Fin 8) : SCORE (ksOf a) (qdOf a) headM (ix2 e h) = Cert.Attn.score a e h := by
  rw [SCORE_apply]
  simp only [headM, Cert.MaskValue.maskTerm_apply, ks_eq, qd_eq]
  rw [Cert.HeadMask.sum_mask (fun k => Cert.Attn.kS a e k * Cert.Attn.qD a e k) h, Cert.HeadMask.quarter]
  first | done | rfl

/-- The edge kernel's message output is the specified message. -/
theorem msg_eq (e : Fin 800000) (j : Fin 128) :
    MSG (ksOf a) (qdOf a) (vsOf a) headM headMt (ix2 e j)
      = Cert.Attn.vS a e j * Cert.Attn.score a e ⟨j.val / 16, Nat.div_lt_of_lt_mul j.isLt⟩ := by
  rw [MSG_apply, vs_eq]
  have hterm : ∀ h : Fin 8, SCORE (ksOf a) (qdOf a) headM (ix2 e h) * headMt (ix2 h j)
      = Cert.Attn.score a e h * (if j.val / 16 = h.val then (1 : EReal) else 0) := fun h => by
    rw [score_eq]
    exact congrArg (fun t => Cert.Attn.score a e h * t) (Cert.MaskValue.maskT_apply h j)
  rw [Finset.sum_congr rfl (fun h _ => hterm h), Cert.HeadMask.sum_maskT (fun h => Cert.Attn.score a e h) j]

/-- The kernel program's function of the arguments is the specified one. -/
theorem kerOut_eq_G : kerOut a = Cert.Attn.G a := by
  funext i
  obtain ⟨n, j, rfl⟩ : ∃ (n : Fin 100000) (j : Fin 128), i = ix2 n j := ⟨i 0, i 1, eq_ix2 i⟩
  unfold kerOut
  rw [tailF_apply]
  simp only [dst_eq, msg_eq, score_eq]
  have hj := Cert.Attn.lane_div_mod j
  show _ = Cert.Attn.out a n ⟨j.val / 16, _⟩ ⟨j.val % 16, _⟩
  unfold Cert.Attn.out Cert.Attn.msg Cert.Attn.hits
  rw [hj]

/-- THE RUN WITH ITS VALUE: every weakly fair execution terminates with the result buffer at the specified function of the
    launch arguments, and the argument arrays as launched. -/
theorem run_value : θ_run defs (onTc (τ := τ) (main (F := Ideal))) ⟨m, fun _ => 0, ρ⟩ (fun r => ∀ c : Dev nD,
      r.2.mem ((c.tc : Thread nD τ).loc main_v53) = Cert.Attn.G (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_v53 (by decide))).trans ((value_stage m ρ c).trans (kerOut_eq_G _)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c)⟩)
    (run_all m ρ)

end Cert.KernelIdeal.Hand

end
-- ==== Proof.RefIsG.lean ====
import proofs.«107467_j10763188043963_1_alg».proof.Proof.Gen.ReferenceIdeal.Read
import proofs.«107467_j10763188043963_1_alg».proof.Proof.Spec
import proofs.«107467_j10763188043963_1_alg».proof.Proof.LibEdgeOps3

/-!
# The reference program computes the function of the specification

The reference is a chain of array operations: three affine maps of the node features, each read as 8 heads of 16
lanes; the two rows of edge words, the source row wrapped and clamped to a node, the destination row likewise; per
edge and head the inner product of the source's key and the destination's query, scaled, clipped and exponentiated;
the source's value row times that score; and two accumulating scatters by the raw destination words, whose quotient
(with a small constant added to the divisor) is the result. Each stage is read at an index from the stage before it;
the gathers read the row the clamped word names, the scatters sum over the edges whose word is the node's number. Put
together, entry `(n, 16·h + d)` of the result is the specification's `out n h d`.
-/

noncomputable section

open scoped BigOperators

namespace Cert.RefSide

open Cert.ReferenceIdeal Cert.ReferenceIdeal.Gen Cert.ReferenceIdeal.Read Idealize.ShloMosaic Idealize.ShloMosaic.TcCoe
  Idealize.SL.Sem Idealize.ShloMosaic.ValueIdx Cert.Attn

/-- The arguments of the specification's function, read off the memory the reference runs from. -/
def argsOf (m : (ℓ : Loc Cert.ReferenceIdeal.nD Cert.ReferenceIdeal.τ Cert.ReferenceIdeal.sig) → Buf (Elt Ideal) ℓ)
    (c : Dev Cert.ReferenceIdeal.nD) : Cert.Attn.Args :=
  { x := m ((c.tc : Thread _ _).loc Cert.ReferenceIdeal.main_arg0)
    ei := m ((c.tc : Thread _ _).loc Cert.ReferenceIdeal.main_arg1)
    Wq := m ((c.tc : Thread _ _).loc Cert.ReferenceIdeal.main_arg4)
    bq := m ((c.tc : Thread _ _).loc Cert.ReferenceIdeal.main_arg5)
    Wk := m ((c.tc : Thread _ _).loc Cert.ReferenceIdeal.main_arg6)
    bk := m ((c.tc : Thread _ _).loc Cert.ReferenceIdeal.main_arg7)
    Wv := m ((c.tc : Thread _ _).loc Cert.ReferenceIdeal.main_arg8)
    bv := m ((c.tc : Thread _ _).loc Cert.ReferenceIdeal.main_arg9) }

section Stages

variable (a : Cert.Attn.Args)

/-! ## The edge words -/

/-- The first row of edge words, flattened: entry `e` is the source word of edge `e`. -/
theorem v16_at (e : Fin 800000) : val_main_v16 (F := Ideal) a.ei (ix1 e) = src a e := by
  rw [val_main_v16_apply, val_main_v15_apply]
  refine congrArg a.ei (funext fun ax => Fin.ext ?_)
  match ax with
  | ⟨0, _⟩ => rfl
  | ⟨1, _⟩ => exact Nat.mod_eq_of_lt e.isLt

/-- The second row of edge words, flattened: entry `e` is the destination word of edge `e`. -/
theorem v18_at (e : Fin 800000) : val_main_v18 (F := Ideal) a.ei (ix1 e) = dst a e := by
  rw [val_main_v18_apply, val_main_v17_apply]
  refine congrArg a.ei (funext fun ax => Fin.ext ?_)
  match ax with
  | ⟨0, _⟩ => rfl
  | ⟨1, _⟩ => exact Nat.mod_eq_of_lt e.isLt

/-- The wrapped source words (the key gather's start indices). -/
theorem v23_at (e : Fin 800000) : val_main_v23 (F := Ideal) a.ei (ix1 e) = wrap (src a e) := by
  rw [val_main_v23_apply, val_main_v20_apply, val_main_v22_apply, val_main_v19_apply, val_main_v21_apply,
    val_main_c_apply, val_main_c_0_apply, v16_at]
  rfl

/-- The wrapped destination words (the query gather's start indices). -/
theorem v30_at (e : Fin 800000) : val_main_v30 (F := Ideal) a.ei (ix1 e) = wrap (dst a e) := by
  rw [val_main_v30_apply, val_main_v27_apply, val_main_v29_apply, val_main_v26_apply, val_main_v28_apply,
    val_main_c_1_apply, val_main_c_2_apply, v18_at]
  rfl

/-- The wrapped source words again (the value gather's start indices). -/
theorem v44_at (e : Fin 800000) : val_main_v44 (F := Ideal) a.ei (ix1 e) = wrap (src a e) := by
  rw [val_main_v44_apply, val_main_v41_apply, val_main_v43_apply, val_main_v40_apply, val_main_v42_apply,
    val_main_c_6_apply, val_main_c_7_apply, v16_at]
  rfl

/-- The start indices as a column: row `e` holds the word of edge `e`. -/
theorem v24_at (e : Fin 800000) : val_main_v24 (F := Ideal) a.ei (ix2 e (0 : Fin 1)) = wrap (src a e) := by
  rw [val_main_v24_apply]
  exact (congrArg (val_main_v23 (F := Ideal) a.ei) (funext fun ax => match ax with | ⟨0, _⟩ => rfl)).trans (v23_at a e)

theorem v31_at (e : Fin 800000) : val_main_v31 (F := Ideal) a.ei (ix2 e (0 : Fin 1)) = wrap (dst a e) := by
  rw [val_main_v31_apply]
  exact (congrArg (val_main_v30 (F := Ideal) a.ei) (funext fun ax => match ax with | ⟨0, _⟩ => rfl)).trans (v30_at a e)

theorem v45_at (e : Fin 800000) : val_main_v45 (F := Ideal) a.ei (ix2 e (0 : Fin 1)) = wrap (src a e) := by
  rw [val_main_v45_apply]
  exact (congrArg (val_main_v44 (F := Ideal) a.ei) (funext fun ax => match ax with | ⟨0, _⟩ => rfl)).trans (v44_at a e)

/-- The scatter indices as a column: row `e` holds the raw destination word of edge `e`. -/
theorem v50_at (e : Fin 800000) : val_main_v50 (F := Ideal) a.ei (ix2 e (0 : Fin 1)) = dst a e := by
  rw [val_main_v50_apply]
  exact (congrArg (val_main_v18 (F := Ideal) a.ei) (funext fun ax => match ax with | ⟨0, _⟩ => rfl)).trans (v18_at a e)

theorem v53_at (e : Fin 800000) : val_main_v53 (F := Ideal) a.ei (ix2 e (0 : Fin 1)) = dst a e := by
  rw [val_main_v53_apply]
  exact (congrArg (val_main_v18 (F := Ideal) a.ei) (funext fun ax => match ax with | ⟨0, _⟩ => rfl)).trans (v18_at a e)

/-! ## The three affine maps, as 8 heads of 16 lanes -/

/-- The query map at `(n, j)`. -/
theorem v3_at (n : Fin 100000) (j : Fin 128) :
    val_main_v3 (F := Ideal) a.x a.Wq a.bq (ix2 n j) = proj a.x a.Wq a.bq n j := by
  rw [val_main_v3_apply, val_main_v0_apply, val_main_v2_apply, val_main_v1_apply]
  refine congrArg₂ (· + ·) (Finset.sum_congr rfl fun k _ => congrArg₂ (· * ·) (congrArg a.x ?_) (congrArg a.Wq ?_))
    (congrArg a.bq ?_)
  · exact funext fun ax => match ax with | ⟨0, _⟩ => rfl | ⟨1, _⟩ => rfl
  · exact funext fun ax => match ax with | ⟨0, _⟩ => rfl | ⟨1, _⟩ => rfl
  · exact funext fun ax => match ax with | ⟨0, _⟩ => rfl

/-- The key map at `(n, j)`. -/
theorem v8_at (n : Fin 100000) (j : Fin 128) :
    val_main_v8 (F := Ideal) a.x a.Wk a.bk (ix2 n j) = proj a.x a.Wk a.bk n j := by
  rw [val_main_v8_apply, val_main_v5_apply, val_main_v7_apply, val_main_v6_apply]
  refine congrArg₂ (· + ·) (Finset.sum_congr rfl fun k _ => congrArg₂ (· * ·) (congrArg a.x ?_) (congrArg a.Wk ?_))
    (congrArg a.bk ?_)
  · exact funext fun ax => match ax with | ⟨0, _⟩ => rfl | ⟨1, _⟩ => rfl
  · exact funext fun ax => match ax with | ⟨0, _⟩ => rfl | ⟨1, _⟩ => rfl
  · exact funext fun ax => match ax with | ⟨0, _⟩ => rfl

/-- The value map at `(n, j)`. -/
theorem v13_at (n : Fin 100000) (j : Fin 128) :
    val_main_v13 (F := Ideal) a.x a.Wv a.bv (ix2 n j) = proj a.x a.Wv a.bv n j := by
  rw [val_main_v13_apply, val_main_v10_apply, val_main_v12_apply, val_main_v11_apply]
  refine congrArg₂ (· + ·) (Finset.sum_congr rfl fun k _ => congrArg₂ (· * ·) (congrArg a.x ?_) (congrArg a.Wv ?_))
    (congrArg a.bv ?_)
  · exact funext fun ax => match ax with | ⟨0, _⟩ => rfl | ⟨1, _⟩ => rfl
  · exact funext fun ax => match ax with | ⟨0, _⟩ => rfl | ⟨1, _⟩ => rfl
  · exact funext fun ax => match ax with | ⟨0, _⟩ => rfl

/-- The index a row of 8 heads of 16 lanes has in the row of 128: lane `16·h + d` of the same node. -/
theorem split_val (n : Fin 100000) (h : Fin 8) (d : Fin 16) :
    ((n.val * 8 + h.val) * 16 + d.val) / 128 = n.val ∧ ((n.val * 8 + h.val) * 16 + d.val) % 128 = h.val * 16 + d.val := by
  have := h.isLt; have := d.isLt
  omega

theorem idx_v4_at (n : Fin 100000) (h : Fin 8) (d : Fin 16) : idx_main_v4 (ix3 n h d) = ix2 n (lane h d) :=
  funext fun ax => Fin.ext (match ax with
    | ⟨0, _⟩ => (split_val n h d).1
    | ⟨1, _⟩ => (split_val n h d).2)

theorem idx_v9_at (n : Fin 100000) (h : Fin 8) (d : Fin 16) : idx_main_v9 (ix3 n h d) = ix2 n (lane h d) :=
  funext fun ax => Fin.ext (match ax with
    | ⟨0, _⟩ => (split_val n h d).1
    | ⟨1, _⟩ => (split_val n h d).2)

theorem idx_v14_at (n : Fin 100000) (h : Fin 8) (d : Fin 16) : idx_main_v14 (ix3 n h d) = ix2 n (lane h d) :=
  funext fun ax => Fin.ext (match ax with
    | ⟨0, _⟩ => (split_val n h d).1
    | ⟨1, _⟩ => (split_val n h d).2)

/-- The query map at node `n`, head `h`, lane `d`. -/
theorem v4_at (n : Fin 100000) (h : Fin 8) (d : Fin 16) :
    val_main_v4 (F := Ideal) a.x a.Wq a.bq (ix3 n h d) = proj a.x a.Wq a.bq n (lane h d) := by
  rw [val_main_v4_apply]
  exact (congrArg (val_main_v3 (F := Ideal) a.x a.Wq a.bq) (idx_v4_at n h d)).trans (v3_at a n (lane h d))

/-- The key map at node `n`, head `h`, lane `d`. -/
theorem v9_at (n : Fin 100000) (h : Fin 8) (d : Fin 16) :
    val_main_v9 (F := Ideal) a.x a.Wk a.bk (ix3 n h d) = proj a.x a.Wk a.bk n (lane h d) := by
  rw [val_main_v9_apply]
  exact (congrArg (val_main_v8 (F := Ideal) a.x a.Wk a.bk) (idx_v9_at n h d)).trans (v8_at a n (lane h d))

/-- The value map at node `n`, head `h`, lane `d`. -/
theorem v14_at (n : Fin 100000) (h : Fin 8) (d : Fin 16) :
    val_main_v14 (F := Ideal) a.x a.Wv a.bv (ix3 n h d) = proj a.x a.Wv a.bv n (lane h d) := by
  rw [val_main_v14_apply]
  exact (congrArg (val_main_v13 (F := Ideal) a.x a.Wv a.bv) (idx_v14_at n h d)).trans (v13_at a n (lane h d))

/-! ## The three gathers -/

/-- The key row of an edge's source. -/
theorem v25_at (e : Fin 800000) (h : Fin 8) (d : Fin 16) :
    val_main_v25 (F := Ideal) a.x a.ei a.Wk a.bk (ix3 e h d) = kS a e (lane h d) := by
  unfold val_main_v25
  refine (Cert.LibEdgeOps3.gather_slabs_apply (by decide) _ ⟨rfl, rfl, rfl, rfl, rfl, rfl, rfl⟩ _ _ e h d).trans ?_
  have hr : (⟨min (val_main_v24 (F := Ideal) a.ei (ix2 e (0 : Fin 1))).toInt.toNat (100000 - 1), by omega⟩ : Fin 100000)
      = row (wrap (src a e)) := Fin.ext (by
    show min (val_main_v24 (F := Ideal) a.ei (ix2 e (0 : Fin 1))).toInt.toNat (100000 - 1) = min (wrap (src a e)).toInt.toNat (100000 - 1)
    rw [v24_at])
  exact (congrArg (fun r => val_main_v9 (F := Ideal) a.x a.Wk a.bk (ix3 r h d)) hr).trans (v9_at a _ h d)

/-- The query row of an edge's destination. -/
theorem v32_at (e : Fin 800000) (h : Fin 8) (d : Fin 16) :
    val_main_v32 (F := Ideal) a.x a.ei a.Wq a.bq (ix3 e h d) = qD a e (lane h d) := by
  unfold val_main_v32
  refine (Cert.LibEdgeOps3.gather_slabs_apply (by decide) _ ⟨rfl, rfl, rfl, rfl, rfl, rfl, rfl⟩ _ _ e h d).trans ?_
  have hr : (⟨min (val_main_v31 (F := Ideal) a.ei (ix2 e (0 : Fin 1))).toInt.toNat (100000 - 1), by omega⟩ : Fin 100000)
      = row (wrap (dst a e)) := Fin.ext (by
    show min (val_main_v31 (F := Ideal) a.ei (ix2 e (0 : Fin 1))).toInt.toNat (100000 - 1) = min (wrap (dst a e)).toInt.toNat (100000 - 1)
    rw [v31_at])
  exact (congrArg (fun r => val_main_v4 (F := Ideal) a.x a.Wq a.bq (ix3 r h d)) hr).trans (v4_at a _ h d)

/-- The value row of an edge's source. -/
theorem v46_at (e : Fin 800000) (h : Fin 8) (d : Fin 16) :
    val_main_v46 (F := Ideal) a.x a.ei a.Wv a.bv (ix3 e h d) = vS a e (lane h d) := by
  unfold val_main_v46
  refine (Cert.LibEdgeOps3.gather_slabs_apply (by decide) _ ⟨rfl, rfl, rfl, rfl, rfl, rfl, rfl⟩ _ _ e h d).trans ?_
  have hr : (⟨min (val_main_v45 (F := Ideal) a.ei (ix2 e (0 : Fin 1))).toInt.toNat (100000 - 1), by omega⟩ : Fin 100000)
      = row (wrap (src a e)) := Fin.ext (by
    show min (val_main_v45 (F := Ideal) a.ei (ix2 e (0 : Fin 1))).toInt.toNat (100000 - 1) = min (wrap (src a e)).toInt.toNat (100000 - 1)
    rw [v45_at])
  exact (congrArg (fun r => val_main_v14 (F := Ideal) a.x a.Wv a.bv (ix3 r h d)) hr).trans (v14_at a _ h d)

/-! ## Scores and messages -/

/-- The head's inner product of the source's key and the destination's query. -/
theorem v34_at (e : Fin 800000) (h : Fin 8) :
    val_main_v34 (F := Ideal) a.x a.ei a.Wq a.bq a.Wk a.bk (ix2 e h) = qk a e h := by
  rw [val_main_v34_apply, val_main_cst_apply]
  show Ideal.ofBits .f32 0x00000000#32 + _ = _
  rw [Ideal.ofBits_zero_f32, zero_add]
  unfold qk
  refine Finset.sum_congr rfl fun d _ => ?_
  have hi : idx_main_v34 (ix2 e h) d = ix3 e h d :=
    funext fun ax => match ax with | ⟨0, _⟩ => rfl | ⟨1, _⟩ => rfl | ⟨2, _⟩ => rfl
  rw [hi, val_main_v33_apply, v25_at, v32_at]
  rfl

/-- An edge's score at a head: the inner product divided by 4, clipped to [-5, 5], exponentiated. -/
theorem v39_at (e : Fin 800000) (h : Fin 8) :
    val_main_v39 (F := Ideal) a.x a.ei a.Wq a.bq a.Wk a.bk (ix3 e h (0 : Fin 1)) = score a e h := by
  have hi : idx_main_v35 (ix3 e h (0 : Fin 1)) = ix2 e h :=
    funext fun ax => match ax with | ⟨0, _⟩ => rfl | ⟨1, _⟩ => rfl
  rw [val_main_v39_apply, val_main_v38_apply, val_main_call0_v2_apply, val_main_v37_apply, val_main_call0_v4_apply,
    val_main_call0_v3_apply, val_main_cst_5_apply, val_main_call0_v1_apply, val_main_call0_v0_apply,
    val_main_cst_4_apply, val_main_v36_apply, val_main_cst_3_apply, val_main_v35_apply, hi, v34_at]
  rfl

/-- An edge's message at head `h`, lane `d`: the source's value times the score. -/
theorem v48_at (e : Fin 800000) (h : Fin 8) (d : Fin 16) :
    val_main_v48 (F := Ideal) a.x a.ei a.Wq a.bq a.Wk a.bk a.Wv a.bv (ix3 e h d) = msg a e h d := by
  have hi : idx_main_v47 (ix3 e h d) = ix3 e h (0 : Fin 1) :=
    funext fun ax => match ax with | ⟨0, _⟩ => rfl | ⟨1, _⟩ => rfl | ⟨2, _⟩ => rfl
  rw [val_main_v48_apply, val_main_v47_apply, hi, v39_at, v46_at]
  rfl

/-! ## The two accumulating scatters -/

/-- The edges whose scatter index is node `n` are the edges the node collects. -/
theorem filter_v50 (n : Fin 100000) :
    Finset.univ.filter (fun e : Fin 800000 => (val_main_v50 (F := Ideal) a.ei (ix2 e (0 : Fin 1))).toInt = (n.val : Int))
      = hits a n :=
  Finset.filter_congr fun e _ => by rw [v50_at]

theorem filter_v53 (n : Fin 100000) :
    Finset.univ.filter (fun e : Fin 800000 => (val_main_v53 (F := Ideal) a.ei (ix2 e (0 : Fin 1))).toInt = (n.val : Int))
      = hits a n :=
  Finset.filter_congr fun e _ => by rw [v53_at]

/-- The sum of the messages a node collects. -/
theorem v51_at (n : Fin 100000) (h : Fin 8) (d : Fin 16) :
    val_main_v51 (F := Ideal) a.x a.ei a.Wq a.bq a.Wk a.bk a.Wv a.bv (ix3 n h d) = ∑ e ∈ hits a n, msg a e h d := by
  unfold val_main_v51
  refine (Cert.LibEdgeOps3.host_scatterAdd_slabs_apply _ ⟨rfl, rfl, rfl, rfl⟩ _ _ _ n h d).trans ?_
  rw [val_main_v49_apply, val_main_cst_8_apply, filter_v50]
  show Ideal.ofBits .f32 0x00000000#32 + _ = _
  rw [Ideal.ofBits_zero_f32, zero_add]
  exact Finset.sum_congr rfl fun e _ => v48_at a e h d

/-- The sum of the scores a node collects. -/
theorem v54_at (n : Fin 100000) (h : Fin 8) :
    val_main_v54 (F := Ideal) a.x a.ei a.Wq a.bq a.Wk a.bk (ix3 n h (0 : Fin 1)) = ∑ e ∈ hits a n, score a e h := by
  unfold val_main_v54
  refine (Cert.LibEdgeOps3.host_scatterAdd_slabs_apply _ ⟨rfl, rfl, rfl, rfl⟩ _ _ _ n h (0 : Fin 1)).trans ?_
  rw [val_main_v52_apply, val_main_cst_9_apply, filter_v53]
  show Ideal.ofBits .f32 0x00000000#32 + _ = _
  rw [Ideal.ofBits_zero_f32, zero_add]
  exact Finset.sum_congr rfl fun e _ => v39_at a e h

/-! ## The result -/

/-- Lane `16·h + d` of the row of 128 is head `h`, lane `d`. -/
theorem join_val (n : Fin 100000) (h : Fin 8) (d : Fin 16) :
    (n.val * 128 + (h.val * 16 + d.val)) / 128 = n.val ∧ (n.val * 128 + (h.val * 16 + d.val)) / 16 % 8 = h.val
      ∧ (n.val * 128 + (h.val * 16 + d.val)) % 16 = d.val := by
  have := h.isLt; have := d.isLt
  omega

theorem idx_v59_at (n : Fin 100000) (h : Fin 8) (d : Fin 16) : idx_main_v59 (ix2 n (lane h d)) = ix3 n h d :=
  funext fun ax => Fin.ext (match ax with
    | ⟨0, _⟩ => (join_val n h d).1
    | ⟨1, _⟩ => (join_val n h d).2.1
    | ⟨2, _⟩ => (join_val n h d).2.2)

/-- The result at node `n`, head `h`, lane `d`. -/
theorem v59_at (n : Fin 100000) (h : Fin 8) (d : Fin 16) :
    val_main_v59 (F := Ideal) a.x a.ei a.Wq a.bq a.Wk a.bk a.Wv a.bv (ix2 n (lane h d)) = out a n h d := by
  have hi : idx_main_v57 (ix3 n h d) = ix3 n h (0 : Fin 1) :=
    funext fun ax => match ax with | ⟨0, _⟩ => rfl | ⟨1, _⟩ => rfl | ⟨2, _⟩ => rfl
  rw [val_main_v59_apply, idx_v59_at, val_main_v58_apply, v51_at, val_main_v57_apply, hi, val_main_v56_apply, v54_at,
    val_main_v55_apply, val_main_cst_10_apply]
  rfl

/-- The result at any entry of a row: its lane is lane `j % 16` of head `j / 16`. -/
theorem val_eq_at (n : Fin 100000) (j : Fin 128) :
    val_main_v59 (F := Ideal) a.x a.ei a.Wq a.bq a.Wk a.bk a.Wv a.bv (ix2 n j) = G a (ix2 n j) := by
  have key := (v59_at a n ⟨j.val / 16, Nat.div_lt_of_lt_mul j.isLt⟩ ⟨j.val % 16, Nat.mod_lt _ (by decide)⟩).trans
    (G_apply a n _ _).symm
  rw [lane_div_mod] at key
  exact key

/-- The reference's result array is the specification's. -/
theorem val_eq : val_main_v59 (F := Ideal) a.x a.ei a.Wq a.bq a.Wk a.bk a.Wv a.bv = G a := by
  funext i
  rw [eq_ix2 i]
  exact val_eq_at a (i 0) (i 1)

end Stages

/-- THE REFERENCE IS THE SPECIFICATION: the reference's result, as the composed term of the argument arrays its run
    ends with, is the specification's function of those arrays. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v59 (F := Ideal) m c = Cert.Attn.G (argsOf m c) :=
  (val_main_v59_eq (F := Ideal) m c).trans (val_eq (argsOf m c))

end Cert.RefSide

end
-- ==== Proof.lean ====
/-
  The certificate of a sparse graph-attention layer: a Pallas implementation (a tiled projection kernel for queries, keys and
  values; an edge kernel that forms per-edge, per-head scores and messages through products with a 0/1 head matrix; gathers
  and accumulating scatters on the host) against a plain array reference. Over the extended reals the two compute one
  function of the arguments (Proof/Spec.lean): per node, head and lane, the sum over the node's incoming edges of the source's
  value entry times the edge's score, divided by the sum of those scores plus a small constant; a score is the exponential of
  the clipped quarter of the head's inner product of the source's key and the destination's query. What differs between the
  texts is only how sums are grouped (a product with a 0/1 matrix against a sum over a head's lanes), a factor 1/4 against a
  division by 4 (a dyadic), changes of float format (the identity here) and the tiling. The three programs run to the end
  with their arguments unchanged: the kernel programs by their pipelines' frames (Proof/KBRun.lean at words, Proof/KIRun.lean
  at extended reals), the reference by its host run. The idealization rewrote nothing, so it is preserved trivially.
-/
import proofs.«107467_j10763188043963_1_alg».proof.Defs
import proofs.«107467_j10763188043963_1_alg».proof.Proof.Gen.Kernel
import proofs.«107467_j10763188043963_1_alg».proof.Proof.Gen.KernelIdeal
import proofs.«107467_j10763188043963_1_alg».proof.Proof.Gen.ReferenceIdeal
import proofs.«107467_j10763188043963_1_alg».proof.Proof.Gen.Pre_finite_inputs
import proofs.«107467_j10763188043963_1_alg».proof.Proof.Gen.ReferenceIdeal.Run
import proofs.«107467_j10763188043963_1_alg».proof.Proof.Gen.ReferenceIdeal.Read
import proofs.«107467_j10763188043963_1_alg».proof.Proof.KBRun
import proofs.«107467_j10763188043963_1_alg».proof.Proof.KIRun
import proofs.«107467_j10763188043963_1_alg».proof.Proof.KIHost
import proofs.«107467_j10763188043963_1_alg».proof.Proof.RefIsG
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference has no kernel: its frame is its host run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the specified function of them. -/
theorem algebraic : Cert.algebraic_KernelIdeal_ReferenceIdeal := by
  intro m ρ m' ρ' _ hagree
  refine ⟨fun c => Cert.Attn.G (Cert.KernelIdeal.Hand.argsOf m c), Cert.KernelIdeal.Hand.run_value m ρ, ?_⟩
  refine (θ_run Cert.ReferenceIdeal.defs _ _).mono (fun _ h c => ⟨(h c).1.trans ((Cert.RefSide.res_eq m' c).trans ?_), (h c).2⟩)
    (Cert.ReferenceIdeal.Value.run (F := Ideal) m' ρ')
  obtain ⟨h0, h1, -, -, h4, h5, h6, h7, h8, h9⟩ := hagree c
  unfold Cert.RefSide.argsOf Cert.KernelIdeal.Hand.argsOf
  rw [h0, h1, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
